-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S16x4x512x512 : Shape := ⟨4, ![16, 4, 512, 512]⟩
abbrev S16x256 : Shape := ⟨2, ![16, 256]⟩
abbrev S16x256x4 : Shape := ⟨3, ![16, 256, 4]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_arg4 : FVec F S16x256 .f32) (main_v13 : IVec S_ 1) (main_v16 : IVec S16x4x512x512 1) : IVec S_ 1 :=
  let main_c_5 : IVec S_ 1 := constantI S_ 1 1#1
  let main_v17 : IVec S_ 1 := (fun x v => Host.reduce IntOp.andi x v reducesTo_S16x4x512x512_S_d0_1_2_3 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  main_v23

def fn {F : FTy → Type} [FloatOps F] (main_arg0 : FVec F S16x1x512x512 .f32) (main_arg1 : FVec F S16x1x512x512 .f32) (main_arg2 : FVec F S16x1x512x512 .f32) (main_arg3 : FVec F S16x4x512x512 .f32) (main_arg4 : FVec F S16x256 .f32) (main_arg5 : IVec S16x256x4 32) (main_arg6 : IVec S16x256 1) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_v14 : FVec F S16x4x512x512 .f32 := Host.absf main_arg3
  let main_cst_4 : FVec F S_ .f32 := constant S_ .f32 0x7F800000#32
  let main_v15 : FVec F S16x4x512x512 .f32 := broadcastInDim S16x4x512x512 ![] bcast_S_S16x4x512x512 main_cst_4
  let main_v16 : IVec S16x4x512x512 1 := cmpf .olt main_v14 main_v15
  fn_part1 (F := F) main_arg4 main_v13 main_v16
-- ==== Kernel.lean ====
abbrev S16x1x512x512 : Shape := ⟨4, ![16, 1, 512, 512]⟩
abbrev S16x4x512x512 : Shape := ⟨4, ![16, 4, 512, 512]⟩
abbrev S16x256 : Shape := ⟨2, ![16, 256]⟩
abbrev S16x256x4 : Shape := ⟨3, ![16, 256, 4]⟩
abbrev S8192x512 : Shape := ⟨2, ![8192, 512]⟩
abbrev S1x1 : Shape := ⟨2, ![1, 1]⟩
abbrev S_ : Shape := ⟨0, ![]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩
abbrev S16x256x1 : Shape := ⟨3, ![16, 256, 1]⟩
abbrev S16 : Shape := ⟨1, ![16]⟩
abbrev S16x1 : Shape := ⟨2, ![16, 1]⟩
abbrev S16x256x3 : Shape := ⟨3, ![16, 256, 3]⟩
abbrev S4 : Shape := ⟨1, ![4]⟩

abbrev nBuf : Space → Nat
  | .hbm => 240
  | .vmem => 6
  | .smem => 0
  | _ => 0

abbrev hbmTy0_0 (i : Nat) : BufTy := match i % 128 with
  | 0 => ⟨S16x1x512x512, .f32⟩
  | 1 => ⟨S16x1x512x512, .f32⟩
  | 2 => ⟨S16x1x512x512, .f32⟩
  | 3 => ⟨S16x4x512x512, .f32⟩
  | 4 => ⟨S16x256, .f32⟩
  | 5 => ⟨S16x256x4, .i32⟩
  | 6 => ⟨S16x256, .i1⟩
  | 7 => ⟨S8192x512, .f32⟩
  | 8 => ⟨S8192x512, .f32⟩
  | 9 => ⟨S1x1, .f32⟩
  | 10 => ⟨S_, .f32⟩
  | 11 => ⟨S_, .f32⟩
  | 12 => ⟨S_, .f32⟩
  | 13 => ⟨S16x256x1, .i32⟩
  | 14 => ⟨S16x256, .i32⟩
  | 15 => ⟨S16x256x1, .i32⟩
  | 16 => ⟨S16x256, .i32⟩
  | 17 => ⟨S16x256x1, .i32⟩
  | 18 => ⟨S16x256, .i32⟩
  | 19 => ⟨S16x256x1, .i32⟩
  | 20 => ⟨S16x256, .i32⟩
  | 21 => ⟨S16x256, .i32⟩
  | 22 => ⟨S_, .i32⟩
  | 23 => ⟨S_, .i32⟩
  | 24 => ⟨S16x256, .i32⟩
  | 25 => ⟨S16x256, .i32⟩
  | 26 => ⟨S16x256, .i32⟩
  | 27 => ⟨S_, .i32⟩
  | 28 => ⟨S16x256, .i32⟩
  | 29 => ⟨S16x256, .i1⟩
  | 30 => ⟨S16x256, .i32⟩
  | 31 => ⟨S16x256, .i32⟩
  | 32 => ⟨S_, .i32⟩
  | 33 => ⟨S16x256, .i32⟩
  | 34 => ⟨S16x256, .i1⟩
  | 35 => ⟨S16x256, .i1⟩
  | 36 => ⟨S_, .i32⟩
  | 37 => ⟨S16x256, .i32⟩
  | 38 => ⟨S16x256, .i32⟩
  | 39 => ⟨S16x256, .i32⟩
  | 40 => ⟨S16x256, .i32⟩
  | 41 => ⟨S_, .i32⟩
  | 42 => ⟨S_, .i32⟩
  | 43 => ⟨S16x256, .i32⟩
  | 44 => ⟨S16x256, .i32⟩
  | 45 => ⟨S16x256, .i32⟩
  | 46 => ⟨S_, .i32⟩
  | 47 => ⟨S16x256, .i32⟩
  | 48 => ⟨S16x256, .i1⟩
  | 49 => ⟨S16x256, .i32⟩
  | 50 => ⟨S16x256, .i32⟩
  | 51 => ⟨S_, .i32⟩
  | 52 => ⟨S16x256, .i32⟩
  | 53 => ⟨S16x256, .i1⟩
  | 54 => ⟨S16x256, .i1⟩
  | 55 => ⟨S_, .i32⟩
  | 56 => ⟨S16x256, .i32⟩
  | 57 => ⟨S16x256, .i32⟩
  | 58 => ⟨S16x256, .i32⟩
  | 59 => ⟨S_, .i32⟩
  | 60 => ⟨S16x256, .i32⟩
  | 61 => ⟨S16x256, .i1⟩
  | 62 => ⟨S16x256, .i1⟩
  | 63 => ⟨S_, .i32⟩
  | 64 => ⟨S16x256, .i32⟩
  | 65 => ⟨S16x256, .i1⟩
  | 66 => ⟨S16x256, .i1⟩
  | 67 => ⟨S_, .i32⟩
  | 68 => ⟨S16x256, .i32⟩
  | 69 => ⟨S16x256, .i1⟩
  | 70 => ⟨S16x256, .i1⟩
  | 71 => ⟨S_, .i32⟩
  | 72 => ⟨S16x256, .i32⟩
  | 73 => ⟨S16x256, .i1⟩
  | 74 => ⟨S16x256, .i1⟩
  | 75 => ⟨S_, .i32⟩
  | 76 => ⟨S_, .i32⟩
  | 77 => ⟨S_, .i32⟩
  | 78 => ⟨S16x256, .i32⟩
  | 79 => ⟨S16x256, .i32⟩
  | 80 => ⟨S_, .i32⟩
  | 81 => ⟨S16x256, .i32⟩
  | 82 => ⟨S16x256, .i32⟩
  | 83 => ⟨S_, .i32⟩
  | 84 => ⟨S_, .i32⟩
  | 85 => ⟨S_, .i32⟩
  | 86 => ⟨S16x256, .i32⟩
  | 87 => ⟨S16x256, .i32⟩
  | 88 => ⟨S_, .i32⟩
  | 89 => ⟨S16x256, .i32⟩
  | 90 => ⟨S16x256, .i32⟩
  | 91 => ⟨S16, .i32⟩
  | 92 => ⟨S16x1, .i32⟩
  | 93 => ⟨S_, .i32⟩
  | 94 => ⟨S16x1, .i32⟩
  | 95 => ⟨S16x1, .i1⟩
  | 96 => ⟨S_, .i32⟩
  | 97 => ⟨S16x1, .i32⟩
  | 98 => ⟨S16x1, .i32⟩
  | 99 => ⟨S16x1, .i32⟩
  | 100 => ⟨S_, .i32⟩
  | 101 => ⟨S16x256, .i32⟩
  | 102 => ⟨S16x256, .i1⟩
  | 103 => ⟨S_, .i32⟩
  | 104 => ⟨S16x256, .i32⟩
  | 105 => ⟨S16x256, .i32⟩
  | 106 => ⟨S16x256, .i32⟩
  | 107 => ⟨S_, .i32⟩
  | 108 => ⟨S16x256, .i32⟩
  | 109 => ⟨S16x256, .i1⟩
  | 110 => ⟨S_, .i32⟩
  | 111 => ⟨S16x256, .i32⟩
  | 112 => ⟨S16x256, .i32⟩
  | 113 => ⟨S16x256, .i32⟩
  | 114 => ⟨S16x256, .i32⟩
  | 115 => ⟨S16x256x1, .i32⟩
  | 116 => ⟨S16x256x1, .i32⟩
  | 117 => ⟨S16x256x1, .i32⟩
  | 118 => ⟨S16x256x3, .i32⟩
  | 119 => ⟨S16x256x4, .f32⟩
  | 120 => ⟨S_, .i32⟩
  | 121 => ⟨S16x1, .i32⟩
  | 122 => ⟨S16x1, .i1⟩
  | 123 => ⟨S_, .i32⟩
  | 124 => ⟨S16x1, .i32⟩
  | 125 => ⟨S16x1, .i32⟩
  | 126 => ⟨S16x1, .i32⟩
  | 127 => ⟨S_, .i32⟩
  | _ => ⟨S16x1x512x512, .f32⟩

abbrev hbmTy0_1 (i : Nat) : BufTy := match i % 128 with
  | 0 => ⟨S16x256, .i32⟩
  | 1 => ⟨S16x256, .i1⟩
  | 2 => ⟨S_, .i32⟩
  | 3 => ⟨S16x256, .i32⟩
  | 4 => ⟨S16x256, .i32⟩
  | 5 => ⟨S16x256, .i32⟩
  | 6 => ⟨S_, .i32⟩
  | 7 => ⟨S16x256, .i32⟩
  | 8 => ⟨S16x256, .i1⟩
  | 9 => ⟨S_, .i32⟩
  | 10 => ⟨S16x256, .i32⟩
  | 11 => ⟨S16x256, .i32⟩
  | 12 => ⟨S16x256, .i32⟩
  | 13 => ⟨S16x256, .i32⟩
  | 14 => ⟨S_, .i32⟩
  | 15 => ⟨S16x256, .i32⟩
  | 16 => ⟨S16x256, .i32⟩
  | 17 => ⟨S16x256x1, .i32⟩
  | 18 => ⟨S16x256x1, .i32⟩
  | 19 => ⟨S16x256x1, .i32⟩
  | 20 => ⟨S16x256x1, .i32⟩
  | 21 => ⟨S16x256x4, .i32⟩
  | 22 => ⟨S16x256, .f32⟩
  | 23 => ⟨S16x256, .f32⟩
  | 24 => ⟨S_, .f32⟩
  | 25 => ⟨S16x256, .f32⟩
  | 26 => ⟨S16x256, .f32⟩
  | 27 => ⟨S16x256, .f32⟩
  | 28 => ⟨S_, .f32⟩
  | 29 => ⟨S16x256, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S16x256, .f32⟩
  | 36 => ⟨S_, .f32⟩
  | 37 => ⟨S16x256, .f32⟩
  | 38 => ⟨S16x256, .f32⟩
  | 39 => ⟨S16x256x1, .f32⟩
  | 40 => ⟨S16x256x1, .f32⟩
  | 41 => ⟨S16x256x1, .f32⟩
  | 42 => ⟨S16x256x1, .f32⟩
  | 43 => ⟨S16x256x4, .f32⟩
  | 44 => ⟨S16x256x4, .f32⟩
  | 45 => ⟨S16x256x4, .f32⟩
  | 46 => ⟨S_, .f32⟩
  | 47 => ⟨S16x256x4, .f32⟩
  | 48 => ⟨S16x256x4, .i1⟩
  | 49 => ⟨S_, .f32⟩
  | 50 => ⟨S16x256x4, .f32⟩
  | 51 => ⟨S16x256x4, .f32⟩
  | 52 => ⟨S16x256x4, .f32⟩
  | 53 => ⟨S_, .f32⟩
  | 54 => ⟨S16x256x4, .f32⟩
  | 55 => ⟨S16x256x4, .f32⟩
  | 56 => ⟨S16x256x4, .f32⟩
  | 57 => ⟨S_, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S16x256, .f32⟩
  | 67 => ⟨S16x256, .f32⟩
  | 68 => ⟨S_, .f32⟩
  | 69 => ⟨S16x256, .f32⟩
  | 70 => ⟨S16x256, .f32⟩
  | 71 => ⟨S16x256, .f32⟩
  | 72 => ⟨S_, .f32⟩
  | 73 => ⟨S16x256, .f32⟩
  | 74 => ⟨S16x256, .f32⟩
  | 75 => ⟨S16x256, .f32⟩
  | 76 => ⟨S16x256, .f32⟩
  | 77 => ⟨S16x256, .f32⟩
  | 78 => ⟨S16x256, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S16x256, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S16x256, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1, .f32⟩
  | 108 => ⟨S1, .f32⟩
  | 109 => ⟨S1, .f32⟩
  | 110 => ⟨S1, .f32⟩
  | 111 => ⟨S4, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1, .f32⟩
  | .local _ .vmem, ⟨5, _⟩ => ⟨S1x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v13 : Ref sig .tc := ⟨.hbm, 39, rfl⟩
abbrev main_v14 : Ref sig .tc := ⟨.hbm, 40, rfl⟩
abbrev main_c_0 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v15 : Ref sig .tc := ⟨.hbm, 58, rfl⟩
abbrev main_c_1 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_c_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_c_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_5 : Ref sig .tc := ⟨.hbm, 75, rfl⟩
abbrev main_c_6 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v28 : Ref sig .tc := ⟨.hbm, 82, rfl⟩
abbrev main_c_7 : Ref sig .tc := ⟨.hbm, 83, rfl⟩
abbrev main_c_8 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_c_9 : Ref sig .tc := ⟨.hbm, 93, rfl⟩
abbrev main_v32 : Ref sig .tc := ⟨.hbm, 94, rfl⟩
abbrev main_v33 : Ref sig .tc := ⟨.hbm, 95, rfl⟩
abbrev main_c_10 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_11 : Ref sig .tc := ⟨.hbm, 100, rfl⟩
abbrev main_v37 : Ref sig .tc := ⟨.hbm, 101, rfl⟩
abbrev main_v38 : Ref sig .tc := ⟨.hbm, 102, rfl⟩
abbrev main_c_12 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_c_13 : Ref sig .tc := ⟨.hbm, 107, rfl⟩
abbrev main_v42 : Ref sig .tc := ⟨.hbm, 108, rfl⟩
abbrev main_v43 : Ref sig .tc := ⟨.hbm, 109, rfl⟩
abbrev main_c_14 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_c_15 : Ref sig .tc := ⟨.hbm, 120, rfl⟩
abbrev main_v53 : Ref sig .tc := ⟨.hbm, 121, rfl⟩
abbrev main_v54 : Ref sig .tc := ⟨.hbm, 122, rfl⟩
abbrev main_c_16 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_c_17 : Ref sig .tc := ⟨.hbm, 127, rfl⟩
abbrev main_v58 : Ref sig .tc := ⟨.hbm, 128, rfl⟩
abbrev main_v59 : Ref sig .tc := ⟨.hbm, 129, rfl⟩
abbrev main_c_18 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_c_19 : Ref sig .tc := ⟨.hbm, 134, rfl⟩
abbrev main_v63 : Ref sig .tc := ⟨.hbm, 135, rfl⟩
abbrev main_v64 : Ref sig .tc := ⟨.hbm, 136, rfl⟩
abbrev main_c_20 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_c_21 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_22 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_cst_23 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_24 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_cst_25 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_26 : Ref sig .tc := ⟨.hbm, 174, rfl⟩
abbrev main_v96 : Ref sig .tc := ⟨.hbm, 175, rfl⟩
abbrev main_v97 : Ref sig .tc := ⟨.hbm, 176, rfl⟩
abbrev main_cst_27 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_28 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_cst_29 : Ref sig .tc := ⟨.hbm, 185, rfl⟩
abbrev main_v104 : Ref sig .tc := ⟨.hbm, 186, rfl⟩
abbrev main_cst_30 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_cst_31 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_cst_32 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_cst_33 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst_34 : Ref sig .tc := ⟨.hbm, 207, rfl⟩
abbrev main_v121 : Ref sig .tc := ⟨.hbm, 208, rfl⟩
abbrev main_cst_35 : Ref sig .tc := ⟨.hbm, 209, rfl⟩
abbrev main_v122 : Ref sig .tc := ⟨.hbm, 210, rfl⟩
abbrev main_cst_36 : Ref sig .tc := ⟨.hbm, 211, rfl⟩
abbrev main_v123 : Ref sig .tc := ⟨.hbm, 212, rfl⟩
abbrev main_v124 : Ref sig .tc := ⟨.hbm, 213, rfl⟩
abbrev main_cst_37 : Ref sig .tc := ⟨.hbm, 214, rfl⟩
abbrev main_v125 : Ref sig .tc := ⟨.hbm, 215, rfl⟩
abbrev main_v126 : Ref sig .tc := ⟨.hbm, 216, rfl⟩
abbrev main_cst_38 : Ref sig .tc := ⟨.hbm, 217, rfl⟩
abbrev main_call6_v0 : Ref sig .tc := ⟨.hbm, 218, rfl⟩
abbrev main_v127 : Ref sig .tc := ⟨.hbm, 219, rfl⟩
abbrev main_v128 : Ref sig .tc := ⟨.hbm, 220, rfl⟩
abbrev main_cst_39 : Ref sig .tc := ⟨.hbm, 221, rfl⟩
abbrev main_v129 : Ref sig .tc := ⟨.hbm, 222, rfl⟩
abbrev main_v130 : Ref sig .tc := ⟨.hbm, 223, rfl⟩
abbrev main_cst_40 : Ref sig .tc := ⟨.hbm, 224, rfl⟩
abbrev main_call7_v0 : Ref sig .tc := ⟨.hbm, 225, rfl⟩
abbrev main_v131 : Ref sig .tc := ⟨.hbm, 226, rfl⟩
abbrev main_cst_41 : Ref sig .tc := ⟨.hbm, 227, rfl⟩
abbrev main_v132 : Ref sig .tc := ⟨.hbm, 228, rfl⟩
abbrev main_cst_42 : Ref sig .tc := ⟨.hbm, 229, rfl⟩
abbrev main_v133 : Ref sig .tc := ⟨.hbm, 230, rfl⟩
abbrev main_v134 : Ref sig .tc := ⟨.hbm, 231, rfl⟩
abbrev main_cst_43 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16x1x512x512_S8192x512 : S16x1x512x512.ShapeCasts S8192x512
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S1x1024x512 : S1024x512.ShapeCasts S1x1024x512
  reduces_S1x1024x512_S1 : S1x1024x512.Reduces [1, 2] S1
  shapeCasts_S1_S1x1x1 : S1.ShapeCasts S1x1x1
  inpos_S1x1x1_p0_0_0 : ∀ a, (![0, 0, 0] : Fin 3 → Nat) a < S1x1x1.size a
  slices_S16x256x4_S16x256x1_0_0_0 : S16x256x4.Slices ![0, 0, 0] S16x256x1
  shapeCasts_S16x256x1_S16x256 : S16x256x1.ShapeCasts S16x256
  slices_S16x256x4_S16x256x1_0_0_1 : S16x256x4.Slices ![0, 0, 1] S16x256x1
  slices_S16x256x4_S16x256x1_0_0_2 : S16x256x4.Slices ![0, 0, 2] S16x256x1
  slices_S16x256x4_S16x256x1_0_0_3 : S16x256x4.Slices ![0, 0, 3] S16x256x1
  bcast_S_S16x256 : S_.BroadcastsInDim S16x256 (![] : Fin 0 → Fin S16x256.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x256_0_1 : S16x1.BroadcastsInDim S16x256 (![0, 1] : Fin 2 → Fin S16x256.rank)
  bcast_S16x256_S16x256x1_0_1 : S16x256.BroadcastsInDim S16x256x1 (![0, 1] : Fin 2 → Fin S16x256x1.rank)
  concatenates_S16x256x1_S16x256x1_S16x256x1_S16x256x3_d2 : Shape.Concatenates [S16x256x1, S16x256x1, S16x256x1] S16x256x3 2
  concatenates_S16x256x1_S16x256x1_S16x256x1_S16x256x1_S16x256x4_d2 : Shape.Concatenates [S16x256x1, S16x256x1, S16x256x1, S16x256x1] S16x256x4 2
  bcast_S_S16x256x4 : S_.BroadcastsInDim S16x256x4 (![] : Fin 0 → Fin S16x256x4.rank)
  reducesTo_S16x256x4_S16x256_d2 : S16x256x4.ReducesTo [2] S16x256
  h_S_ : 0 < S_.numel
  reducesTo_S16x256_S_d0_1 : S16x256.ReducesTo [0, 1] S_
  bcast_S_S1 : S_.BroadcastsInDim S1 (![] : Fin 0 → Fin S1.rank)
  concatenates_S1_S1_S1_S1_S4_d0 : Shape.Concatenates [S1, S1, S1, S1] S4 0
  gather_S16x4x512x512_S16x256x3_S16x256x4_2_023_n_n_023_2_1411_wf : GatherDims.WF S16x4x512x512 S16x256x3 S16x256x4 [2] [0, 2, 3] [] [0, 2, 3] [] 2 ![1, 4, 1, 1]
  gather_S16x1x512x512_S16x256x4_S16x256_n_0123_n_n_0123_2_1111_wf : GatherDims.WF S16x1x512x512 S16x256x4 S16x256 [] [0, 1, 2, 3] [] [0, 1, 2, 3] [] 2 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S16x4x512x512_S16x256x3_S16x256x4_2_023_n_n_023_2_1411 : GatherDims S16x4x512x512 S16x256x3 S16x256x4 where
  offsetDims := [2]
  collapsedSliceDims := [0, 2, 3]
  operandBatchingDims := []
  startIndicesBatchingDims := []
  startIndexMap := [0, 2, 3]
  indexVectorDim := 2
  sliceSizes := ![1, 4, 1, 1]
  wf := gather_S16x4x512x512_S16x256x3_S16x256x4_2_023_n_n_023_2_1411_wf
def gather_S16x1x512x512_S16x256x4_S16x256_n_0123_n_n_0123_2_1111 : GatherDims S16x1x512x512 S16x256x4 S16x256 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S16x1x512x512_S16x256x4_S16x256_n_0123_n_n_0123_2_1111_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x512x512 : Shape := ⟨4, ![16, 1, 512, 512]⟩
abbrev S16x4x512x512 : Shape := ⟨4, ![16, 4, 512, 512]⟩
abbrev S16x256 : Shape := ⟨2, ![16, 256]⟩
abbrev S16x256x4 : Shape := ⟨3, ![16, 256, 4]⟩
abbrev S_ : Shape := ⟨0, ![]⟩
abbrev S16x256x1 : Shape := ⟨3, ![16, 256, 1]⟩
abbrev S16 : Shape := ⟨1, ![16]⟩
abbrev S16x1 : Shape := ⟨2, ![16, 1]⟩
abbrev S16x256x3 : Shape := ⟨3, ![16, 256, 3]⟩
abbrev S1 : Shape := ⟨1, ![1]⟩
abbrev S4 : Shape := ⟨1, ![4]⟩

abbrev nBuf : Space → Nat
  | .hbm => 254
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S16x1x512x512, .f32⟩
  | 3 => ⟨S16x4x512x512, .f32⟩
  | 4 => ⟨S16x256, .f32⟩
  | 5 => ⟨S16x256x4, .i32⟩
  | 6 => ⟨S16x256, .i1⟩
  | 7 => ⟨S16x1x512x512, .f32⟩
  | 8 => ⟨S_, .f32⟩
  | 9 => ⟨S16x1x512x512, .f32⟩
  | 10 => ⟨S16x1x512x512, .f32⟩
  | 11 => ⟨S16x1x512x512, .f32⟩
  | 12 => ⟨S16x1x512x512, .f32⟩
  | 13 => ⟨S_, .f32⟩
  | 14 => ⟨S16x1x512x512, .f32⟩
  | 15 => ⟨S16x1x512x512, .f32⟩
  | 16 => ⟨S16x1x512x512, .f32⟩
  | 17 => ⟨S_, .f32⟩
  | 18 => ⟨S16x1x512x512, .f32⟩
  | 19 => ⟨S16x1x512x512, .f32⟩
  | 20 => ⟨S16x1x512x512, .f32⟩
  | 21 => ⟨S16x1x512x512, .f32⟩
  | 22 => ⟨S16x1x512x512, .f32⟩
  | 23 => ⟨S_, .f32⟩
  | 24 => ⟨S_, .f32⟩
  | 25 => ⟨S_, .f32⟩
  | 26 => ⟨S_, .f32⟩
  | 27 => ⟨S16x256x1, .i32⟩
  | 28 => ⟨S16x256, .i32⟩
  | 29 => ⟨S16x256x1, .i32⟩
  | 30 => ⟨S16x256, .i32⟩
  | 31 => ⟨S16x256x1, .i32⟩
  | 32 => ⟨S16x256, .i32⟩
  | 33 => ⟨S16x256x1, .i32⟩
  | 34 => ⟨S16x256, .i32⟩
  | 35 => ⟨S16x256, .i32⟩
  | 36 => ⟨S_, .i32⟩
  | 37 => ⟨S_, .i32⟩
  | 38 => ⟨S16x256, .i32⟩
  | 39 => ⟨S16x256, .i32⟩
  | 40 => ⟨S16x256, .i32⟩
  | 41 => ⟨S_, .i32⟩
  | 42 => ⟨S16x256, .i32⟩
  | 43 => ⟨S16x256, .i1⟩
  | 44 => ⟨S16x256, .i32⟩
  | 45 => ⟨S16x256, .i32⟩
  | 46 => ⟨S_, .i32⟩
  | 47 => ⟨S16x256, .i32⟩
  | 48 => ⟨S16x256, .i1⟩
  | 49 => ⟨S16x256, .i1⟩
  | 50 => ⟨S_, .i32⟩
  | 51 => ⟨S16x256, .i32⟩
  | 52 => ⟨S16x256, .i32⟩
  | 53 => ⟨S16x256, .i32⟩
  | 54 => ⟨S16x256, .i32⟩
  | 55 => ⟨S_, .i32⟩
  | 56 => ⟨S_, .i32⟩
  | 57 => ⟨S16x256, .i32⟩
  | 58 => ⟨S16x256, .i32⟩
  | 59 => ⟨S16x256, .i32⟩
  | 60 => ⟨S_, .i32⟩
  | 61 => ⟨S16x256, .i32⟩
  | 62 => ⟨S16x256, .i1⟩
  | 63 => ⟨S16x256, .i32⟩
  | 64 => ⟨S16x256, .i32⟩
  | 65 => ⟨S_, .i32⟩
  | 66 => ⟨S16x256, .i32⟩
  | 67 => ⟨S16x256, .i1⟩
  | 68 => ⟨S16x256, .i1⟩
  | 69 => ⟨S_, .i32⟩
  | 70 => ⟨S16x256, .i32⟩
  | 71 => ⟨S16x256, .i32⟩
  | 72 => ⟨S16x256, .i32⟩
  | 73 => ⟨S_, .i32⟩
  | 74 => ⟨S16x256, .i32⟩
  | 75 => ⟨S16x256, .i1⟩
  | 76 => ⟨S16x256, .i1⟩
  | 77 => ⟨S_, .i32⟩
  | 78 => ⟨S16x256, .i32⟩
  | 79 => ⟨S16x256, .i1⟩
  | 80 => ⟨S16x256, .i1⟩
  | 81 => ⟨S_, .i32⟩
  | 82 => ⟨S16x256, .i32⟩
  | 83 => ⟨S16x256, .i1⟩
  | 84 => ⟨S16x256, .i1⟩
  | 85 => ⟨S_, .i32⟩
  | 86 => ⟨S16x256, .i32⟩
  | 87 => ⟨S16x256, .i1⟩
  | 88 => ⟨S16x256, .i1⟩
  | 89 => ⟨S_, .i32⟩
  | 90 => ⟨S_, .i32⟩
  | 91 => ⟨S_, .i32⟩
  | 92 => ⟨S16x256, .i32⟩
  | 93 => ⟨S16x256, .i32⟩
  | 94 => ⟨S_, .i32⟩
  | 95 => ⟨S16x256, .i32⟩
  | 96 => ⟨S16x256, .i32⟩
  | 97 => ⟨S_, .i32⟩
  | 98 => ⟨S_, .i32⟩
  | 99 => ⟨S_, .i32⟩
  | 100 => ⟨S16x256, .i32⟩
  | 101 => ⟨S16x256, .i32⟩
  | 102 => ⟨S_, .i32⟩
  | 103 => ⟨S16x256, .i32⟩
  | 104 => ⟨S16x256, .i32⟩
  | 105 => ⟨S16, .i32⟩
  | 106 => ⟨S16x1, .i32⟩
  | 107 => ⟨S_, .i32⟩
  | 108 => ⟨S16x1, .i32⟩
  | 109 => ⟨S16x1, .i1⟩
  | 110 => ⟨S_, .i32⟩
  | 111 => ⟨S16x1, .i32⟩
  | 112 => ⟨S16x1, .i32⟩
  | 113 => ⟨S16x1, .i32⟩
  | 114 => ⟨S_, .i32⟩
  | 115 => ⟨S16x256, .i32⟩
  | 116 => ⟨S16x256, .i1⟩
  | 117 => ⟨S_, .i32⟩
  | 118 => ⟨S16x256, .i32⟩
  | 119 => ⟨S16x256, .i32⟩
  | 120 => ⟨S16x256, .i32⟩
  | 121 => ⟨S_, .i32⟩
  | 122 => ⟨S16x256, .i32⟩
  | 123 => ⟨S16x256, .i1⟩
  | 124 => ⟨S_, .i32⟩
  | 125 => ⟨S16x256, .i32⟩
  | 126 => ⟨S16x256, .i32⟩
  | 127 => ⟨S16x256, .i32⟩
  | _ => ⟨S16x1x512x512, .f32⟩

abbrev hbmTy0_1 (i : Nat) : BufTy := match i % 128 with
  | 0 => ⟨S16x256, .i32⟩
  | 1 => ⟨S16x256x1, .i32⟩
  | 2 => ⟨S16x256x1, .i32⟩
  | 3 => ⟨S16x256x1, .i32⟩
  | 4 => ⟨S16x256x3, .i32⟩
  | 5 => ⟨S16x256x4, .f32⟩
  | 6 => ⟨S_, .i32⟩
  | 7 => ⟨S16x1, .i32⟩
  | 8 => ⟨S16x1, .i1⟩
  | 9 => ⟨S_, .i32⟩
  | 10 => ⟨S16x1, .i32⟩
  | 11 => ⟨S16x1, .i32⟩
  | 12 => ⟨S16x1, .i32⟩
  | 13 => ⟨S_, .i32⟩
  | 14 => ⟨S16x256, .i32⟩
  | 15 => ⟨S16x256, .i1⟩
  | 16 => ⟨S_, .i32⟩
  | 17 => ⟨S16x256, .i32⟩
  | 18 => ⟨S16x256, .i32⟩
  | 19 => ⟨S16x256, .i32⟩
  | 20 => ⟨S_, .i32⟩
  | 21 => ⟨S16x256, .i32⟩
  | 22 => ⟨S16x256, .i1⟩
  | 23 => ⟨S_, .i32⟩
  | 24 => ⟨S16x256, .i32⟩
  | 25 => ⟨S16x256, .i32⟩
  | 26 => ⟨S16x256, .i32⟩
  | 27 => ⟨S16x256, .i32⟩
  | 28 => ⟨S_, .i32⟩
  | 29 => ⟨S16x256, .i32⟩
  | 30 => ⟨S16x256, .i32⟩
  | 31 => ⟨S16x256x1, .i32⟩
  | 32 => ⟨S16x256x1, .i32⟩
  | 33 => ⟨S16x256x1, .i32⟩
  | 34 => ⟨S16x256x1, .i32⟩
  | 35 => ⟨S16x256x4, .i32⟩
  | 36 => ⟨S16x256, .f32⟩
  | 37 => ⟨S16x256, .f32⟩
  | 38 => ⟨S_, .f32⟩
  | 39 => ⟨S16x256, .f32⟩
  | 40 => ⟨S16x256, .f32⟩
  | 41 => ⟨S16x256, .f32⟩
  | 42 => ⟨S_, .f32⟩
  | 43 => ⟨S16x256, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S16x256, .f32⟩
  | 50 => ⟨S_, .f32⟩
  | 51 => ⟨S16x256, .f32⟩
  | 52 => ⟨S16x256, .f32⟩
  | 53 => ⟨S16x256x1, .f32⟩
  | 54 => ⟨S16x256x1, .f32⟩
  | 55 => ⟨S16x256x1, .f32⟩
  | 56 => ⟨S16x256x1, .f32⟩
  | 57 => ⟨S16x256x4, .f32⟩
  | 58 => ⟨S16x256x4, .f32⟩
  | 59 => ⟨S16x256x4, .f32⟩
  | 60 => ⟨S_, .f32⟩
  | 61 => ⟨S16x256x4, .f32⟩
  | 62 => ⟨S16x256x4, .i1⟩
  | 63 => ⟨S_, .f32⟩
  | 64 => ⟨S16x256x4, .f32⟩
  | 65 => ⟨S16x256x4, .f32⟩
  | 66 => ⟨S16x256x4, .f32⟩
  | 67 => ⟨S_, .f32⟩
  | 68 => ⟨S16x256x4, .f32⟩
  | 69 => ⟨S16x256x4, .f32⟩
  | 70 => ⟨S16x256x4, .f32⟩
  | 71 => ⟨S_, .f32⟩
  | 72 => ⟨S16x256, .f32⟩
  | 73 => ⟨S_, .f32⟩
  | 74 => ⟨S16x256, .f32⟩
  | 75 => ⟨S16x256, .f32⟩
  | 76 => ⟨S16x256, .f32⟩
  | 77 => ⟨S_, .f32⟩
  | 78 => ⟨S16x256, .f32⟩
  | 79 => ⟨S16x256, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S16x256, .f32⟩
  | 86 => ⟨S_, .f32⟩
  | 87 => ⟨S16x256, .f32⟩
  | 88 => ⟨S16x256, .f32⟩
  | 89 => ⟨S16x256, .f32⟩
  | 90 => ⟨S16x256, .f32⟩
  | 91 => ⟨S16x256, .f32⟩
  | 92 => ⟨S16x256, .f32⟩
  | 93 => ⟨S_, .f32⟩
  | 94 => ⟨S_, .f32⟩
  | 95 => ⟨S_, .f32⟩
  | 96 => ⟨S_, .f32⟩
  | 97 => ⟨S_, .f32⟩
  | 98 => ⟨S_, .i1⟩
  | 99 => ⟨S16x256, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S16x256, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1, .f32⟩
  | 122 => ⟨S1, .f32⟩
  | 123 => ⟨S1, .f32⟩
  | 124 => ⟨S1, .f32⟩
  | 125 => ⟨S4, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v24 : Ref sig .tc := ⟨.hbm, 53, rfl⟩
abbrev main_v25 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v26 : Ref sig .tc := ⟨.hbm, 72, rfl⟩
abbrev main_c_5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c_6 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_c_7 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_8 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_c_9 : Ref sig .tc := ⟨.hbm, 89, rfl⟩
abbrev main_c_10 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v39 : Ref sig .tc := ⟨.hbm, 96, rfl⟩
abbrev main_c_11 : Ref sig .tc := ⟨.hbm, 97, rfl⟩
abbrev main_c_12 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_c_13 : Ref sig .tc := ⟨.hbm, 107, rfl⟩
abbrev main_v43 : Ref sig .tc := ⟨.hbm, 108, rfl⟩
abbrev main_v44 : Ref sig .tc := ⟨.hbm, 109, rfl⟩
abbrev main_c_14 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_c_15 : Ref sig .tc := ⟨.hbm, 114, rfl⟩
abbrev main_v48 : Ref sig .tc := ⟨.hbm, 115, rfl⟩
abbrev main_v49 : Ref sig .tc := ⟨.hbm, 116, rfl⟩
abbrev main_c_16 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_c_17 : Ref sig .tc := ⟨.hbm, 121, rfl⟩
abbrev main_v53 : Ref sig .tc := ⟨.hbm, 122, rfl⟩
abbrev main_v54 : Ref sig .tc := ⟨.hbm, 123, rfl⟩
abbrev main_c_18 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_19 : Ref sig .tc := ⟨.hbm, 134, rfl⟩
abbrev main_v64 : Ref sig .tc := ⟨.hbm, 135, rfl⟩
abbrev main_v65 : Ref sig .tc := ⟨.hbm, 136, rfl⟩
abbrev main_c_20 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_c_21 : Ref sig .tc := ⟨.hbm, 141, rfl⟩
abbrev main_v69 : Ref sig .tc := ⟨.hbm, 142, rfl⟩
abbrev main_v70 : Ref sig .tc := ⟨.hbm, 143, rfl⟩
abbrev main_c_22 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_c_23 : Ref sig .tc := ⟨.hbm, 148, rfl⟩
abbrev main_v74 : Ref sig .tc := ⟨.hbm, 149, rfl⟩
abbrev main_v75 : Ref sig .tc := ⟨.hbm, 150, rfl⟩
abbrev main_c_24 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_c_25 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_cst_26 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_cst_27 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_28 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_cst_29 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_cst_30 : Ref sig .tc := ⟨.hbm, 188, rfl⟩
abbrev main_v107 : Ref sig .tc := ⟨.hbm, 189, rfl⟩
abbrev main_v108 : Ref sig .tc := ⟨.hbm, 190, rfl⟩
abbrev main_cst_31 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_cst_32 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_33 : Ref sig .tc := ⟨.hbm, 199, rfl⟩
abbrev main_v115 : Ref sig .tc := ⟨.hbm, 200, rfl⟩
abbrev main_cst_34 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_35 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_cst_36 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_cst_37 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_cst_38 : Ref sig .tc := ⟨.hbm, 221, rfl⟩
abbrev main_v132 : Ref sig .tc := ⟨.hbm, 222, rfl⟩
abbrev main_cst_39 : Ref sig .tc := ⟨.hbm, 223, rfl⟩
abbrev main_v133 : Ref sig .tc := ⟨.hbm, 224, rfl⟩
abbrev main_cst_40 : Ref sig .tc := ⟨.hbm, 225, rfl⟩
abbrev main_v134 : Ref sig .tc := ⟨.hbm, 226, rfl⟩
abbrev main_v135 : Ref sig .tc := ⟨.hbm, 227, rfl⟩
abbrev main_cst_41 : Ref sig .tc := ⟨.hbm, 228, rfl⟩
abbrev main_v136 : Ref sig .tc := ⟨.hbm, 229, rfl⟩
abbrev main_v137 : Ref sig .tc := ⟨.hbm, 230, rfl⟩
abbrev main_cst_42 : Ref sig .tc := ⟨.hbm, 231, rfl⟩
abbrev main_call5_v0 : Ref sig .tc := ⟨.hbm, 232, rfl⟩
abbrev main_v138 : Ref sig .tc := ⟨.hbm, 233, rfl⟩
abbrev main_v139 : Ref sig .tc := ⟨.hbm, 234, rfl⟩
abbrev main_cst_43 : Ref sig .tc := ⟨.hbm, 235, rfl⟩
abbrev main_v140 : Ref sig .tc := ⟨.hbm, 236, rfl⟩
abbrev main_v141 : Ref sig .tc := ⟨.hbm, 237, rfl⟩
abbrev main_cst_44 : Ref sig .tc := ⟨.hbm, 238, rfl⟩
abbrev main_call6_v0 : Ref sig .tc := ⟨.hbm, 239, rfl⟩
abbrev main_v142 : Ref sig .tc := ⟨.hbm, 240, rfl⟩
abbrev main_cst_45 : Ref sig .tc := ⟨.hbm, 241, rfl⟩
abbrev main_v143 : Ref sig .tc := ⟨.hbm, 242, rfl⟩
abbrev main_cst_46 : Ref sig .tc := ⟨.hbm, 243, rfl⟩
abbrev main_v144 : Ref sig .tc := ⟨.hbm, 244, rfl⟩
abbrev main_v145 : Ref sig .tc := ⟨.hbm, 245, rfl⟩
abbrev main_cst_47 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  slices_S16x256x4_S16x256x1_0_0_0 : S16x256x4.Slices ![0, 0, 0] S16x256x1
  shapeCasts_S16x256x1_S16x256 : S16x256x1.ShapeCasts S16x256
  slices_S16x256x4_S16x256x1_0_0_1 : S16x256x4.Slices ![0, 0, 1] S16x256x1
  slices_S16x256x4_S16x256x1_0_0_2 : S16x256x4.Slices ![0, 0, 2] S16x256x1
  slices_S16x256x4_S16x256x1_0_0_3 : S16x256x4.Slices ![0, 0, 3] S16x256x1
  bcast_S_S16x256 : S_.BroadcastsInDim S16x256 (![] : Fin 0 → Fin S16x256.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x256_0_1 : S16x1.BroadcastsInDim S16x256 (![0, 1] : Fin 2 → Fin S16x256.rank)
  bcast_S16x256_S16x256x1_0_1 : S16x256.BroadcastsInDim S16x256x1 (![0, 1] : Fin 2 → Fin S16x256x1.rank)
  concatenates_S16x256x1_S16x256x1_S16x256x1_S16x256x3_d2 : Shape.Concatenates [S16x256x1, S16x256x1, S16x256x1] S16x256x3 2
  concatenates_S16x256x1_S16x256x1_S16x256x1_S16x256x1_S16x256x4_d2 : Shape.Concatenates [S16x256x1, S16x256x1, S16x256x1, S16x256x1] S16x256x4 2
  bcast_S_S16x256x4 : S_.BroadcastsInDim S16x256x4 (![] : Fin 0 → Fin S16x256x4.rank)
  reducesTo_S16x256x4_S16x256_d2 : S16x256x4.ReducesTo [2] S16x256
  reducesTo_S16x256_S_d0_1 : S16x256.ReducesTo [0, 1] S_
  bcast_S_S1 : S_.BroadcastsInDim S1 (![] : Fin 0 → Fin S1.rank)
  concatenates_S1_S1_S1_S1_S4_d0 : Shape.Concatenates [S1, S1, S1, S1] S4 0
  gather_S16x4x512x512_S16x256x3_S16x256x4_2_023_n_n_023_2_1411_wf : GatherDims.WF S16x4x512x512 S16x256x3 S16x256x4 [2] [0, 2, 3] [] [0, 2, 3] [] 2 ![1, 4, 1, 1]
  gather_S16x1x512x512_S16x256x4_S16x256_n_0123_n_n_0123_2_1111_wf : GatherDims.WF S16x1x512x512 S16x256x4 S16x256 [] [0, 1, 2, 3] [] [0, 1, 2, 3] [] 2 ![1, 1, 1, 1]

variable [Facts₀]

def gather_S16x4x512x512_S16x256x3_S16x256x4_2_023_n_n_023_2_1411 : GatherDims S16x4x512x512 S16x256x3 S16x256x4 where
  offsetDims := [2]
  collapsedSliceDims := [0, 2, 3]
  operandBatchingDims := []
  startIndicesBatchingDims := []
  startIndexMap := [0, 2, 3]
  indexVectorDim := 2
  sliceSizes := ![1, 4, 1, 1]
  wf := gather_S16x4x512x512_S16x256x3_S16x256x4_2_023_n_n_023_2_1411_wf
def gather_S16x1x512x512_S16x256x4_S16x256_n_0123_n_n_0123_2_1111 : GatherDims S16x1x512x512 S16x256x4 S16x256 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S16x1x512x512_S16x256x4_S16x256_n_0123_n_n_0123_2_1111_wf

class Facts : Prop extends Facts₀ where

variable [Facts]
-- ==== Proof.KFrameBase.lean ====
/- The frame of the kernel program: what the three control cases of its body share. The grid has 8 points; the
   scratch accumulator is zeroed at point 0, added to at every point, and copied into the output's staging buffer at
   point 7, where alone the output is written back. Here: the contents at the region's entry, the input windows'
   blocks, the body's two branch conditions in closed form over the grid, where the output window is idle, the
   staging and scratch memrefs, and the region invariant with the scratch as a memref. Stated for any float instance. -/
import proofs.«125002_j27127013441992_1_alg».proof.Proof.KLaunch
import proofs.«125002_j27127013441992_1_alg».proof.Proof.Gen.Kernel.Skeleton
import proofs.«125002_j27127013441992_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch, in program order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15]

/-- Core `c`'s TensorCore buffer contents when the region is entered, as a valuation: the launch contents after the
    two reshapes that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is `V`'s
    (`hA`) and whose body leaves the block in place (`hafter`): the window is an input, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (`k0_h1`), from the grid coordinate (the skeleton's scalar chain
    substituted). -/
abbrev cond0_0 (i : grid0.Coords) : Prop := (Scalar.cmpi .ne (Scalar.extui (Scalar.cmpi .eq (BitVec.ofNat 32 (i 0).val) 0#32)) 0#32) = 1#1
/-- It holds at point 0 only — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (`k0_h2`). -/
abbrev cond0_1 (i : grid0.Coords) : Prop := k0_cond2 i = 1#1
/-- It holds at point 7 only — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At point 0 the output window 2 is idle: the case stores nothing into it. -/
theorem idleAt0_2_A : ∀ t : Fin cfg0.N, cond0_0 (grid0.coords t) → ¬cond0_1 (grid0.coords t) → cfg0.idle 2 (grid0.coords t) = true := by decide +kernel
/-- At point 0 the pipeline does not write output 2's block back. -/
theorem noFlush0_2_A : ∀ t : Fin cfg0.N, cond0_0 (grid0.coords t) → ¬cond0_1 (grid0.coords t) → (cfg0.win 2).flush t = false := by decide +kernel
/-- At points 1 to 6 the output window 2 is idle. -/
theorem idleAt0_2_B : ∀ t : Fin cfg0.N, ¬cond0_0 (grid0.coords t) → ¬cond0_1 (grid0.coords t) → cfg0.idle 2 (grid0.coords t) = true := by decide +kernel
/-- At points 1 to 6 the pipeline does not write output 2's block back. -/
theorem noFlush0_2_B : ∀ t : Fin cfg0.N, ¬cond0_0 (grid0.coords t) → ¬cond0_1 (grid0.coords t) → (cfg0.win 2).flush t = false := by decide +kernel
/-- At point 7 the output window 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- The staging buffer of output window 2, through which its contents are stated. -/
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1x1 .f32 := Memref.whole cc0_scratch0
/-- The scratch the kernel carries between points, as a view: what it holds is stated through it. -/
abbrev VS0_0 : View sig .tc .vmem S1x1 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/- The whole-body run of the kernel at point 0 (the first conditional taken, the second not): the scratch, found at
   anything, is zeroed and then holds the zeroed value plus this point's partial sum; the output's staging buffer is
   not stored into and is handed back as found. The pieces the scratch ends with are the witness the run finds. -/
import proofs.«125002_j27127013441992_1_alg».proof.Proof.KFrameBase

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case A, with the proof that on whole memrefs — the inputs' at their blocks `x0`, `x1`, the output's at contents
    `xi2` handed back untouched, the scratch at anything — the body runs to the continuation holding the inputs' and
    the output's as they were and the scratch with its pieces written. -/
noncomputable def kernelRun0_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨[], ?_, fun xi2 E K => ?run⟩
  case run =>
    simp only [cc0__bce_sum_kernel_eq_skeleton]; unfold cc0__bce_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KRunB.lean ====
/- The whole-body run of the kernel at points 1 to 6 (neither conditional taken): the scratch, found at what the
   point before left, ends at that plus this point's partial sum; the output's staging buffer is not stored into
   and is handed back as found. The pieces the scratch ends with are the witness the run finds. -/
import proofs.«125002_j27127013441992_1_alg».proof.Proof.KRunA

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case B, with the proof that on whole memrefs — the inputs' at their blocks `x0`, `x1`, the output's at contents
    `xi2` handed back untouched, the scratch at what the point before left (`xs0`) — the body runs to the continuation
    holding the inputs' and the output's as they were and the scratch with its pieces written. -/
noncomputable def kernelRun0_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨[], ?_, fun xi2 E K => ?run⟩
  case run =>
    simp only [cc0__bce_sum_kernel_eq_skeleton]; unfold cc0__bce_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KRunC.lean ====
/- The whole-body run of the kernel at point 7 (the first conditional not taken, the second taken): the scratch,
   found at what the point before left, ends at that plus this point's partial sum, and that value is then stored
   whole into the output's staging buffer, found at anything. The pieces each ends with are the witness the run finds. -/
import proofs.«125002_j27127013441992_1_alg».proof.Proof.KRunB

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case C, with the proof that on whole memrefs — the inputs' at their blocks `x0`, `x1`, the output's at
    anything, the scratch at what the point before left (`xs0`) — the body runs to the continuation holding the
    inputs' as they were and the output's and the scratch each with its pieces written. -/
noncomputable def kernelRun0_C (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨?_, ?_, fun E K => ?run⟩
  case run =>
    simp only [cc0__bce_sum_kernel_eq_skeleton]; unfold cc0__bce_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.KTail.lean ====
/- The host lines after the region, 230 operations in 16 stretches: each allocates nothing and writes one buffer of its
   own, which is neither an array of the region nor an argument of the program. From this: @main reduces to the region
   continued by these lines, the lines stay within the buffers the region leaves them, and every argument of the
   program holds its launch contents after them. -/
import proofs.«125002_j27127013441992_1_alg».proof.Proof.KFrameBase

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each line after the region writes -/

/-- The references the lines after the region leave alone: the region's three arrays and the program's seven arguments. -/
abbrev keptRefs : List (Ref sig .tc) :=
  [main_v0, main_v1, main_call0_v0, main_arg0, main_arg1, main_arg2, main_arg3, main_arg4, main_arg5, main_arg6]

/-- An operation that allocates nothing and writes one buffer only, a reference that is none of `keptRefs`. -/
abbrev TailOk (op : HloOp τ sig (Elt F)) : Prop :=
  op.fresh = ∅ ∧ ∃ y : Ref sig .tc, op.writes = {Proc.devRef .tc y} ∧ y ∉ keptRefs

/-- Such an operation writes no reference of `keptRefs`. -/
theorem not_mem_writes_of_tailOk {op : HloOp τ sig (Elt F)} (h : TailOk op) {r : Ref sig .tc} (hr : r ∈ keptRefs) :
    Proc.devRef .tc r ∉ op.writes := by
  obtain ⟨-, y, hy, hn⟩ := h
  rw [hy, Finset.mem_singleton]
  exact StableHlo.devRef_ne_of_ne fun e => hn (e ▸ hr)

/-! Stretch by stretch: every operation's result buffer read off the operation, and told apart from `keptRefs`. -/

theorem hostOps1_ok : (hostOps1 : List (HloOp τ sig (Elt F))).Forall TailOk :=
  ⟨rfl, _, rfl, by decide⟩
theorem hostOps1_1_ok : (hostOps1_1 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_2_ok : (hostOps1_2 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_3_ok : (hostOps1_3 : List (HloOp τ sig (Elt F))).Forall TailOk :=
  ⟨⟨rfl, _, rfl, by decide⟩, ⟨rfl, _, rfl, by decide⟩⟩
theorem hostOps1_4_ok : (hostOps1_4 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_5_ok : (hostOps1_5 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_6_ok : (hostOps1_6 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_7_ok : (hostOps1_7 : List (HloOp τ sig (Elt F))).Forall TailOk :=
  ⟨⟨rfl, _, rfl, by decide⟩, ⟨rfl, _, rfl, by decide⟩⟩
theorem hostOps1_8_ok : (hostOps1_8 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
set_option maxHeartbeats 40000000 in
theorem hostOps1_9_ok : (hostOps1_9 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_10_ok : (hostOps1_10 : List (HloOp τ sig (Elt F))).Forall TailOk :=
  ⟨rfl, _, rfl, by decide⟩
theorem hostOps1_11_ok : (hostOps1_11 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_12_ok : (hostOps1_12 : List (HloOp τ sig (Elt F))).Forall TailOk :=
  ⟨⟨rfl, _, rfl, by decide⟩, ⟨rfl, _, rfl, by decide⟩⟩
theorem hostOps1_13_ok : (hostOps1_13 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩⟩
theorem hostOps1_14_ok : (hostOps1_14 : List (HloOp τ sig (Elt F))).Forall TailOk :=
  ⟨⟨rfl, _, rfl, by decide⟩, ⟨rfl, _, rfl, by decide⟩⟩
theorem hostOps1_15_ok : (hostOps1_15 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩

/-- Every operation of every stretch. -/
theorem tail_ok : (tailOpss : List (List (HloOp τ sig (Elt F)))).Forall fun ops => ops.Forall TailOk :=
  ⟨hostOps1_ok, hostOps1_1_ok, hostOps1_2_ok, hostOps1_3_ok, hostOps1_4_ok, hostOps1_5_ok, hostOps1_6_ok, hostOps1_7_ok, hostOps1_8_ok, hostOps1_9_ok, hostOps1_10_ok, hostOps1_11_ok, hostOps1_12_ok, hostOps1_13_ok, hostOps1_14_ok, hostOps1_15_ok⟩

/-- A property of every operation of every stretch, from its statement stretch by stretch. -/
theorem tail_forall {p : HloOp τ sig (Elt F) → Prop}
    (h : (tailOpss : List (List (HloOp τ sig (Elt F)))).Forall fun ops => ops.Forall p) :
    ∀ ops ∈ (tailOpss : List (List (HloOp τ sig (Elt F)))), ∀ op ∈ ops, p op :=
  fun ops hops op hop => List.forall_iff_forall_mem.mp (List.forall_iff_forall_mem.mp h ops hops) op hop

/-- No line after the region writes a reference of `keptRefs`. -/
theorem tail_not_writes {r : Ref sig .tc} (hr : r ∈ keptRefs) :
    ∀ op ∈ (tailOpss : List (List (HloOp τ sig (Elt F)))).flatten, Proc.devRef .tc r ∉ op.writes := by
  intro op hop
  obtain ⟨ops, hops, hop⟩ := List.mem_flatten.mp hop
  exact not_mem_writes_of_tailOk (tail_forall tail_ok ops hops op hop) hr

/-! ## @main around the region -/

/-- @main around the region, at the variants `𝒱₀`: the two reshapes before it, the region, the lines after it — it
    reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss hostOps0_sub ⟨rfl, rfl⟩ main_chain

/-- The lines after the region touch the pipeline's arrays and the bypassing buffers only (each operation's buffers are
    unscoped TensorCore references, and with nothing prefetched every such reference is one or the other). -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  exact tail_forall
    ⟨List.Forall.imp (fun op h => Pipeline.sub_ucRefs op h) hostOps1_sub,
     List.Forall.imp (fun op h => Pipeline.sub_ucRefs op h) hostOps1_1_sub,
     List.Forall.imp (fun op h => Pipeline.sub_ucRefs op h) hostOps1_2_sub,
     List.Forall.imp (fun op h => Pipeline.sub_ucRefs op h) hostOps1_3_sub,
     List.Forall.imp (fun op h => Pipeline.sub_ucRefs op h) hostOps1_4_sub,
     List.Forall.imp (fun op h => Pipeline.sub_ucRefs op h) hostOps1_5_sub,
     List.Forall.imp (fun op h => Pipeline.sub_ucRefs op h) hostOps1_6_sub,
     List.Forall.imp (fun op h => Pipeline.sub_ucRefs op h) hostOps1_7_sub,
     List.Forall.imp (fun op h => Pipeline.sub_ucRefs op h) hostOps1_8_sub,
     List.Forall.imp (fun op h => Pipeline.sub_ucRefs op h) hostOps1_9_sub,
     List.Forall.imp (fun op h => Pipeline.sub_ucRefs op h) hostOps1_10_sub,
     List.Forall.imp (fun op h => Pipeline.sub_ucRefs op h) hostOps1_11_sub,
     List.Forall.imp (fun op h => Pipeline.sub_ucRefs op h) hostOps1_12_sub,
     List.Forall.imp (fun op h => Pipeline.sub_ucRefs op h) hostOps1_13_sub,
     List.Forall.imp (fun op h => Pipeline.sub_ucRefs op h) hostOps1_14_sub,
     List.Forall.imp (fun op h => Pipeline.sub_ucRefs op h) hostOps1_15_sub⟩
/-- They allocate nothing. -/
theorem sfx_fresh : ∀ ops ∈ (tailOpss : List (List (HloOp τ sig (Elt F)))), ∀ op ∈ ops, op.fresh = ∅ :=
  fun ops hops op hop => (tail_forall tail_ok ops hops op hop).1
/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  have h := tail_forall tail_ok ops hops op hop
  fin_cases w
  · exact not_mem_writes_of_tailOk h (r := main_v0) (by decide)
  · exact not_mem_writes_of_tailOk h (r := main_v1) (by decide)
  · exact not_mem_writes_of_tailOk h (r := main_call0_v0) (by decide)

/-! ## The program's arguments after the lines -/

/-- Neither reshape before the region writes a reference other than their results `main_v0`, `main_v1`. -/
theorem pre_not_writes {r : Ref sig .tc} (h0 : r ≠ main_v0) (h1 : r ≠ main_v1) :
    ∀ op ∈ List.flatten [(hostOps0 : List (HloOp τ sig (Elt F)))], Proc.devRef .tc r ∉ op.writes := by
  intro op hop
  obtain ⟨ops, hops, hop⟩ := List.mem_flatten.mp hop
  simp only [List.mem_cons, List.mem_nil_iff, or_false] at hops
  subst hops
  simp only [hostOps0, List.mem_cons, List.mem_nil_iff, or_false] at hop
  rcases hop with rfl | rfl
  · rw [StableHlo.reshape_writes, Finset.mem_singleton]; exact StableHlo.devRef_ne_of_ne h0
  · rw [StableHlo.reshape_writes, Finset.mem_singleton]; exact StableHlo.devRef_ne_of_ne h1

/-- A reference of `keptRefs` that is no array of the region and no result of the two reshapes holds, after the lines
    that follow the region, its launch contents: no line writes it, the region's arrays are other buffers, and the
    reshapes write other buffers. -/
theorem afterTail_kept (dats : (p : Fin 1) → (c : Dev nD) → Dat τ (Elt F) Unit ℕ (UR sig nD τ) ℕ (cfgs p) c) (c : Dev nD)
    (b : Ref sig .tc) (hb : b ∈ keptRefs) (harr : ∀ w, Pipeline.arrRef spec0 w ≠ b) (h0 : b ≠ main_v0) (h1 : b ≠ main_v1) :
    Pipeline.afterTail₀ cfgs dats 0 (V0 m) tailOpss c b = m ((c.tc : Thread nD τ).loc b) := by
  unfold Pipeline.afterTail₀
  rw [StableHlo.after_of_forall_not_mem _ _ (tail_not_writes hb), Pipeline.withArrays_of_ne _ c (V0 m c) _ b harr]
  exact (StableHlo.after_of_forall_not_mem _ _ (pre_not_writes h0 h1)).trans rfl

/-! ## The frame claim's post from the frame run's -/

/-- THE FRAME from a frame run: no window stages an argument of the program, so each is a buffer that bypasses the
    region; the run's post gives it at what the lines after the region leave, which is its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 rfl (by decide))).trans (afterTail_kept m dats c main_arg0 (by decide) (by decide) (by decide) (by decide)),
     ((h c).2 main_arg1 (Pipeline.mem_restRefs_of main_arg1 rfl (by decide))).trans (afterTail_kept m dats c main_arg1 (by decide) (by decide) (by decide) (by decide)),
     ((h c).2 main_arg2 (Pipeline.mem_restRefs_of main_arg2 rfl (by decide))).trans (afterTail_kept m dats c main_arg2 (by decide) (by decide) (by decide) (by decide)),
     ((h c).2 main_arg3 (Pipeline.mem_restRefs_of main_arg3 rfl (by decide))).trans (afterTail_kept m dats c main_arg3 (by decide) (by decide) (by decide) (by decide)),
     ((h c).2 main_arg4 (Pipeline.mem_restRefs_of main_arg4 rfl (by decide))).trans (afterTail_kept m dats c main_arg4 (by decide) (by decide) (by decide) (by decide)),
     ((h c).2 main_arg5 (Pipeline.mem_restRefs_of main_arg5 rfl (by decide))).trans (afterTail_kept m dats c main_arg5 (by decide) (by decide) (by decide) (by decide)),
     ((h c).2 main_arg6 (Pipeline.mem_restRefs_of main_arg6 rfl (by decide))).trans (afterTail_kept m dats c main_arg6 (by decide) (by decide) (by decide) (by decide))⟩) h

end Cert.Kernel.Fr

end
-- ==== Proof.KFrame.lean ====
/- The frame of the kernel program, its last module: what the output's staging buffer and the carried scratch hold
   after each case's stores (covers) and point by point (`outsAt0`: the accumulation over the 8 grid points), the
   proof data, the body obligation at a generic point, the run of @main around the region and the frame claim:
   every argument of the program ends at its launch contents. Stated for any float instance. -/
import proofs.«125002_j27127013441992_1_alg».proof.Proof.KRunC
import proofs.«125002_j27127013441992_1_alg».proof.Proof.KTail

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into output 2 (the window is idle at its point and not written back there): no pieces — a
    placeholder (junk read back) that nothing consults. -/
def out0_A_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) : Vec F S1x1 .f32 :=
  VO0_2.read (Elt F) (VO0_2.writes (Elt F) VO0_2.junk (kernelRun0_A c i arg1 harg1 arg2 harg2 arg3 harg3 arg4 harg4 hc0 hc1 x0 x1).1)

/-- Case A's pieces for the scratch cover it. -/
theorem scover0_A_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A leaves in the scratch: its pieces read back over junk. -/
def sout0_A_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Case B stores nothing into output 2: no pieces — a placeholder that nothing consults. -/
def out0_B_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)

/-- Case B's pieces for the scratch cover it. -/
theorem scover0_B_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y

/-- What case B leaves in the scratch: its pieces read back over junk. -/
def sout0_B_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Case C's pieces for output 2 tile its block (one store of the whole block), so they cover it. -/
theorem cover0_C_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y

/-- What case C leaves in output 2's staging buffer: its pieces read back over junk. -/
def out0_C_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)

/-- Case C's pieces for the scratch cover it. -/
theorem scover0_C_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y

/-- What case C leaves in the scratch: its pieces read back over junk. -/
def sout0_C_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output and the scratch hold after each point -/

/-- THE ACCUMULATION. What the output's staging buffer and the scratch the kernel carries between points hold after the
    body at position `n` (a pair: the output's staging contents, then the scratch's): the case the closed forms select
    at `n`, run at the point's memrefs and input blocks, the scratch at what this leaves at `n - 1`. An assignment of
    the conditions no point meets is no case. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch at what the point before left in it (`outsAt0`'s second component) and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the output's at `outsAt0`'s first component; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; so
    the run applies; the invariant hands the body the scratch at what the point before left (at anything at the first
    point) and the generator register at some state, and takes the scratch back at this point's contents (its pieces
    cover it); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

/-- THE FRAME: every argument of the program ends at its launch contents, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Fr

end
-- ==== Proof.KIFrameBase.lean ====
/- The frame of the kernel program: what the three control cases of its body share. The grid has 8 points; the
   scratch accumulator is zeroed at point 0, added to at every point, and copied into the output's staging buffer at
   point 7, where alone the output is written back. Here: the contents at the region's entry, the input windows'
   blocks, the body's two branch conditions in closed form over the grid, where the output window is idle, the
   staging and scratch memrefs, and the region invariant with the scratch as a memref. Stated for any float instance. -/
import proofs.«125002_j27127013441992_1_alg».proof.Proof.KILaunch
import proofs.«125002_j27127013441992_1_alg».proof.Proof.Gen.KernelIdeal.Skeleton
import proofs.«125002_j27127013441992_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch, in program order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15]

/-- Core `c`'s TensorCore buffer contents when the region is entered, as a valuation: the launch contents after the
    two reshapes that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is `V`'s
    (`hA`) and whose body leaves the block in place (`hafter`): the window is an input, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (`k0_h1`), from the grid coordinate (the skeleton's scalar chain
    substituted). -/
abbrev cond0_0 (i : grid0.Coords) : Prop := (Scalar.cmpi .ne (Scalar.extui (Scalar.cmpi .eq (BitVec.ofNat 32 (i 0).val) 0#32)) 0#32) = 1#1
/-- It holds at point 0 only — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (`k0_h2`). -/
abbrev cond0_1 (i : grid0.Coords) : Prop := k0_cond2 i = 1#1
/-- It holds at point 7 only — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At point 0 the output window 2 is idle: the case stores nothing into it. -/
theorem idleAt0_2_A : ∀ t : Fin cfg0.N, cond0_0 (grid0.coords t) → ¬cond0_1 (grid0.coords t) → cfg0.idle 2 (grid0.coords t) = true := by decide +kernel
/-- At point 0 the pipeline does not write output 2's block back. -/
theorem noFlush0_2_A : ∀ t : Fin cfg0.N, cond0_0 (grid0.coords t) → ¬cond0_1 (grid0.coords t) → (cfg0.win 2).flush t = false := by decide +kernel
/-- At points 1 to 6 the output window 2 is idle. -/
theorem idleAt0_2_B : ∀ t : Fin cfg0.N, ¬cond0_0 (grid0.coords t) → ¬cond0_1 (grid0.coords t) → cfg0.idle 2 (grid0.coords t) = true := by decide +kernel
/-- At points 1 to 6 the pipeline does not write output 2's block back. -/
theorem noFlush0_2_B : ∀ t : Fin cfg0.N, ¬cond0_0 (grid0.coords t) → ¬cond0_1 (grid0.coords t) → (cfg0.win 2).flush t = false := by decide +kernel
/-- At point 7 the output window 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- The staging buffer of output window 2, through which its contents are stated. -/
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1x1 .f32 := Memref.whole cc0_scratch0
/-- The scratch the kernel carries between points, as a view: what it holds is stated through it. -/
abbrev VS0_0 : View sig .tc .vmem S1x1 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/- The whole-body run of the kernel at point 0 (the first conditional taken, the second not): the scratch, found at
   anything, is zeroed and then holds the zeroed value plus this point's partial sum; the output's staging buffer is
   not stored into and is handed back as found. The pieces the scratch ends with are the witness the run finds. -/
import proofs.«125002_j27127013441992_1_alg».proof.Proof.KIFrameBase

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case A, with the proof that on whole memrefs — the inputs' at their blocks `x0`, `x1`, the output's at contents
    `xi2` handed back untouched, the scratch at anything — the body runs to the continuation holding the inputs' and
    the output's as they were and the scratch with its pieces written. -/
noncomputable def kernelRun0_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨[], ?_, fun xi2 E K => ?run⟩
  case run =>
    simp only [cc0__bce_sum_kernel_eq_skeleton]; unfold cc0__bce_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KIRunB.lean ====
/- The whole-body run of the kernel at points 1 to 6 (neither conditional taken): the scratch, found at what the
   point before left, ends at that plus this point's partial sum; the output's staging buffer is not stored into
   and is handed back as found. The pieces the scratch ends with are the witness the run finds. -/
import proofs.«125002_j27127013441992_1_alg».proof.Proof.KIRunA

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case B, with the proof that on whole memrefs — the inputs' at their blocks `x0`, `x1`, the output's at contents
    `xi2` handed back untouched, the scratch at what the point before left (`xs0`) — the body runs to the continuation
    holding the inputs' and the output's as they were and the scratch with its pieces written. -/
noncomputable def kernelRun0_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨[], ?_, fun xi2 E K => ?run⟩
  case run =>
    simp only [cc0__bce_sum_kernel_eq_skeleton]; unfold cc0__bce_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KIRunC.lean ====
/- The whole-body run of the kernel at point 7 (the first conditional not taken, the second taken): the scratch,
   found at what the point before left, ends at that plus this point's partial sum, and that value is then stored
   whole into the output's staging buffer, found at anything. The pieces each ends with are the witness the run finds. -/
import proofs.«125002_j27127013441992_1_alg».proof.Proof.KIRunB

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref and in the scratch, as pieces (last first), at a point
    of case C, with the proof that on whole memrefs — the inputs' at their blocks `x0`, `x1`, the output's at
    anything, the scratch at what the point before left (`xs0`) — the body runs to the continuation holding the
    inputs' as they were and the output's and the scratch each with its pieces written. -/
noncomputable def kernelRun0_C (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__bce_sum_kernel i arg1 harg1 arg2 harg2 arg3 harg3 arg4 harg4) K } := by
  refine ⟨?_, ?_, fun E K => ?run⟩
  case run =>
    simp only [cc0__bce_sum_kernel_eq_skeleton]; unfold cc0__bce_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KITail.lean ====
/- The host lines after the region, 230 operations in 16 stretches: each allocates nothing and writes one buffer of its
   own, which is neither an array of the region nor an argument of the program. From this: @main reduces to the region
   continued by these lines, the lines stay within the buffers the region leaves them, and every argument of the
   program holds its launch contents after them. -/
import proofs.«125002_j27127013441992_1_alg».proof.Proof.KIFrameBase

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each line after the region writes -/

/-- The references the lines after the region leave alone: the region's three arrays and the program's seven arguments. -/
abbrev keptRefs : List (Ref sig .tc) :=
  [main_v0, main_v1, main_call0_v0, main_arg0, main_arg1, main_arg2, main_arg3, main_arg4, main_arg5, main_arg6]

/-- An operation that allocates nothing and writes one buffer only, a reference that is none of `keptRefs`. -/
abbrev TailOk (op : HloOp τ sig (Elt F)) : Prop :=
  op.fresh = ∅ ∧ ∃ y : Ref sig .tc, op.writes = {Proc.devRef .tc y} ∧ y ∉ keptRefs

/-- Such an operation writes no reference of `keptRefs`. -/
theorem not_mem_writes_of_tailOk {op : HloOp τ sig (Elt F)} (h : TailOk op) {r : Ref sig .tc} (hr : r ∈ keptRefs) :
    Proc.devRef .tc r ∉ op.writes := by
  obtain ⟨-, y, hy, hn⟩ := h
  rw [hy, Finset.mem_singleton]
  exact StableHlo.devRef_ne_of_ne fun e => hn (e ▸ hr)

/-! Stretch by stretch: every operation's result buffer read off the operation, and told apart from `keptRefs`. -/

theorem hostOps1_ok : (hostOps1 : List (HloOp τ sig (Elt F))).Forall TailOk :=
  ⟨rfl, _, rfl, by decide⟩
theorem hostOps1_1_ok : (hostOps1_1 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_2_ok : (hostOps1_2 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_3_ok : (hostOps1_3 : List (HloOp τ sig (Elt F))).Forall TailOk :=
  ⟨⟨rfl, _, rfl, by decide⟩, ⟨rfl, _, rfl, by decide⟩⟩
theorem hostOps1_4_ok : (hostOps1_4 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_5_ok : (hostOps1_5 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_6_ok : (hostOps1_6 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_7_ok : (hostOps1_7 : List (HloOp τ sig (Elt F))).Forall TailOk :=
  ⟨⟨rfl, _, rfl, by decide⟩, ⟨rfl, _, rfl, by decide⟩⟩
theorem hostOps1_8_ok : (hostOps1_8 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
set_option maxHeartbeats 40000000 in
theorem hostOps1_9_ok : (hostOps1_9 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_10_ok : (hostOps1_10 : List (HloOp τ sig (Elt F))).Forall TailOk :=
  ⟨rfl, _, rfl, by decide⟩
theorem hostOps1_11_ok : (hostOps1_11 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩
theorem hostOps1_12_ok : (hostOps1_12 : List (HloOp τ sig (Elt F))).Forall TailOk :=
  ⟨⟨rfl, _, rfl, by decide⟩, ⟨rfl, _, rfl, by decide⟩⟩
theorem hostOps1_13_ok : (hostOps1_13 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩⟩
theorem hostOps1_14_ok : (hostOps1_14 : List (HloOp τ sig (Elt F))).Forall TailOk :=
  ⟨⟨rfl, _, rfl, by decide⟩, ⟨rfl, _, rfl, by decide⟩⟩
theorem hostOps1_15_ok : (hostOps1_15 : List (HloOp τ sig (Elt F))).Forall TailOk :=
  ⟨⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩, ⟨rfl, _, rfl, by decide⟩⟩

/-- Every operation of every stretch. -/
theorem tail_ok : (tailOpss : List (List (HloOp τ sig (Elt F)))).Forall fun ops => ops.Forall TailOk :=
  ⟨hostOps1_ok, hostOps1_1_ok, hostOps1_2_ok, hostOps1_3_ok, hostOps1_4_ok, hostOps1_5_ok, hostOps1_6_ok, hostOps1_7_ok, hostOps1_8_ok, hostOps1_9_ok, hostOps1_10_ok, hostOps1_11_ok, hostOps1_12_ok, hostOps1_13_ok, hostOps1_14_ok, hostOps1_15_ok⟩

/-- A property of every operation of every stretch, from its statement stretch by stretch. -/
theorem tail_forall {p : HloOp τ sig (Elt F) → Prop}
    (h : (tailOpss : List (List (HloOp τ sig (Elt F)))).Forall fun ops => ops.Forall p) :
    ∀ ops ∈ (tailOpss : List (List (HloOp τ sig (Elt F)))), ∀ op ∈ ops, p op :=
  fun ops hops op hop => List.forall_iff_forall_mem.mp (List.forall_iff_forall_mem.mp h ops hops) op hop

/-- No line after the region writes a reference of `keptRefs`. -/
theorem tail_not_writes {r : Ref sig .tc} (hr : r ∈ keptRefs) :
    ∀ op ∈ (tailOpss : List (List (HloOp τ sig (Elt F)))).flatten, Proc.devRef .tc r ∉ op.writes := by
  intro op hop
  obtain ⟨ops, hops, hop⟩ := List.mem_flatten.mp hop
  exact not_mem_writes_of_tailOk (tail_forall tail_ok ops hops op hop) hr

/-! ## @main around the region -/

/-- @main around the region, at the variants `𝒱₀`: the two reshapes before it, the region, the lines after it — it
    reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss hostOps0_sub ⟨rfl, rfl⟩ main_chain

/-- The lines after the region touch the pipeline's arrays and the bypassing buffers only (each operation's buffers are
    unscoped TensorCore references, and with nothing prefetched every such reference is one or the other). -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  exact tail_forall
    ⟨List.Forall.imp (fun op h => Pipeline.sub_ucRefs op h) hostOps1_sub,
     List.Forall.imp (fun op h => Pipeline.sub_ucRefs op h) hostOps1_1_sub,
     List.Forall.imp (fun op h => Pipeline.sub_ucRefs op h) hostOps1_2_sub,
     List.Forall.imp (fun op h => Pipeline.sub_ucRefs op h) hostOps1_3_sub,
     List.Forall.imp (fun op h => Pipeline.sub_ucRefs op h) hostOps1_4_sub,
     List.Forall.imp (fun op h => Pipeline.sub_ucRefs op h) hostOps1_5_sub,
     List.Forall.imp (fun op h => Pipeline.sub_ucRefs op h) hostOps1_6_sub,
     List.Forall.imp (fun op h => Pipeline.sub_ucRefs op h) hostOps1_7_sub,
     List.Forall.imp (fun op h => Pipeline.sub_ucRefs op h) hostOps1_8_sub,
     List.Forall.imp (fun op h => Pipeline.sub_ucRefs op h) hostOps1_9_sub,
     List.Forall.imp (fun op h => Pipeline.sub_ucRefs op h) hostOps1_10_sub,
     List.Forall.imp (fun op h => Pipeline.sub_ucRefs op h) hostOps1_11_sub,
     List.Forall.imp (fun op h => Pipeline.sub_ucRefs op h) hostOps1_12_sub,
     List.Forall.imp (fun op h => Pipeline.sub_ucRefs op h) hostOps1_13_sub,
     List.Forall.imp (fun op h => Pipeline.sub_ucRefs op h) hostOps1_14_sub,
     List.Forall.imp (fun op h => Pipeline.sub_ucRefs op h) hostOps1_15_sub⟩
/-- They allocate nothing. -/
theorem sfx_fresh : ∀ ops ∈ (tailOpss : List (List (HloOp τ sig (Elt F)))), ∀ op ∈ ops, op.fresh = ∅ :=
  fun ops hops op hop => (tail_forall tail_ok ops hops op hop).1
/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  have h := tail_forall tail_ok ops hops op hop
  fin_cases w
  · exact not_mem_writes_of_tailOk h (r := main_v0) (by decide)
  · exact not_mem_writes_of_tailOk h (r := main_v1) (by decide)
  · exact not_mem_writes_of_tailOk h (r := main_call0_v0) (by decide)

/-! ## The program's arguments after the lines -/

/-- Neither reshape before the region writes a reference other than their results `main_v0`, `main_v1`. -/
theorem pre_not_writes {r : Ref sig .tc} (h0 : r ≠ main_v0) (h1 : r ≠ main_v1) :
    ∀ op ∈ List.flatten [(hostOps0 : List (HloOp τ sig (Elt F)))], Proc.devRef .tc r ∉ op.writes := by
  intro op hop
  obtain ⟨ops, hops, hop⟩ := List.mem_flatten.mp hop
  simp only [List.mem_cons, List.mem_nil_iff, or_false] at hops
  subst hops
  simp only [hostOps0, List.mem_cons, List.mem_nil_iff, or_false] at hop
  rcases hop with rfl | rfl
  · rw [StableHlo.reshape_writes, Finset.mem_singleton]; exact StableHlo.devRef_ne_of_ne h0
  · rw [StableHlo.reshape_writes, Finset.mem_singleton]; exact StableHlo.devRef_ne_of_ne h1

/-- A reference of `keptRefs` that is no array of the region and no result of the two reshapes holds, after the lines
    that follow the region, its launch contents: no line writes it, the region's arrays are other buffers, and the
    reshapes write other buffers. -/
theorem afterTail_kept (dats : (p : Fin 1) → (c : Dev nD) → Dat τ (Elt F) Unit ℕ (UR sig nD τ) ℕ (cfgs p) c) (c : Dev nD)
    (b : Ref sig .tc) (hb : b ∈ keptRefs) (harr : ∀ w, Pipeline.arrRef spec0 w ≠ b) (h0 : b ≠ main_v0) (h1 : b ≠ main_v1) :
    Pipeline.afterTail₀ cfgs dats 0 (V0 m) tailOpss c b = m ((c.tc : Thread nD τ).loc b) := by
  unfold Pipeline.afterTail₀
  rw [StableHlo.after_of_forall_not_mem _ _ (tail_not_writes hb), Pipeline.withArrays_of_ne _ c (V0 m c) _ b harr]
  exact (StableHlo.after_of_forall_not_mem _ _ (pre_not_writes h0 h1)).trans rfl

/-! ## The frame claim's post from the frame run's -/

/-- THE FRAME from a frame run: no window stages an argument of the program, so each is a buffer that bypasses the
    region; the run's post gives it at what the lines after the region leave, which is its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 rfl (by decide))).trans (afterTail_kept m dats c main_arg0 (by decide) (by decide) (by decide) (by decide)),
     ((h c).2 main_arg1 (Pipeline.mem_restRefs_of main_arg1 rfl (by decide))).trans (afterTail_kept m dats c main_arg1 (by decide) (by decide) (by decide) (by decide)),
     ((h c).2 main_arg2 (Pipeline.mem_restRefs_of main_arg2 rfl (by decide))).trans (afterTail_kept m dats c main_arg2 (by decide) (by decide) (by decide) (by decide)),
     ((h c).2 main_arg3 (Pipeline.mem_restRefs_of main_arg3 rfl (by decide))).trans (afterTail_kept m dats c main_arg3 (by decide) (by decide) (by decide) (by decide)),
     ((h c).2 main_arg4 (Pipeline.mem_restRefs_of main_arg4 rfl (by decide))).trans (afterTail_kept m dats c main_arg4 (by decide) (by decide) (by decide) (by decide)),
     ((h c).2 main_arg5 (Pipeline.mem_restRefs_of main_arg5 rfl (by decide))).trans (afterTail_kept m dats c main_arg5 (by decide) (by decide) (by decide) (by decide)),
     ((h c).2 main_arg6 (Pipeline.mem_restRefs_of main_arg6 rfl (by decide))).trans (afterTail_kept m dats c main_arg6 (by decide) (by decide) (by decide) (by decide))⟩) h

end Cert.KernelIdeal.Fr

end
-- ==== Proof.KIFrame.lean ====
/- The frame of the kernel program, its last module: what the output's staging buffer and the carried scratch hold
   after each case's stores (covers) and point by point (`outsAt0`: the accumulation over the 8 grid points), the
   proof data, the body obligation at a generic point, the run of @main around the region and the frame claim:
   every argument of the program ends at its launch contents. Stated for any float instance. -/
import proofs.«125002_j27127013441992_1_alg».proof.Proof.KIRunC
import proofs.«125002_j27127013441992_1_alg».proof.Proof.KITail

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into output 2 (the window is idle at its point and not written back there): no pieces — a
    placeholder (junk read back) that nothing consults. -/
def out0_A_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) : Vec F S1x1 .f32 :=
  VO0_2.read (Elt F) (VO0_2.writes (Elt F) VO0_2.junk (kernelRun0_A c i arg1 harg1 arg2 harg2 arg3 harg3 arg4 harg4 hc0 hc1 x0 x1).1)

/-- Case A's pieces for the scratch cover it. -/
theorem scover0_A_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A leaves in the scratch: its pieces read back over junk. -/
def sout0_A_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Case B stores nothing into output 2: no pieces — a placeholder that nothing consults. -/
def out0_B_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)

/-- Case B's pieces for the scratch cover it. -/
theorem scover0_B_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y

/-- What case B leaves in the scratch: its pieces read back over junk. -/
def sout0_B_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Case C's pieces for output 2 tile its block (one store of the whole block), so they cover it. -/
theorem cover0_C_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y

/-- What case C leaves in output 2's staging buffer: its pieces read back over junk. -/
def out0_C_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)

/-- Case C's pieces for the scratch cover it. -/
theorem scover0_C_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y

/-- What case C leaves in the scratch: its pieces read back over junk. -/
def sout0_C_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output and the scratch hold after each point -/

/-- THE ACCUMULATION. What the output's staging buffer and the scratch the kernel carries between points hold after the
    body at position `n` (a pair: the output's staging contents, then the scratch's): the case the closed forms select
    at `n`, run at the point's memrefs and input blocks, the scratch at what this leaves at `n - 1`. An assignment of
    the conditions no point meets is no case. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch at what the point before left in it (`outsAt0`'s second component) and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the output's at `outsAt0`'s first component; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; so
    the run applies; the invariant hands the body the scratch at what the point before left (at anything at the first
    point) and the generator register at some state, and takes the scratch back at this point's contents (its pieces
    cover it); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

/-- THE FRAME: every argument of the program ends at its launch contents, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Fr

end
-- ==== Proof.KIPieces.lean ====
/- What the pieces the three whole-body runs found ARE, as values: at point 0 the scratch ends at the point's
   partial sum added to the zeroed value; at every later point at the point's partial sum added to what the point
   before left; and at point 7 the output's staging buffer receives exactly the value the scratch was just left at.
   Stated for any float instance. -/
import proofs.«125002_j27127013441992_1_alg».proof.Proof.KIFrame
import Idealize.ShloMosaic.Lib.Pipeline.Value

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block rectangle, of the scratch's shape and of an input block's. -/
theorem hzS : (![0, 0] : Fin S1x1.rank → Nat) = fun _ => 0 := by funext a; fin_cases a <;> rfl
theorem hzB : (![0, 0] : Fin S1024x512.rank → Nat) = fun _ => 0 := by funext a; fin_cases a <;> rfl

/-- Point 0: the scratch, zeroed and then added to, ends at this point's sum over the zeroed value. -/
theorem sout0_A_0_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1024x512 .f32) (x1 : Vec F S1024x512 .f32) :
    sout0_A_0 c i arg1 harg1 arg2 harg2 arg3 harg3 arg4 harg4 hc0 hc1 x0 x1 = k0_pay2 x0 x1 k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero hzS, View.readCov_unit_zero _ hzS]
  simp only [View.readAt_eq_ld, harg1.read_unread, harg2.read_unread, View.ld_unit_zero (S := S1024x512) hzB]

/-- Points 1 to 6: the scratch ends at this point's sum over what the point before left. -/
theorem sout0_B_0_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1024x512 .f32) (x1 : Vec F S1024x512 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hzS]
  simp only [View.readAt_eq_ld, harg1.read_unread, harg2.read_unread, harg4.read_unread, View.ld_unit_zero (S := S1024x512) hzB, View.ld_unit_zero (S := S1x1) hzS]

/-- Point 7: the same for the scratch, -/
theorem sout0_C_0_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hzS]
  simp only [View.readAt_eq_ld, harg1.read_unread, harg2.read_unread, harg4.read_unread, View.ld_unit_zero (S := S1024x512) hzB, View.ld_unit_zero (S := S1x1) hzS]

/-- and the output's staging buffer receives the value the scratch was just left at. -/
theorem out0_C_2_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1024x512 .f32) (x1 : Vec F S1024x512 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hzS, View.readCov_unit_zero _ hzS]
  simp only [View.readAt_eq_ld, harg1.read_unread, harg2.read_unread, harg4.read_unread, View.ld_unit_zero (S := S1024x512) hzB, View.ld_unit_zero (S := S1x1) hzS]

/-! ## The accumulation as a recursion over the grid points -/

/-- After point 0 the scratch holds the point's partial sum added to the zeroed value. -/
theorem scratch_zero (c : Dev nD) (hn : 0 < cfg0.N) :
    (outsAt0 m c 0 hn).2 = k0_pay2 (iblk m c 0 ⟨0, hn⟩) (iblk m c 1 ⟨0, hn⟩) k0_pay1 := by
  have h0 : (⟨0, hn⟩ : Fin cfg0.N).val % 8 = 0 := Nat.zero_mod _
  have h1 : ¬ (⟨0, hn⟩ : Fin cfg0.N).val % 8 = 7 := fun h => by (try dsimp only at h); omega
  exact (congrArg Prod.snd (outsAt0_A m c ⟨0, hn⟩ h0 h1)).trans
    (sout0_A_0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩))

/-- After a later point the scratch holds the point's partial sum added to what the point before left. -/
theorem scratch_succ (c : Dev nD) (n : ℕ) (hn : n + 1 < cfg0.N) :
    (outsAt0 m c (n + 1) hn).2
      = k0_pay2 (iblk m c 0 ⟨n + 1, hn⟩) (iblk m c 1 ⟨n + 1, hn⟩) (outsAt0 m c n (Nat.lt_of_succ_lt hn)).2 := by
  have hN : n + 1 < 8 := lt_of_lt_of_eq hn (show cfg0.N = 8 from N_0)
  have h0 : ¬ (n + 1) % 8 = 0 := by omega
  by_cases h1 : (n + 1) % 8 = 7
  · exact (congrArg Prod.snd (outsAt0_C m c ⟨n + 1, hn⟩ h0 h1)).trans
      (sout0_C_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2)
  · exact (congrArg Prod.snd (outsAt0_B m c ⟨n + 1, hn⟩ h0 h1)).trans
      (sout0_B_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2)

/-- At the last point the output's staging buffer is left at what the scratch is left at. -/
theorem out_last (c : Dev nD) (t : Fin cfg0.N) (h1 : t.val % 8 = 7) :
    (outsAt0 m c t.val t.isLt).1 = (outsAt0 m c t.val t.isLt).2 := by
  have h0 : ¬ t.val % 8 = 0 := by omega
  rw [outsAt0_C m c t h0 h1]
  exact (out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end Cert.KernelIdeal.Fr

end
-- ==== Proof.LibSumRegroup.lean ====
/-
  Regrouping a total sum, over any commutative additive monoid (the extended reals among them, where no finiteness is
  needed: only commutativity and associativity of addition are used).

  * a total sum does not see a shape cast (the cast lists the same elements under another shape);
  * a sum over the index set of an [n * m, c] array is the sum, over the n blocks of m consecutive rows, of each
    block's total sum — the element at row r and column q of block t being the array's at row m * t + r, column q;
  * eight accumulation steps s 0, …, s 7 from z, each adding the next term on the right, end at z + ∑ s.
-/
import Idealize.ShloMosaic.PureOps.Ideal.Laws
import Idealize.ShloMosaic.Lib.ValueIdx
import Idealize.ShloMosaic.Lib.Pipeline.Value

noncomputable section

namespace Cert.LibSumRegroup

open Idealize.ShloMosaic Idealize.ShloMosaic.ValueIdx

/-- A total sum does not see a shape cast: the cast re-indexes the same elements by their row-major position, which is
    a bijection of the two index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- The row `m * t + r` of block `t` lies in the array. -/
theorem row_lt {n m : ℕ} (t : Fin n) {r : ℕ} (hr : r < m) : m * t.val + r < n * m := by
  have ht : t.val + 1 ≤ n := t.isLt
  calc m * t.val + r < m * t.val + m := Nat.add_lt_add_left hr _
    _ = m * (t.val + 1) := by ring
    _ ≤ m * n := Nat.mul_le_mul_left _ ht
    _ = n * m := Nat.mul_comm _ _

/-- Rows in blocks: the total sum over an [n * m, c] array is the sum over its n blocks of m rows of the blocks'
    total sums. -/
theorem sum_row_blocks {M : Type} [AddCommMonoid M] (n m c : ℕ) (f : (⟨2, ![n * m, c]⟩ : Shape).Idx → M) :
    ∑ k, f k = ∑ t : Fin n, ∑ y : (⟨2, ![m, c]⟩ : Shape).Idx,
      f (ix2 ⟨m * t.val + (y 0).val, row_lt t (idx2_lt0 y)⟩ (y 1)) := by
  rw [sum_idx2 f]
  have inner : ∀ t : Fin n, (∑ y : (⟨2, ![m, c]⟩ : Shape).Idx, f (ix2 ⟨m * t.val + (y 0).val, row_lt t (idx2_lt0 y)⟩ (y 1)))
      = ∑ r : Fin m, ∑ q : Fin c, f (ix2 ⟨m * t.val + r.val, row_lt t r.isLt⟩ q) := fun t =>
    sum_idx2 (fun y : (⟨2, ![m, c]⟩ : Shape).Idx => f (ix2 ⟨m * t.val + (y 0).val, row_lt t (idx2_lt0 y)⟩ (y 1)))
  simp only [inner]
  rw [← Equiv.sum_comp (finProdFinEquiv : Fin n × Fin m ≃ Fin (n * m)) (fun a : Fin (n * m) => ∑ q : Fin c, f (ix2 a q)),
    Fintype.sum_prod_type]
  refine Finset.sum_congr rfl fun t _ => Finset.sum_congr rfl fun r _ => Finset.sum_congr rfl fun q _ => ?_
  refine congrArg (fun a : Fin (n * m) => f (ix2 a q)) (Fin.ext ?_)
  show r.val + m * t.val = m * t.val + r.val
  exact Nat.add_comm _ _

/-- Eight accumulation steps from `z`, each adding the next term on the right, end at `z` plus the sum of the terms. -/
theorem accum8 {M : Type} [AddCommMonoid M] (z : M) (s : Fin 8 → M) :
    z + s 0 + s 1 + s 2 + s 3 + s 4 + s 5 + s 6 + s 7 = z + ∑ t, s t := by
  simp only [Fin.sum_univ_eight, add_assoc]

end Cert.LibSumRegroup

end
-- ==== Proof.BceValue.lean ====
/-
  The pixelwise binary cross-entropy with clamped logarithms, on the extended reals, and the kernel body's
  accumulation step read at its one index: the scratch word plus the block's total of the pixel terms.

  For a prediction p and a target t the pixel term is  −( t · max(log p, c) + (1 − t) · max(log(1 + (−p)), c) ),
  with c the value of the f32 word 0xC2C80000 (−100) and 1 the value of the word 0x3F800000. The kernel spells the
  two negations as subtractions from the zero word; on the extended reals 0 − x = −x for every x, so the two
  spellings are one function.
-/
import proofs.«125002_j27127013441992_1_alg».proof.Proof.Gen.KernelIdeal.Skeleton
import proofs.«125002_j27127013441992_1_alg».proof.Proof.LibSumRegroup

set_option maxRecDepth 65536

noncomputable section

namespace Cert.Bce

open Idealize.ShloMosaic Idealize.ShloMosaic.ValueIdx Cert.LibSumRegroup

/-- One pixel's term: the binary cross-entropy of the prediction `p` against the target `t`, both logarithms clamped
    below at the value of the word 0xC2C80000. -/
def bce (p t : EReal) : EReal :=
  -(t * max (Ideal.log p) (Ideal.ofBits .f32 0xC2C80000#32)
    + (Ideal.ofBits .f32 0x3F800000#32 - t) * max (Ideal.log1p (-p)) (Ideal.ofBits .f32 0xC2C80000#32))

/-- The same term with the negations written as subtractions from the zero word. -/
theorem bce_sub_zero (p t : EReal) :
    Ideal.ofBits .f32 0x00000000#32
      - (t * max (Ideal.log p) (Ideal.ofBits .f32 0xC2C80000#32)
        + (Ideal.ofBits .f32 0x3F800000#32 - t)
          * max (Ideal.log1p (Ideal.ofBits .f32 0x00000000#32 - p)) (Ideal.ofBits .f32 0xC2C80000#32))
      = bce p t := by
  simp only [Ideal.ofBits_zero_f32, zero_sub]
  rfl

end Cert.Bce

namespace Cert.KernelIdeal.Bce

open Idealize.ShloMosaic Idealize.ShloMosaic.ValueIdx Cert.LibSumRegroup Cert.Bce
open Cert.KernelIdeal Cert.KernelIdeal.Gen

/-- The block of pixel terms, in the kernel's spelling: prediction block `x0`, target block `x1`. -/
def pix (x0 x1 : FVec Ideal S1024x512 .f32) : FVec Ideal S1024x512 .f32 :=
  subf (broadcast S1024x512 (Scalar.ofBits .f32 0x00000000#32))
    (addf (mulf x1 (maximumf (log x0) (broadcast S1024x512 (Scalar.ofBits .f32 0xC2C80000#32))))
      (mulf (subf (broadcast S1024x512 (Scalar.ofBits .f32 0x3F800000#32)) x1)
        (maximumf (log1p (subf (broadcast S1024x512 (Scalar.ofBits .f32 0x00000000#32)) x0))
          (broadcast S1024x512 (Scalar.ofBits .f32 0xC2C80000#32)))))

/-- At a pixel it is that pixel's term. -/
theorem pix_apply (x0 x1 : FVec Ideal S1024x512 .f32) (y : S1024x512.Idx) : pix x0 x1 y = bce (x0 y) (x1 y) :=
  bce_sub_zero (x0 y) (x1 y)

/-- The block's reduction over both of its axes, as the body computes it. -/
def blockSum (x0 x1 : FVec Ideal S1024x512 .f32) : FVec Ideal S1 .f32 :=
  multiReduction .add [1, 2] S1 (shapeCast S1x1024x512 (pix x0 x1) shapeCasts_S1024x512_S1x1024x512) 0x00000000#32
    reduces_S1x1024x512_S1 (.inl rfl) rfl

/-- It is the total of the block's pixel terms. -/
theorem blockSum_apply (x0 x1 : FVec Ideal S1024x512 .f32) (j : S1.Idx) :
    blockSum x0 x1 j = ∑ y : S1024x512.Idx, bce (x0 y) (x1 y) := by
  unfold blockSum
  refine (Ideal.multiReduction_add_total _ 0x00000000#32 reduces_S1x1024x512_S1 (fun b => by fin_cases b; rfl) (.inl rfl) rfl j).trans ?_
  refine (sum_shapeCast _ _).trans ?_
  exact Finset.sum_congr rfl fun y _ => pix_apply x0 x1 y

/-- An index set of one element: any two indices of a one-element vector are equal. -/
theorem idx1_eq (i i' : S1.Idx) : i = i' := by
  funext d
  apply Fin.ext
  have h1 : (i d).val < 1 := by fin_cases d; exact (i 0).isLt
  have h2 : (i' d).val < 1 := by fin_cases d; exact (i' 0).isLt
  omega

/-- The accumulation around a one-element vector `r`: the scratch word plus `r`'s one element. -/
theorem wrap_apply (r : FVec Ideal S1 .f32) (a : FVec Ideal S1x1 .f32) (j : S1x1.Idx) :
    addf a (broadcast S1x1 (extractAt ![0, 0, 0] (shapeCast S1x1x1 r shapeCasts_S1_S1x1x1) inpos_S1x1x1_p0_0_0)) j
      = a j + r (ix1 0) := by
  show a j + r _ = a j + r _
  exact congrArg (fun i => a j + r i) (idx1_eq _ _)

/-- The value the first point stores in the scratch word: the zero word. -/
theorem k0_pay1_apply (j : S1x1.Idx) : k0_pay1 (F := Ideal) j = Ideal.ofBits .f32 0x00000000#32 := rfl

/-- The body's accumulation step is the scratch word plus the block's reduction, wrapped as the body wraps it. -/
theorem k0_pay2_eq (x0 x1 : Vec Ideal S1024x512 .f32) (a : Vec Ideal S1x1 .f32) :
    k0_pay2 (F := Ideal) x0 x1 a
      = addf a (broadcast S1x1 (extractAt ![0, 0, 0] (shapeCast S1x1x1 (blockSum x0 x1) shapeCasts_S1_S1x1x1) inpos_S1x1x1_p0_0_0)) := by
  unfold k0_pay2
  dsimp only
  simp only [shapeCast_self]
  rfl

/-- One accumulation step at its one index: the scratch word `a` plus the total, over the [1024, 512] block, of the
    pixel terms of the prediction block `x0` against the target block `x1`. -/
theorem k0_pay2_apply (x0 x1 : Vec Ideal S1024x512 .f32) (a : Vec Ideal S1x1 .f32) (j : S1x1.Idx) :
    k0_pay2 (F := Ideal) x0 x1 a j = a j + ∑ y : S1024x512.Idx, bce (x0 y) (x1 y) := by
  rw [k0_pay2_eq, wrap_apply, blockSum_apply]

end Cert.KernelIdeal.Bce

end
-- ==== Proof.TailStages.lean ====
import proofs.«125002_j27127013441992_1_alg».proof.Proof.Gen.KernelIdeal
import Idealize.ShloMosaic.Lib.StableHlo.Run

set_option maxRecDepth 65536

noncomputable section

namespace Cert.KernelIdeal.Tail

open Cert.KernelIdeal Cert.KernelIdeal.Facts₀ Cert.KernelIdeal.Facts Idealize.ShloMosaic Idealize.ShloMosaic.TcCoe Idealize.SL.Sem Idealize.ShloMosaic.StableHlo

variable {F : FTy → Type} [FloatOps F]

/-! The host operations that follow the pixelwise loss, cut into windows; for each value a later window (or the
    result) reads, the composition of the window's operations that produce it, as one function of the values the
    window reads from before it. -/

/-- Window H: the value of main_v3 from those of main_call0_v0 (3 operations). -/
noncomputable def stH_v3 (x_call0_v0 : (⟨S1x1, .f32⟩ : BufTy).Contents (Elt F)) : (⟨S_, .f32⟩ : BufTy).Contents (Elt F) :=
  have x_v2 : (⟨S_, .f32⟩ : BufTy).Contents (Elt F) := shapeCast _ x_call0_v0 shapeCasts_S1x1_S_
  have x_cst : (⟨S_, .f32⟩ : BufTy).Contents (Elt F) := (constant S_ .f32 0x4A800000#32)
  have x_v3 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) x_v2 x_cst
  x_v3

/-- Window A: the value of main_v5 from those of main_arg5 (2 operations). -/
noncomputable def stA_v5 (x_arg5 : (⟨S16x256x4, .i32⟩ : BufTy).Contents (Elt F)) : (⟨S16x256, .i32⟩ : BufTy).Contents (Elt F) :=
  have x_v4 : (⟨S16x256x1, .i32⟩ : BufTy).Contents (Elt F) := ((extractStridedSlice S16x256x1 ![0, 0, 0] · slices_S16x256x4_S16x256x1_0_0_0) : (⟨S16x256x4, .i32⟩ : BufTy).Contents (Elt F) → (⟨S16x256x1, .i32⟩ : BufTy).Contents (Elt F)) x_arg5
  have x_v5 : (⟨S16x256, .i32⟩ : BufTy).Contents (Elt F) := shapeCast _ x_v4 shapeCasts_S16x256x1_S16x256
  x_v5

/-- Window A: the value of main_v7 from those of main_arg5 (2 operations). -/
noncomputable def stA_v7 (x_arg5 : (⟨S16x256x4, .i32⟩ : BufTy).Contents (Elt F)) : (⟨S16x256, .i32⟩ : BufTy).Contents (Elt F) :=
  have x_v6 : (⟨S16x256x1, .i32⟩ : BufTy).Contents (Elt F) := ((extractStridedSlice S16x256x1 ![0, 0, 1] · slices_S16x256x4_S16x256x1_0_0_1) : (⟨S16x256x4, .i32⟩ : BufTy).Contents (Elt F) → (⟨S16x256x1, .i32⟩ : BufTy).Contents (Elt F)) x_arg5
  have x_v7 : (⟨S16x256, .i32⟩ : BufTy).Contents (Elt F) := shapeCast _ x_v6 shapeCasts_S16x256x1_S16x256
  x_v7

/-- Window A: the value of main_v9 from those of main_arg5 (2 operations). -/
noncomputable def stA_v9 (x_arg5 : (⟨S16x256x4, .i32⟩ : BufTy).Contents (Elt F)) : (⟨S16x256, .i32⟩ : BufTy).Contents (Elt F) :=
  have x_v8 : (⟨S16x256x1, .i32⟩ : BufTy).Contents (Elt F) := ((extractStridedSlice S16x256x1 ![0, 0, 2] · slices_S16x256x4_S16x256x1_0_0_2) : (⟨S16x256x4, .i32⟩ : BufTy).Contents (Elt F) → (⟨S16x256x1, .i32⟩ : BufTy).Contents (Elt F)) x_arg5
  have x_v9 : (⟨S16x256, .i32⟩ : BufTy).Contents (Elt F) := shapeCast _ x_v8 shapeCasts_S16x256x1_S16x256
  x_v9

/-- Window A: the value of main_v11 from those of main_arg5 (2 operations). -/
noncomputable def stA_v11 (x_arg5 : (⟨S16x256x4, .i32⟩ : BufTy).Contents (Elt F)) : (⟨S16x256, .i32⟩ : BufTy).Contents (Elt F) :=
  have x_v10 : (⟨S16x256x1, .i32⟩ : BufTy).Contents (Elt F) := ((extractStridedSlice S16x256x1 ![0, 0, 3] · slices_S16x256x4_S16x256x1_0_0_3) : (⟨S16x256x4, .i32⟩ : BufTy).Contents (Elt F) → (⟨S16x256x1, .i32⟩ : BufTy).Contents (Elt F)) x_arg5
  have x_v11 : (⟨S16x256, .i32⟩ : BufTy).Contents (Elt F) := shapeCast _ x_v10 shapeCasts_S16x256x1_S16x256
  x_v11

/-- Window A: the value of main_v27 from those of main_arg5, main_arg6 (62 operations). -/
noncomputable def stA_v27 (x_arg5 : (⟨S16x256x4, .i32⟩ : BufTy).Contents (Elt F)) (x_arg6 : (⟨S16x256, .i1⟩ : BufTy).Contents (Elt F)) : (⟨S16x256, .i1⟩ : BufTy).Contents (Elt F) :=
  have x_v4 : (⟨S16x256x1, .i32⟩ : BufTy).Contents (Elt F) := ((extractStridedSlice S16x256x1 ![0, 0, 0] · slices_S16x256x4_S16x256x1_0_0_0) : (⟨S16x256x4, .i32⟩ : BufTy).Contents (Elt F) → (⟨S16x256x1, .i32⟩ : BufTy).Contents (Elt F)) x_arg5
  have x_v5 : (⟨S16x256, .i32⟩ : BufTy).Contents (Elt F) := shapeCast _ x_v4 shapeCasts_S16x256x1_S16x256
  have x_v6 : (⟨S16x256x1, .i32⟩ : BufTy).Contents (Elt F) := ((extractStridedSlice S16x256x1 ![0, 0, 1] · slices_S16x256x4_S16x256x1_0_0_1) : (⟨S16x256x4, .i32⟩ : BufTy).Contents (Elt F) → (⟨S16x256x1, .i32⟩ : BufTy).Contents (Elt F)) x_arg5
  have x_v7 : (⟨S16x256, .i32⟩ : BufTy).Contents (Elt F) := shapeCast _ x_v6 shapeCasts_S16x256x1_S16x256
  have x_v8 : (⟨S16x256x1, .i32⟩ : BufTy).Contents (Elt F) := ((extractStridedSlice S16x256x1 ![0, 0, 2] · slices_S16x256x4_S16x256x1_0_0_2) : (⟨S16x256x4, .i32⟩ : BufTy).Contents (Elt F) → (⟨S16x256x1, .i32⟩ : BufTy).Contents (Elt F)) x_arg5
  have x_v9 : (⟨S16x256, .i32⟩ : BufTy).Contents (Elt F) := shapeCast _ x_v8 shapeCasts_S16x256x1_S16x256
  have x_v10 : (⟨S16x256x1, .i32⟩ : BufTy).Contents (Elt F) := ((extractStridedSlice S16x256x1 ![0, 0, 3] · slices_S16x256x4_S16x256x1_0_0_3) : (⟨S16x256x4, .i32⟩ : BufTy).Contents (Elt F) → (⟨S16x256x1, .i32⟩ : BufTy).Contents (Elt F)) x_arg5
  have x_v11 : (⟨S16x256, .i32⟩ : BufTy).Contents (Elt F) := shapeCast _ x_v10 shapeCasts_S16x256x1_S16x256
  have x_v12 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v5 x_v9
  have x_c : (⟨S_, .i32⟩ : BufTy).Contents (Elt F) := (constantI S_ 32 2#32)
  have x_call1_v0 : (⟨S_, .i32⟩ : BufTy).Contents (Elt F) := id x_c
  have x_call1_v1 : (⟨S16x256, .i32⟩ : BufTy).Contents (Elt F) := (broadcastInDim S16x256 ![] bcast_S_S16x256) x_call1_v0
  have x_call1_v2 : (⟨S16x256, .i32⟩ : BufTy).Contents (Elt F) := Host.divsi x_v12 x_call1_v1
  have x_call1_v3 : (⟨S16x256, .i32⟩ : BufTy).Contents (Elt F) := signi x_v12
  have x_call1_v4 : (⟨S_, .i32⟩ : BufTy).Contents (Elt F) := signi x_call1_v0
  have x_call1_v5 : (⟨S16x256, .i32⟩ : BufTy).Contents (Elt F) := (broadcastInDim S16x256 ![] bcast_S_S16x256) x_call1_v4
  have x_call1_v6 : (⟨S16x256, .i1⟩ : BufTy).Contents (Elt F) := (cmpi .ne) x_call1_v3 x_call1_v5
  have x_call1_v7 : (⟨S16x256, .i32⟩ : BufTy).Contents (Elt F) := (broadcastInDim S16x256 ![] bcast_S_S16x256) x_call1_v0
  have x_call1_v8 : (⟨S16x256, .i32⟩ : BufTy).Contents (Elt F) := Host.remsi x_v12 x_call1_v7
  have x_call1_c : (⟨S_, .i32⟩ : BufTy).Contents (Elt F) := (constantI S_ 32 0#32)
  have x_call1_v9 : (⟨S16x256, .i32⟩ : BufTy).Contents (Elt F) := (broadcastInDim S16x256 ![] bcast_S_S16x256) x_call1_c
  have x_call1_v10 : (⟨S16x256, .i1⟩ : BufTy).Contents (Elt F) := (cmpi .ne) x_call1_v8 x_call1_v9
  have x_call1_v11 : (⟨S16x256, .i1⟩ : BufTy).Contents (Elt F) := andi x_call1_v6 x_call1_v10
  have x_call1_c_0 : (⟨S_, .i32⟩ : BufTy).Contents (Elt F) := (constantI S_ 32 1#32)
  have x_call1_v12 : (⟨S16x256, .i32⟩ : BufTy).Contents (Elt F) := (broadcastInDim S16x256 ![] bcast_S_S16x256) x_call1_c_0
  have x_call1_v13 : (⟨S16x256, .i32⟩ : BufTy).Contents (Elt F) := subi x_call1_v2 x_call1_v12
  have x_v13 : (⟨S16x256, .i32⟩ : BufTy).Contents (Elt F) := select x_call1_v11 x_call1_v13 x_call1_v2
  have x_v14 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v7 x_v11
  have x_c_0 : (⟨S_, .i32⟩ : BufTy).Contents (Elt F) := (constantI S_ 32 2#32)
  have x_call2_v0 : (⟨S_, .i32⟩ : BufTy).Contents (Elt F) := id x_c_0
  have x_call2_v1 : (⟨S16x256, .i32⟩ : BufTy).Contents (Elt F) := (broadcastInDim S16x256 ![] bcast_S_S16x256) x_call2_v0
  have x_call2_v2 : (⟨S16x256, .i32⟩ : BufTy).Contents (Elt F) := Host.divsi x_v14 x_call2_v1
  have x_call2_v3 : (⟨S16x256, .i32⟩ : BufTy).Contents (Elt F) := signi x_v14
  have x_call2_v4 : (⟨S_, .i32⟩ : BufTy).Contents (Elt F) := signi x_call2_v0
  have x_call2_v5 : (⟨S16x256, .i32⟩ : BufTy).Contents (Elt F) := (broadcastInDim S16x256 ![] bcast_S_S16x256) x_call2_v4
  have x_call2_v6 : (⟨S16x256, .i1⟩ : BufTy).Contents (Elt F) := (cmpi .ne) x_call2_v3 x_call2_v5
  have x_call2_v7 : (⟨S16x256, .i32⟩ : BufTy).Contents (Elt F) := (broadcastInDim S16x256 ![] bcast_S_S16x256) x_call2_v0
  have x_call2_v8 : (⟨S16x256, .i32⟩ : BufTy).Contents (Elt F) := Host.remsi x_v14 x_call2_v7
  have x_call2_c : (⟨S_, .i32⟩ : BufTy).Contents (Elt F) := (constantI S_ 32 0#32)
  have x_call2_v9 : (⟨S16x256, .i32⟩ : BufTy).Contents (Elt F) := (broadcastInDim S16x256 ![] bcast_S_S16x256) x_call2_c
  have x_call2_v10 : (⟨S16x256, .i1⟩ : BufTy).Contents (Elt F) := (cmpi .ne) x_call2_v8 x_call2_v9
  have x_call2_v11 : (⟨S16x256, .i1⟩ : BufTy).Contents (Elt F) := andi x_call2_v6 x_call2_v10
  have x_call2_c_0 : (⟨S_, .i32⟩ : BufTy).Contents (Elt F) := (constantI S_ 32 1#32)
  have x_call2_v12 : (⟨S16x256, .i32⟩ : BufTy).Contents (Elt F) := (broadcastInDim S16x256 ![] bcast_S_S16x256) x_call2_c_0
  have x_call2_v13 : (⟨S16x256, .i32⟩ : BufTy).Contents (Elt F) := subi x_call2_v2 x_call2_v12
  have x_v15 : (⟨S16x256, .i32⟩ : BufTy).Contents (Elt F) := select x_call2_v11 x_call2_v13 x_call2_v2
  have x_c_1 : (⟨S_, .i32⟩ : BufTy).Contents (Elt F) := (constantI S_ 32 0#32)
  have x_v16 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_1
  have x_v17 : (⟨S16x256, .i1⟩ : BufTy).Contents (Elt F) := (cmpi .sge : (⟨S16x256, .i32⟩ : BufTy).Contents (Elt F) → (⟨S16x256, .i32⟩ : BufTy).Contents (Elt F) → (⟨S16x256, .i1⟩ : BufTy).Contents (Elt F)) x_v13 x_v16
  have x_v18 : (⟨S16x256, .i1⟩ : BufTy).Contents (Elt F) := (andi : (⟨S16x256, .i1⟩ : BufTy).Contents (Elt F) → (⟨S16x256, .i1⟩ : BufTy).Contents (Elt F) → (⟨S16x256, .i1⟩ : BufTy).Contents (Elt F)) x_arg6 x_v17
  have x_c_2 : (⟨S_, .i32⟩ : BufTy).Contents (Elt F) := (constantI S_ 32 512#32)
  have x_v19 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_2
  have x_v20 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v13 x_v19
  have x_v21 : (⟨S16x256, .i1⟩ : BufTy).Contents (Elt F) := (andi : (⟨S16x256, .i1⟩ : BufTy).Contents (Elt F) → (⟨S16x256, .i1⟩ : BufTy).Contents (Elt F) → (⟨S16x256, .i1⟩ : BufTy).Contents (Elt F)) x_v18 x_v20
  have x_c_3 : (⟨S_, .i32⟩ : BufTy).Contents (Elt F) := (constantI S_ 32 0#32)
  have x_v22 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_3
  have x_v23 : (⟨S16x256, .i1⟩ : BufTy).Contents (Elt F) := (cmpi .sge : (⟨S16x256, .i32⟩ : BufTy).Contents (Elt F) → (⟨S16x256, .i32⟩ : BufTy).Contents (Elt F) → (⟨S16x256, .i1⟩ : BufTy).Contents (Elt F)) x_v15 x_v22
  have x_v24 : (⟨S16x256, .i1⟩ : BufTy).Contents (Elt F) := (andi : (⟨S16x256, .i1⟩ : BufTy).Contents (Elt F) → (⟨S16x256, .i1⟩ : BufTy).Contents (Elt F) → (⟨S16x256, .i1⟩ : BufTy).Contents (Elt F)) x_v21 x_v23
  have x_c_4 : (⟨S_, .i32⟩ : BufTy).Contents (Elt F) := (constantI S_ 32 512#32)
  have x_v25 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_4
  have x_v26 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v15 x_v25
  have x_v27 : (⟨S16x256, .i1⟩ : BufTy).Contents (Elt F) := (andi : (⟨S16x256, .i1⟩ : BufTy).Contents (Elt F) → (⟨S16x256, .i1⟩ : BufTy).Contents (Elt F) → (⟨S16x256, .i1⟩ : BufTy).Contents (Elt F)) x_v24 x_v26
  x_v27

/-- Window A: the value of main_v28 from those of main_arg5 (31 operations). -/
noncomputable def stA_v28 (x_arg5 : (⟨S16x256x4, .i32⟩ : BufTy).Contents (Elt F)) : (⟨S16x256, .i32⟩ : BufTy).Contents (Elt F) :=
  have x_v4 : (⟨S16x256x1, .i32⟩ : BufTy).Contents (Elt F) := ((extractStridedSlice S16x256x1 ![0, 0, 0] · slices_S16x256x4_S16x256x1_0_0_0) : (⟨S16x256x4, .i32⟩ : BufTy).Contents (Elt F) → (⟨S16x256x1, .i32⟩ : BufTy).Contents (Elt F)) x_arg5
  have x_v5 : (⟨S16x256, .i32⟩ : BufTy).Contents (Elt F) := shapeCast _ x_v4 shapeCasts_S16x256x1_S16x256
  have x_v8 : (⟨S16x256x1, .i32⟩ : BufTy).Contents (Elt F) := ((extractStridedSlice S16x256x1 ![0, 0, 2] · slices_S16x256x4_S16x256x1_0_0_2) : (⟨S16x256x4, .i32⟩ : BufTy).Contents (Elt F) → (⟨S16x256x1, .i32⟩ : BufTy).Contents (Elt F)) x_arg5
  have x_v9 : (⟨S16x256, .i32⟩ : BufTy).Contents (Elt F) := shapeCast _ x_v8 shapeCasts_S16x256x1_S16x256
  have x_v12 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v5 x_v9
  have x_c : (⟨S_, .i32⟩ : BufTy).Contents (Elt F) := (constantI S_ 32 2#32)
  have x_call1_v0 : (⟨S_, .i32⟩ : BufTy).Contents (Elt F) := id x_c
  have x_call1_v1 : (⟨S16x256, .i32⟩ : BufTy).Contents (Elt F) := (broadcastInDim S16x256 ![] bcast_S_S16x256) x_call1_v0
  have x_call1_v2 : (⟨S16x256, .i32⟩ : BufTy).Contents (Elt F) := Host.divsi x_v12 x_call1_v1
  have x_call1_v3 : (⟨S16x256, .i32⟩ : BufTy).Contents (Elt F) := signi x_v12
  have x_call1_v4 : (⟨S_, .i32⟩ : BufTy).Contents (Elt F) := signi x_call1_v0
  have x_call1_v5 : (⟨S16x256, .i32⟩ : BufTy).Contents (Elt F) := (broadcastInDim S16x256 ![] bcast_S_S16x256) x_call1_v4
  have x_call1_v6 : (⟨S16x256, .i1⟩ : BufTy).Contents (Elt F) := (cmpi .ne) x_call1_v3 x_call1_v5
  have x_call1_v7 : (⟨S16x256, .i32⟩ : BufTy).Contents (Elt F) := (broadcastInDim S16x256 ![] bcast_S_S16x256) x_call1_v0
  have x_call1_v8 : (⟨S16x256, .i32⟩ : BufTy).Contents (Elt F) := Host.remsi x_v12 x_call1_v7
  have x_call1_c : (⟨S_, .i32⟩ : BufTy).Contents (Elt F) := (constantI S_ 32 0#32)
  have x_call1_v9 : (⟨S16x256, .i32⟩ : BufTy).Contents (Elt F) := (broadcastInDim S16x256 ![] bcast_S_S16x256) x_call1_c
  have x_call1_v10 : (⟨S16x256, .i1⟩ : BufTy).Contents (Elt F) := (cmpi .ne) x_call1_v8 x_call1_v9
  have x_call1_v11 : (⟨S16x256, .i1⟩ : BufTy).Contents (Elt F) := andi x_call1_v6 x_call1_v10
  have x_call1_c_0 : (⟨S_, .i32⟩ : BufTy).Contents (Elt F) := (constantI S_ 32 1#32)
  have x_call1_v12 : (⟨S16x256, .i32⟩ : BufTy).Contents (Elt F) := (broadcastInDim S16x256 ![] bcast_S_S16x256) x_call1_c_0
  have x_call1_v13 : (⟨S16x256, .i32⟩ : BufTy).Contents (Elt F) := subi x_call1_v2 x_call1_v12
  have x_v13 : (⟨S16x256, .i32⟩ : BufTy).Contents (Elt F) := select x_call1_v11 x_call1_v13 x_call1_v2
  have x_c_5 : (⟨S_, .i32⟩ : BufTy).Contents (Elt F) := (constantI S_ 32 0#32)
  have x_c_6 : (⟨S_, .i32⟩ : BufTy).Contents (Elt F) := (constantI S_ 32 511#32)
  have x_call3_v0 : (⟨S_, .i32⟩ : BufTy).Contents (Elt F) := id x_c_5
  have x_call3_v1 : (⟨S16x256, .i32⟩ : BufTy).Contents (Elt F) := (broadcastInDim S16x256 ![] bcast_S_S16x256) x_call3_v0
  have x_call3_v2 : (⟨S16x256, .i32⟩ : BufTy).Contents (Elt F) := maxsi x_call3_v1 x_v13
  have x_call3_v3 : (⟨S_, .i32⟩ : BufTy).Contents (Elt F) := id x_c_6
  have x_call3_v4 : (⟨S16x256, .i32⟩ : BufTy).Contents (Elt F) := (broadcastInDim S16x256 ![] bcast_S_S16x256) x_call3_v3
  have x_v28 : (⟨S16x256, .i32⟩ : BufTy).Contents (Elt F) := minsi x_call3_v4 x_call3_v2
  x_v28

/-- Window A: the value of main_v29 from those of main_arg5 (31 operations). -/
noncomputable def stA_v29 (x_arg5 : (⟨S16x256x4, .i32⟩ : BufTy).Contents (Elt F)) : (⟨S16x256, .i32⟩ : BufTy).Contents (Elt F) :=
  have x_v6 : (⟨S16x256x1, .i32⟩ : BufTy).Contents (Elt F) := ((extractStridedSlice S16x256x1 ![0, 0, 1] · slices_S16x256x4_S16x256x1_0_0_1) : (⟨S16x256x4, .i32⟩ : BufTy).Contents (Elt F) → (⟨S16x256x1, .i32⟩ : BufTy).Contents (Elt F)) x_arg5
  have x_v7 : (⟨S16x256, .i32⟩ : BufTy).Contents (Elt F) := shapeCast _ x_v6 shapeCasts_S16x256x1_S16x256
  have x_v10 : (⟨S16x256x1, .i32⟩ : BufTy).Contents (Elt F) := ((extractStridedSlice S16x256x1 ![0, 0, 3] · slices_S16x256x4_S16x256x1_0_0_3) : (⟨S16x256x4, .i32⟩ : BufTy).Contents (Elt F) → (⟨S16x256x1, .i32⟩ : BufTy).Contents (Elt F)) x_arg5
  have x_v11 : (⟨S16x256, .i32⟩ : BufTy).Contents (Elt F) := shapeCast _ x_v10 shapeCasts_S16x256x1_S16x256
  have x_v14 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v7 x_v11
  have x_c_0 : (⟨S_, .i32⟩ : BufTy).Contents (Elt F) := (constantI S_ 32 2#32)
  have x_call2_v0 : (⟨S_, .i32⟩ : BufTy).Contents (Elt F) := id x_c_0
  have x_call2_v1 : (⟨S16x256, .i32⟩ : BufTy).Contents (Elt F) := (broadcastInDim S16x256 ![] bcast_S_S16x256) x_call2_v0
  have x_call2_v2 : (⟨S16x256, .i32⟩ : BufTy).Contents (Elt F) := Host.divsi x_v14 x_call2_v1
  have x_call2_v3 : (⟨S16x256, .i32⟩ : BufTy).Contents (Elt F) := signi x_v14
  have x_call2_v4 : (⟨S_, .i32⟩ : BufTy).Contents (Elt F) := signi x_call2_v0
  have x_call2_v5 : (⟨S16x256, .i32⟩ : BufTy).Contents (Elt F) := (broadcastInDim S16x256 ![] bcast_S_S16x256) x_call2_v4
  have x_call2_v6 : (⟨S16x256, .i1⟩ : BufTy).Contents (Elt F) := (cmpi .ne) x_call2_v3 x_call2_v5
  have x_call2_v7 : (⟨S16x256, .i32⟩ : BufTy).Contents (Elt F) := (broadcastInDim S16x256 ![] bcast_S_S16x256) x_call2_v0
  have x_call2_v8 : (⟨S16x256, .i32⟩ : BufTy).Contents (Elt F) := Host.remsi x_v14 x_call2_v7
  have x_call2_c : (⟨S_, .i32⟩ : BufTy).Contents (Elt F) := (constantI S_ 32 0#32)
  have x_call2_v9 : (⟨S16x256, .i32⟩ : BufTy).Contents (Elt F) := (broadcastInDim S16x256 ![] bcast_S_S16x256) x_call2_c
  have x_call2_v10 : (⟨S16x256, .i1⟩ : BufTy).Contents (Elt F) := (cmpi .ne) x_call2_v8 x_call2_v9
  have x_call2_v11 : (⟨S16x256, .i1⟩ : BufTy).Contents (Elt F) := andi x_call2_v6 x_call2_v10
  have x_call2_c_0 : (⟨S_, .i32⟩ : BufTy).Contents (Elt F) := (constantI S_ 32 1#32)
  have x_call2_v12 : (⟨S16x256, .i32⟩ : BufTy).Contents (Elt F) := (broadcastInDim S16x256 ![] bcast_S_S16x256) x_call2_c_0
  have x_call2_v13 : (⟨S16x256, .i32⟩ : BufTy).Contents (Elt F) := subi x_call2_v2 x_call2_v12
  have x_v15 : (⟨S16x256, .i32⟩ : BufTy).Contents (Elt F) := select x_call2_v11 x_call2_v13 x_call2_v2
  have x_c_7 : (⟨S_, .i32⟩ : BufTy).Contents (Elt F) := (constantI S_ 32 0#32)
  have x_c_8 : (⟨S_, .i32⟩ : BufTy).Contents (Elt F) := (constantI S_ 32 511#32)
  have x_call4_v0 : (⟨S_, .i32⟩ : BufTy).Contents (Elt F) := id x_c_7
  have x_call4_v1 : (⟨S16x256, .i32⟩ : BufTy).Contents (Elt F) := (broadcastInDim S16x256 ![] bcast_S_S16x256) x_call4_v0
  have x_call4_v2 : (⟨S16x256, .i32⟩ : BufTy).Contents (Elt F) := maxsi x_call4_v1 x_v15
  have x_call4_v3 : (⟨S_, .i32⟩ : BufTy).Contents (Elt F) := id x_c_8
  have x_call4_v4 : (⟨S16x256, .i32⟩ : BufTy).Contents (Elt F) := (broadcastInDim S16x256 ![] bcast_S_S16x256) x_call4_v3
  have x_v29 : (⟨S16x256, .i32⟩ : BufTy).Contents (Elt F) := minsi x_call4_v4 x_call4_v2
  x_v29

/-- Window C: the value of main_v76 from those of main_v29, main_v28, main_arg2 (33 operations). -/
noncomputable def stC_v76 (x_v29 : (⟨S16x256, .i32⟩ : BufTy).Contents (Elt F)) (x_v28 : (⟨S16x256, .i32⟩ : BufTy).Contents (Elt F)) (x_arg2 : (⟨S16x1x512x512, .f32⟩ : BufTy).Contents (Elt F)) : (⟨S16x256, .f32⟩ : BufTy).Contents (Elt F) :=
  have x_v30 : (⟨S16, .i32⟩ : BufTy).Contents (Elt F) := (iotaInDim S16 32 0)
  have x_v31 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) x_v30
  have x_c_15 : (⟨S_, .i32⟩ : BufTy).Contents (Elt F) := (constantI S_ 32 0#32)
  have x_v53 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_15
  have x_v54 : (⟨S16x1, .i1⟩ : BufTy).Contents (Elt F) := (cmpi .slt : (⟨S16x1, .i32⟩ : BufTy).Contents (Elt F) → (⟨S16x1, .i32⟩ : BufTy).Contents (Elt F) → (⟨S16x1, .i1⟩ : BufTy).Contents (Elt F)) x_v31 x_v53
  have x_c_16 : (⟨S_, .i32⟩ : BufTy).Contents (Elt F) := (constantI S_ 32 16#32)
  have x_v55 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_16
  have x_v56 : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) x_v31 x_v55
  have x_v57 : (⟨S16x1, .i32⟩ : BufTy).Contents (Elt F) := (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)) x_v54 x_v56 x_v31
  have x_c_17 : (⟨S_, .i32⟩ : BufTy).Contents (Elt F) := (constantI S_ 32 0#32)
  have x_v58 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_17
  have x_v59 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v29 x_v58
  have x_c_18 : (⟨S_, .i32⟩ : BufTy).Contents (Elt F) := (constantI S_ 32 512#32)
  have x_v60 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_18
  have x_v61 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v29 x_v60
  have x_v62 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v59 x_v61 x_v29
  have x_c_19 : (⟨S_, .i32⟩ : BufTy).Contents (Elt F) := (constantI S_ 32 0#32)
  have x_v63 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_19
  have x_v64 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v28 x_v63
  have x_c_20 : (⟨S_, .i32⟩ : BufTy).Contents (Elt F) := (constantI S_ 32 512#32)
  have x_v65 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_20
  have x_v66 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v28 x_v65
  have x_v67 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v64 x_v66 x_v28
  have x_v68 : (⟨S16x256, .i32⟩ : BufTy).Contents (Elt F) := (broadcastInDim S16x256 ![0, 1] bcast_S16x1_S16x256_0_1 : (⟨S16x1, .i32⟩ : BufTy).Contents (Elt F) → (⟨S16x256, .i32⟩ : BufTy).Contents (Elt F)) x_v57
  have x_c_21 : (⟨S_, .i32⟩ : BufTy).Contents (Elt F) := (constantI S_ 32 0#32)
  have x_v69 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_21
  have x_v70 : (⟨S16x256, .i32⟩ : BufTy).Contents (Elt F) := (id : (⟨S16x256, .i32⟩ : BufTy).Contents (Elt F) → (⟨S16x256, .i32⟩ : BufTy).Contents (Elt F)) x_v69
  have x_v71 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v68
  have x_v72 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v70
  have x_v73 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v62
  have x_v74 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v67
  have x_v75 : (⟨S16x256x4, .i32⟩ : BufTy).Contents (Elt F) := concatenate S16x256x4 2 [⟨S16x256x1, x_v71⟩, ⟨S16x256x1, x_v72⟩, ⟨S16x256x1, x_v73⟩, ⟨S16x256x1, x_v74⟩] concatenates_S16x256x1_S16x256x1_S16x256x1_S16x256x1_S16x256x4_d2
  have x_v76 : (⟨S16x256, .f32⟩ : BufTy).Contents (Elt F) := ((fun x i => Host.gather gather_S16x1x512x512_S16x256x4_S16x256_n_0123_n_n_0123_2_1111 x i) : (⟨S16x1x512x512, .f32⟩ : BufTy).Contents (Elt F) → (⟨S16x256x4, .i32⟩ : BufTy).Contents (Elt F) → (⟨S16x256, .f32⟩ : BufTy).Contents (Elt F)) x_arg2 x_v75
  x_v76

/-- Window C: the value of main_v97 from those of main_v29, main_v28, main_arg3, main_v5, main_v7, main_v9, main_v11 (55 operations). -/
noncomputable def stC_v97 (x_v29 : (⟨S16x256, .i32⟩ : BufTy).Contents (Elt F)) (x_v28 : (⟨S16x256, .i32⟩ : BufTy).Contents (Elt F)) (x_arg3 : (⟨S16x4x512x512, .f32⟩ : BufTy).Contents (Elt F)) (x_v5 : (⟨S16x256, .i32⟩ : BufTy).Contents (Elt F)) (x_v7 : (⟨S16x256, .i32⟩ : BufTy).Contents (Elt F)) (x_v9 : (⟨S16x256, .i32⟩ : BufTy).Contents (Elt F)) (x_v11 : (⟨S16x256, .i32⟩ : BufTy).Contents (Elt F)) : (⟨S16x256x4, .i1⟩ : BufTy).Contents (Elt F) :=
  have x_v30 : (⟨S16, .i32⟩ : BufTy).Contents (Elt F) := (iotaInDim S16 32 0)
  have x_v31 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) x_v30
  have x_c_9 : (⟨S_, .i32⟩ : BufTy).Contents (Elt F) := (constantI S_ 32 0#32)
  have x_v32 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_9
  have x_v33 : (⟨S16x1, .i1⟩ : BufTy).Contents (Elt F) := (cmpi .slt : (⟨S16x1, .i32⟩ : BufTy).Contents (Elt F) → (⟨S16x1, .i32⟩ : BufTy).Contents (Elt F) → (⟨S16x1, .i1⟩ : BufTy).Contents (Elt F)) x_v31 x_v32
  have x_c_10 : (⟨S_, .i32⟩ : BufTy).Contents (Elt F) := (constantI S_ 32 16#32)
  have x_v34 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_10
  have x_v35 : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) x_v31 x_v34
  have x_v36 : (⟨S16x1, .i32⟩ : BufTy).Contents (Elt F) := (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)) x_v33 x_v35 x_v31
  have x_c_11 : (⟨S_, .i32⟩ : BufTy).Contents (Elt F) := (constantI S_ 32 0#32)
  have x_v37 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_11
  have x_v38 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v29 x_v37
  have x_c_12 : (⟨S_, .i32⟩ : BufTy).Contents (Elt F) := (constantI S_ 32 512#32)
  have x_v39 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_12
  have x_v40 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v29 x_v39
  have x_v41 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v38 x_v40 x_v29
  have x_c_13 : (⟨S_, .i32⟩ : BufTy).Contents (Elt F) := (constantI S_ 32 0#32)
  have x_v42 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_13
  have x_v43 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v28 x_v42
  have x_c_14 : (⟨S_, .i32⟩ : BufTy).Contents (Elt F) := (constantI S_ 32 512#32)
  have x_v44 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_14
  have x_v45 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v28 x_v44
  have x_v46 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v43 x_v45 x_v28
  have x_v47 : (⟨S16x256, .i32⟩ : BufTy).Contents (Elt F) := (broadcastInDim S16x256 ![0, 1] bcast_S16x1_S16x256_0_1 : (⟨S16x1, .i32⟩ : BufTy).Contents (Elt F) → (⟨S16x256, .i32⟩ : BufTy).Contents (Elt F)) x_v36
  have x_v48 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v47
  have x_v49 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v41
  have x_v50 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v46
  have x_v51 : (⟨S16x256x3, .i32⟩ : BufTy).Contents (Elt F) := concatenate S16x256x3 2 [⟨S16x256x1, x_v48⟩, ⟨S16x256x1, x_v49⟩, ⟨S16x256x1, x_v50⟩] concatenates_S16x256x1_S16x256x1_S16x256x1_S16x256x3_d2
  have x_v52 : (⟨S16x256x4, .f32⟩ : BufTy).Contents (Elt F) := ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)) x_arg3 x_v51
  have x_v77 : (⟨S16x256, .f32⟩ : BufTy).Contents (Elt F) := (sitofp .f32 : (⟨S16x256, .i32⟩ : BufTy).Contents (Elt F) → (⟨S16x256, .f32⟩ : BufTy).Contents (Elt F)) x_v5
  have x_cst_22 : (⟨S_, .f32⟩ : BufTy).Contents (Elt F) := (constant S_ .f32 0x44000000#32)
  have x_v78 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_22
  have x_v79 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v77 x_v78
  have x_v80 : (⟨S16x256, .f32⟩ : BufTy).Contents (Elt F) := (sitofp .f32 : (⟨S16x256, .i32⟩ : BufTy).Contents (Elt F) → (⟨S16x256, .f32⟩ : BufTy).Contents (Elt F)) x_v7
  have x_cst_23 : (⟨S_, .f32⟩ : BufTy).Contents (Elt F) := (constant S_ .f32 0x44000000#32)
  have x_v81 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_23
  have x_v82 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v80 x_v81
  have x_v83 : (⟨S16x256, .f32⟩ : BufTy).Contents (Elt F) := (sitofp .f32 : (⟨S16x256, .i32⟩ : BufTy).Contents (Elt F) → (⟨S16x256, .f32⟩ : BufTy).Contents (Elt F)) x_v9
  have x_cst_24 : (⟨S_, .f32⟩ : BufTy).Contents (Elt F) := (constant S_ .f32 0x44000000#32)
  have x_v84 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_24
  have x_v85 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v83 x_v84
  have x_v86 : (⟨S16x256, .f32⟩ : BufTy).Contents (Elt F) := (sitofp .f32 : (⟨S16x256, .i32⟩ : BufTy).Contents (Elt F) → (⟨S16x256, .f32⟩ : BufTy).Contents (Elt F)) x_v11
  have x_cst_25 : (⟨S_, .f32⟩ : BufTy).Contents (Elt F) := (constant S_ .f32 0x44000000#32)
  have x_v87 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_25
  have x_v88 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v86 x_v87
  have x_v89 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v79
  have x_v90 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v82
  have x_v91 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v85
  have x_v92 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v88
  have x_v93 : (⟨S16x256x4, .f32⟩ : BufTy).Contents (Elt F) := concatenate S16x256x4 2 [⟨S16x256x1, x_v89⟩, ⟨S16x256x1, x_v90⟩, ⟨S16x256x1, x_v91⟩, ⟨S16x256x1, x_v92⟩] concatenates_S16x256x1_S16x256x1_S16x256x1_S16x256x1_S16x256x4_d2
  have x_v94 : (⟨S16x256x4, .f32⟩ : BufTy).Contents (Elt F) := (subf : (⟨S16x256x4, .f32⟩ : BufTy).Contents (Elt F) → (⟨S16x256x4, .f32⟩ : BufTy).Contents (Elt F) → (⟨S16x256x4, .f32⟩ : BufTy).Contents (Elt F)) x_v52 x_v93
  have x_v95 : (⟨S16x256x4, .f32⟩ : BufTy).Contents (Elt F) := (Host.absf : (⟨S16x256x4, .f32⟩ : BufTy).Contents (Elt F) → (⟨S16x256x4, .f32⟩ : BufTy).Contents (Elt F)) x_v94
  have x_cst_26 : (⟨S_, .f32⟩ : BufTy).Contents (Elt F) := (constant S_ .f32 0x3F800000#32)
  have x_v96 : (⟨S16x256x4, .f32⟩ : BufTy).Contents (Elt F) := (broadcastInDim S16x256x4 ![] bcast_S_S16x256x4 : (⟨S_, .f32⟩ : BufTy).Contents (Elt F) → (⟨S16x256x4, .f32⟩ : BufTy).Contents (Elt F)) x_cst_26
  have x_v97 : (⟨S16x256x4, .i1⟩ : BufTy).Contents (Elt F) := (cmpf .olt : (⟨S16x256x4, .f32⟩ : BufTy).Contents (Elt F) → (⟨S16x256x4, .f32⟩ : BufTy).Contents (Elt F) → (⟨S16x256x4, .i1⟩ : BufTy).Contents (Elt F)) x_v95 x_v96
  x_v97

/-- Window C: the value of main_v100 from those of main_v29, main_v28, main_arg3, main_v5, main_v7, main_v9, main_v11 (56 operations). -/
noncomputable def stC_v100 (x_v29 : (⟨S16x256, .i32⟩ : BufTy).Contents (Elt F)) (x_v28 : (⟨S16x256, .i32⟩ : BufTy).Contents (Elt F)) (x_arg3 : (⟨S16x4x512x512, .f32⟩ : BufTy).Contents (Elt F)) (x_v5 : (⟨S16x256, .i32⟩ : BufTy).Contents (Elt F)) (x_v7 : (⟨S16x256, .i32⟩ : BufTy).Contents (Elt F)) (x_v9 : (⟨S16x256, .i32⟩ : BufTy).Contents (Elt F)) (x_v11 : (⟨S16x256, .i32⟩ : BufTy).Contents (Elt F)) : (⟨S16x256x4, .f32⟩ : BufTy).Contents (Elt F) :=
  have x_v30 : (⟨S16, .i32⟩ : BufTy).Contents (Elt F) := (iotaInDim S16 32 0)
  have x_v31 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) x_v30
  have x_c_9 : (⟨S_, .i32⟩ : BufTy).Contents (Elt F) := (constantI S_ 32 0#32)
  have x_v32 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_9
  have x_v33 : (⟨S16x1, .i1⟩ : BufTy).Contents (Elt F) := (cmpi .slt : (⟨S16x1, .i32⟩ : BufTy).Contents (Elt F) → (⟨S16x1, .i32⟩ : BufTy).Contents (Elt F) → (⟨S16x1, .i1⟩ : BufTy).Contents (Elt F)) x_v31 x_v32
  have x_c_10 : (⟨S_, .i32⟩ : BufTy).Contents (Elt F) := (constantI S_ 32 16#32)
  have x_v34 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_10
  have x_v35 : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) x_v31 x_v34
  have x_v36 : (⟨S16x1, .i32⟩ : BufTy).Contents (Elt F) := (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)) x_v33 x_v35 x_v31
  have x_c_11 : (⟨S_, .i32⟩ : BufTy).Contents (Elt F) := (constantI S_ 32 0#32)
  have x_v37 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_11
  have x_v38 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v29 x_v37
  have x_c_12 : (⟨S_, .i32⟩ : BufTy).Contents (Elt F) := (constantI S_ 32 512#32)
  have x_v39 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_12
  have x_v40 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v29 x_v39
  have x_v41 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v38 x_v40 x_v29
  have x_c_13 : (⟨S_, .i32⟩ : BufTy).Contents (Elt F) := (constantI S_ 32 0#32)
  have x_v42 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_13
  have x_v43 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v28 x_v42
  have x_c_14 : (⟨S_, .i32⟩ : BufTy).Contents (Elt F) := (constantI S_ 32 512#32)
  have x_v44 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_14
  have x_v45 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v28 x_v44
  have x_v46 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v43 x_v45 x_v28
  have x_v47 : (⟨S16x256, .i32⟩ : BufTy).Contents (Elt F) := (broadcastInDim S16x256 ![0, 1] bcast_S16x1_S16x256_0_1 : (⟨S16x1, .i32⟩ : BufTy).Contents (Elt F) → (⟨S16x256, .i32⟩ : BufTy).Contents (Elt F)) x_v36
  have x_v48 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v47
  have x_v49 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v41
  have x_v50 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v46
  have x_v51 : (⟨S16x256x3, .i32⟩ : BufTy).Contents (Elt F) := concatenate S16x256x3 2 [⟨S16x256x1, x_v48⟩, ⟨S16x256x1, x_v49⟩, ⟨S16x256x1, x_v50⟩] concatenates_S16x256x1_S16x256x1_S16x256x1_S16x256x3_d2
  have x_v52 : (⟨S16x256x4, .f32⟩ : BufTy).Contents (Elt F) := ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)) x_arg3 x_v51
  have x_v77 : (⟨S16x256, .f32⟩ : BufTy).Contents (Elt F) := (sitofp .f32 : (⟨S16x256, .i32⟩ : BufTy).Contents (Elt F) → (⟨S16x256, .f32⟩ : BufTy).Contents (Elt F)) x_v5
  have x_cst_22 : (⟨S_, .f32⟩ : BufTy).Contents (Elt F) := (constant S_ .f32 0x44000000#32)
  have x_v78 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_22
  have x_v79 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v77 x_v78
  have x_v80 : (⟨S16x256, .f32⟩ : BufTy).Contents (Elt F) := (sitofp .f32 : (⟨S16x256, .i32⟩ : BufTy).Contents (Elt F) → (⟨S16x256, .f32⟩ : BufTy).Contents (Elt F)) x_v7
  have x_cst_23 : (⟨S_, .f32⟩ : BufTy).Contents (Elt F) := (constant S_ .f32 0x44000000#32)
  have x_v81 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_23
  have x_v82 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v80 x_v81
  have x_v83 : (⟨S16x256, .f32⟩ : BufTy).Contents (Elt F) := (sitofp .f32 : (⟨S16x256, .i32⟩ : BufTy).Contents (Elt F) → (⟨S16x256, .f32⟩ : BufTy).Contents (Elt F)) x_v9
  have x_cst_24 : (⟨S_, .f32⟩ : BufTy).Contents (Elt F) := (constant S_ .f32 0x44000000#32)
  have x_v84 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_24
  have x_v85 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v83 x_v84
  have x_v86 : (⟨S16x256, .f32⟩ : BufTy).Contents (Elt F) := (sitofp .f32 : (⟨S16x256, .i32⟩ : BufTy).Contents (Elt F) → (⟨S16x256, .f32⟩ : BufTy).Contents (Elt F)) x_v11
  have x_cst_25 : (⟨S_, .f32⟩ : BufTy).Contents (Elt F) := (constant S_ .f32 0x44000000#32)
  have x_v87 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_25
  have x_v88 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v86 x_v87
  have x_v89 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v79
  have x_v90 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v82
  have x_v91 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v85
  have x_v92 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v88
  have x_v93 : (⟨S16x256x4, .f32⟩ : BufTy).Contents (Elt F) := concatenate S16x256x4 2 [⟨S16x256x1, x_v89⟩, ⟨S16x256x1, x_v90⟩, ⟨S16x256x1, x_v91⟩, ⟨S16x256x1, x_v92⟩] concatenates_S16x256x1_S16x256x1_S16x256x1_S16x256x1_S16x256x4_d2
  have x_v94 : (⟨S16x256x4, .f32⟩ : BufTy).Contents (Elt F) := (subf : (⟨S16x256x4, .f32⟩ : BufTy).Contents (Elt F) → (⟨S16x256x4, .f32⟩ : BufTy).Contents (Elt F) → (⟨S16x256x4, .f32⟩ : BufTy).Contents (Elt F)) x_v52 x_v93
  have x_v95 : (⟨S16x256x4, .f32⟩ : BufTy).Contents (Elt F) := (Host.absf : (⟨S16x256x4, .f32⟩ : BufTy).Contents (Elt F) → (⟨S16x256x4, .f32⟩ : BufTy).Contents (Elt F)) x_v94
  have x_cst_27 : (⟨S_, .f32⟩ : BufTy).Contents (Elt F) := (constant S_ .f32 0x3F000000#32)
  have x_v98 : (⟨S16x256x4, .f32⟩ : BufTy).Contents (Elt F) := (broadcastInDim S16x256x4 ![] bcast_S_S16x256x4 : (⟨S_, .f32⟩ : BufTy).Contents (Elt F) → (⟨S16x256x4, .f32⟩ : BufTy).Contents (Elt F)) x_cst_27
  have x_v99 : (⟨S16x256x4, .f32⟩ : BufTy).Contents (Elt F) := (mulf : (⟨S16x256x4, .f32⟩ : BufTy).Contents (Elt F) → (⟨S16x256x4, .f32⟩ : BufTy).Contents (Elt F) → (⟨S16x256x4, .f32⟩ : BufTy).Contents (Elt F)) x_v98 x_v95
  have x_v100 : (⟨S16x256x4, .f32⟩ : BufTy).Contents (Elt F) := (mulf : (⟨S16x256x4, .f32⟩ : BufTy).Contents (Elt F) → (⟨S16x256x4, .f32⟩ : BufTy).Contents (Elt F) → (⟨S16x256x4, .f32⟩ : BufTy).Contents (Elt F)) x_v99 x_v95
  x_v100

/-- Window C: the value of main_v102 from those of main_v29, main_v28, main_arg3, main_v5, main_v7, main_v9, main_v11 (55 operations). -/
noncomputable def stC_v102 (x_v29 : (⟨S16x256, .i32⟩ : BufTy).Contents (Elt F)) (x_v28 : (⟨S16x256, .i32⟩ : BufTy).Contents (Elt F)) (x_arg3 : (⟨S16x4x512x512, .f32⟩ : BufTy).Contents (Elt F)) (x_v5 : (⟨S16x256, .i32⟩ : BufTy).Contents (Elt F)) (x_v7 : (⟨S16x256, .i32⟩ : BufTy).Contents (Elt F)) (x_v9 : (⟨S16x256, .i32⟩ : BufTy).Contents (Elt F)) (x_v11 : (⟨S16x256, .i32⟩ : BufTy).Contents (Elt F)) : (⟨S16x256x4, .f32⟩ : BufTy).Contents (Elt F) :=
  have x_v30 : (⟨S16, .i32⟩ : BufTy).Contents (Elt F) := (iotaInDim S16 32 0)
  have x_v31 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) x_v30
  have x_c_9 : (⟨S_, .i32⟩ : BufTy).Contents (Elt F) := (constantI S_ 32 0#32)
  have x_v32 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_9
  have x_v33 : (⟨S16x1, .i1⟩ : BufTy).Contents (Elt F) := (cmpi .slt : (⟨S16x1, .i32⟩ : BufTy).Contents (Elt F) → (⟨S16x1, .i32⟩ : BufTy).Contents (Elt F) → (⟨S16x1, .i1⟩ : BufTy).Contents (Elt F)) x_v31 x_v32
  have x_c_10 : (⟨S_, .i32⟩ : BufTy).Contents (Elt F) := (constantI S_ 32 16#32)
  have x_v34 : (⟨S16x1, .i32⟩ : BufTy).Contents (Elt F) := (broadcastInDim S16x1 ![] bcast_S_S16x1 : (⟨S_, .i32⟩ : BufTy).Contents (Elt F) → (⟨S16x1, .i32⟩ : BufTy).Contents (Elt F)) x_c_10
  have x_v35 : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) x_v31 x_v34
  have x_v36 : (⟨S16x1, .i32⟩ : BufTy).Contents (Elt F) := (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)) x_v33 x_v35 x_v31
  have x_c_11 : (⟨S_, .i32⟩ : BufTy).Contents (Elt F) := (constantI S_ 32 0#32)
  have x_v37 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_11
  have x_v38 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v29 x_v37
  have x_c_12 : (⟨S_, .i32⟩ : BufTy).Contents (Elt F) := (constantI S_ 32 512#32)
  have x_v39 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_12
  have x_v40 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v29 x_v39
  have x_v41 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v38 x_v40 x_v29
  have x_c_13 : (⟨S_, .i32⟩ : BufTy).Contents (Elt F) := (constantI S_ 32 0#32)
  have x_v42 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_13
  have x_v43 : (⟨S16x256, .i1⟩ : BufTy).Contents (Elt F) := (cmpi .slt : (⟨S16x256, .i32⟩ : BufTy).Contents (Elt F) → (⟨S16x256, .i32⟩ : BufTy).Contents (Elt F) → (⟨S16x256, .i1⟩ : BufTy).Contents (Elt F)) x_v28 x_v42
  have x_c_14 : (⟨S_, .i32⟩ : BufTy).Contents (Elt F) := (constantI S_ 32 512#32)
  have x_v44 : (⟨S16x256, .i32⟩ : BufTy).Contents (Elt F) := (broadcastInDim S16x256 ![] bcast_S_S16x256 : (⟨S_, .i32⟩ : BufTy).Contents (Elt F) → (⟨S16x256, .i32⟩ : BufTy).Contents (Elt F)) x_c_14
  have x_v45 : (⟨S16x256, .i32⟩ : BufTy).Contents (Elt F) := (addi : (⟨S16x256, .i32⟩ : BufTy).Contents (Elt F) → (⟨S16x256, .i32⟩ : BufTy).Contents (Elt F) → (⟨S16x256, .i32⟩ : BufTy).Contents (Elt F)) x_v28 x_v44
  have x_v46 : (⟨S16x256, .i32⟩ : BufTy).Contents (Elt F) := (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)) x_v43 x_v45 x_v28
  have x_v47 : (⟨S16x256, .i32⟩ : BufTy).Contents (Elt F) := (broadcastInDim S16x256 ![0, 1] bcast_S16x1_S16x256_0_1 : (⟨S16x1, .i32⟩ : BufTy).Contents (Elt F) → (⟨S16x256, .i32⟩ : BufTy).Contents (Elt F)) x_v36
  have x_v48 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v47
  have x_v49 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v41
  have x_v50 : (⟨S16x256x1, .i32⟩ : BufTy).Contents (Elt F) := (broadcastInDim S16x256x1 ![0, 1] bcast_S16x256_S16x256x1_0_1 : (⟨S16x256, .i32⟩ : BufTy).Contents (Elt F) → (⟨S16x256x1, .i32⟩ : BufTy).Contents (Elt F)) x_v46
  have x_v51 : (⟨S16x256x3, .i32⟩ : BufTy).Contents (Elt F) := concatenate S16x256x3 2 [⟨S16x256x1, x_v48⟩, ⟨S16x256x1, x_v49⟩, ⟨S16x256x1, x_v50⟩] concatenates_S16x256x1_S16x256x1_S16x256x1_S16x256x3_d2
  have x_v52 : (⟨S16x256x4, .f32⟩ : BufTy).Contents (Elt F) := ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)) x_arg3 x_v51
  have x_v77 : (⟨S16x256, .f32⟩ : BufTy).Contents (Elt F) := (sitofp .f32 : (⟨S16x256, .i32⟩ : BufTy).Contents (Elt F) → (⟨S16x256, .f32⟩ : BufTy).Contents (Elt F)) x_v5
  have x_cst_22 : (⟨S_, .f32⟩ : BufTy).Contents (Elt F) := (constant S_ .f32 0x44000000#32)
  have x_v78 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_22
  have x_v79 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v77 x_v78
  have x_v80 : (⟨S16x256, .f32⟩ : BufTy).Contents (Elt F) := (sitofp .f32 : (⟨S16x256, .i32⟩ : BufTy).Contents (Elt F) → (⟨S16x256, .f32⟩ : BufTy).Contents (Elt F)) x_v7
  have x_cst_23 : (⟨S_, .f32⟩ : BufTy).Contents (Elt F) := (constant S_ .f32 0x44000000#32)
  have x_v81 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_23
  have x_v82 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v80 x_v81
  have x_v83 : (⟨S16x256, .f32⟩ : BufTy).Contents (Elt F) := (sitofp .f32 : (⟨S16x256, .i32⟩ : BufTy).Contents (Elt F) → (⟨S16x256, .f32⟩ : BufTy).Contents (Elt F)) x_v9
  have x_cst_24 : (⟨S_, .f32⟩ : BufTy).Contents (Elt F) := (constant S_ .f32 0x44000000#32)
  have x_v84 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_24
  have x_v85 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v83 x_v84
  have x_v86 : (⟨S16x256, .f32⟩ : BufTy).Contents (Elt F) := (sitofp .f32 : (⟨S16x256, .i32⟩ : BufTy).Contents (Elt F) → (⟨S16x256, .f32⟩ : BufTy).Contents (Elt F)) x_v11
  have x_cst_25 : (⟨S_, .f32⟩ : BufTy).Contents (Elt F) := (constant S_ .f32 0x44000000#32)
  have x_v87 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_25
  have x_v88 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v86 x_v87
  have x_v89 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v79
  have x_v90 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v82
  have x_v91 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v85
  have x_v92 : (⟨S16x256x1, .f32⟩ : BufTy).Contents (Elt F) := (broadcastInDim S16x256x1 ![0, 1] bcast_S16x256_S16x256x1_0_1 : (⟨S16x256, .f32⟩ : BufTy).Contents (Elt F) → (⟨S16x256x1, .f32⟩ : BufTy).Contents (Elt F)) x_v88
  have x_v93 : (⟨S16x256x4, .f32⟩ : BufTy).Contents (Elt F) := concatenate S16x256x4 2 [⟨S16x256x1, x_v89⟩, ⟨S16x256x1, x_v90⟩, ⟨S16x256x1, x_v91⟩, ⟨S16x256x1, x_v92⟩] concatenates_S16x256x1_S16x256x1_S16x256x1_S16x256x1_S16x256x4_d2
  have x_v94 : (⟨S16x256x4, .f32⟩ : BufTy).Contents (Elt F) := (subf : (⟨S16x256x4, .f32⟩ : BufTy).Contents (Elt F) → (⟨S16x256x4, .f32⟩ : BufTy).Contents (Elt F) → (⟨S16x256x4, .f32⟩ : BufTy).Contents (Elt F)) x_v52 x_v93
  have x_v95 : (⟨S16x256x4, .f32⟩ : BufTy).Contents (Elt F) := (Host.absf : (⟨S16x256x4, .f32⟩ : BufTy).Contents (Elt F) → (⟨S16x256x4, .f32⟩ : BufTy).Contents (Elt F)) x_v94
  have x_cst_28 : (⟨S_, .f32⟩ : BufTy).Contents (Elt F) := (constant S_ .f32 0x3F000000#32)
  have x_v101 : (⟨S16x256x4, .f32⟩ : BufTy).Contents (Elt F) := (broadcastInDim S16x256x4 ![] bcast_S_S16x256x4 : (⟨S_, .f32⟩ : BufTy).Contents (Elt F) → (⟨S16x256x4, .f32⟩ : BufTy).Contents (Elt F)) x_cst_28
  have x_v102 : (⟨S16x256x4, .f32⟩ : BufTy).Contents (Elt F) := (subf : (⟨S16x256x4, .f32⟩ : BufTy).Contents (Elt F) → (⟨S16x256x4, .f32⟩ : BufTy).Contents (Elt F) → (⟨S16x256x4, .f32⟩ : BufTy).Contents (Elt F)) x_v95 x_v101
  x_v102

/-- Window D: the value of main_v141 from those of main_v97, main_v100, main_v102, main_v76, main_arg4, main_v27, main_v3 (56 operations). -/
noncomputable def stD_v141 (x_v97 : (⟨S16x256x4, .i1⟩ : BufTy).Contents (Elt F)) (x_v100 : (⟨S16x256x4, .f32⟩ : BufTy).Contents (Elt F)) (x_v102 : (⟨S16x256x4, .f32⟩ : BufTy).Contents (Elt F)) (x_v76 : (⟨S16x256, .f32⟩ : BufTy).Contents (Elt F)) (x_arg4 : (⟨S16x256, .f32⟩ : BufTy).Contents (Elt F)) (x_v27 : (⟨S16x256, .i1⟩ : BufTy).Contents (Elt F)) (x_v3 : (⟨S_, .f32⟩ : BufTy).Contents (Elt F)) : (⟨S4, .f32⟩ : BufTy).Contents (Elt F) :=
  have x_v103 : (⟨S16x256x4, .f32⟩ : BufTy).Contents (Elt F) := select x_v97 x_v100 x_v102
  have x_cst_29 : (⟨S_, .f32⟩ : BufTy).Contents (Elt F) := (constant S_ .f32 0x00000000#32)
  have x_v104 : (⟨S16x256, .f32⟩ : BufTy).Contents (Elt F) := ((fun x v => Host.reduceAdd x v reducesTo_S16x256x4_S16x256_d2 h_S_) : (⟨S16x256x4, .f32⟩ : BufTy).Contents (Elt F) → (⟨S_, .f32⟩ : BufTy).Contents (Elt F) → (⟨S16x256, .f32⟩ : BufTy).Contents (Elt F)) x_v103 x_cst_29
  have x_cst_30 : (⟨S_, .f32⟩ : BufTy).Contents (Elt F) := (constant S_ .f32 0x40800000#32)
  have x_v105 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_30
  have x_v106 : (⟨S16x256, .f32⟩ : BufTy).Contents (Elt F) := (Host.divf : (⟨S16x256, .f32⟩ : BufTy).Contents (Elt F) → (⟨S16x256, .f32⟩ : BufTy).Contents (Elt F) → (⟨S16x256, .f32⟩ : BufTy).Contents (Elt F)) x_v104 x_v105
  have x_v107 : (⟨S16x256, .f32⟩ : BufTy).Contents (Elt F) := (Host.log : (⟨S16x256, .f32⟩ : BufTy).Contents (Elt F) → (⟨S16x256, .f32⟩ : BufTy).Contents (Elt F)) x_v76
  have x_cst_31 : (⟨S_, .f32⟩ : BufTy).Contents (Elt F) := (constant S_ .f32 0xC2C80000#32)
  have x_v108 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_31
  have x_v109 : (⟨S16x256, .f32⟩ : BufTy).Contents (Elt F) := (maximumf : (⟨S16x256, .f32⟩ : BufTy).Contents (Elt F) → (⟨S16x256, .f32⟩ : BufTy).Contents (Elt F) → (⟨S16x256, .f32⟩ : BufTy).Contents (Elt F)) x_v107 x_v108
  have x_v110 : (⟨S16x256, .f32⟩ : BufTy).Contents (Elt F) := (Host.negf : (⟨S16x256, .f32⟩ : BufTy).Contents (Elt F) → (⟨S16x256, .f32⟩ : BufTy).Contents (Elt F)) x_v76
  have x_v111 : (⟨S16x256, .f32⟩ : BufTy).Contents (Elt F) := (Host.log1p : (⟨S16x256, .f32⟩ : BufTy).Contents (Elt F) → (⟨S16x256, .f32⟩ : BufTy).Contents (Elt F)) x_v110
  have x_cst_32 : (⟨S_, .f32⟩ : BufTy).Contents (Elt F) := (constant S_ .f32 0xC2C80000#32)
  have x_v112 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_32
  have x_v113 : (⟨S16x256, .f32⟩ : BufTy).Contents (Elt F) := (maximumf : (⟨S16x256, .f32⟩ : BufTy).Contents (Elt F) → (⟨S16x256, .f32⟩ : BufTy).Contents (Elt F) → (⟨S16x256, .f32⟩ : BufTy).Contents (Elt F)) x_v111 x_v112
  have x_v114 : (⟨S16x256, .f32⟩ : BufTy).Contents (Elt F) := (mulf : (⟨S16x256, .f32⟩ : BufTy).Contents (Elt F) → (⟨S16x256, .f32⟩ : BufTy).Contents (Elt F) → (⟨S16x256, .f32⟩ : BufTy).Contents (Elt F)) x_arg4 x_v109
  have x_cst_33 : (⟨S_, .f32⟩ : BufTy).Contents (Elt F) := (constant S_ .f32 0x3F800000#32)
  have x_v115 : (⟨S16x256, .f32⟩ : BufTy).Contents (Elt F) := (broadcastInDim S16x256 ![] bcast_S_S16x256 : (⟨S_, .f32⟩ : BufTy).Contents (Elt F) → (⟨S16x256, .f32⟩ : BufTy).Contents (Elt F)) x_cst_33
  have x_v116 : (⟨S16x256, .f32⟩ : BufTy).Contents (Elt F) := (subf : (⟨S16x256, .f32⟩ : BufTy).Contents (Elt F) → (⟨S16x256, .f32⟩ : BufTy).Contents (Elt F) → (⟨S16x256, .f32⟩ : BufTy).Contents (Elt F)) x_v115 x_arg4
  have x_v117 : (⟨S16x256, .f32⟩ : BufTy).Contents (Elt F) := (mulf : (⟨S16x256, .f32⟩ : BufTy).Contents (Elt F) → (⟨S16x256, .f32⟩ : BufTy).Contents (Elt F) → (⟨S16x256, .f32⟩ : BufTy).Contents (Elt F)) x_v116 x_v113
  have x_v118 : (⟨S16x256, .f32⟩ : BufTy).Contents (Elt F) := (addf : (⟨S16x256, .f32⟩ : BufTy).Contents (Elt F) → (⟨S16x256, .f32⟩ : BufTy).Contents (Elt F) → (⟨S16x256, .f32⟩ : BufTy).Contents (Elt F)) x_v114 x_v117
  have x_v119 : (⟨S16x256, .f32⟩ : BufTy).Contents (Elt F) := (Host.negf : (⟨S16x256, .f32⟩ : BufTy).Contents (Elt F) → (⟨S16x256, .f32⟩ : BufTy).Contents (Elt F)) x_v118
  have x_v120 : (⟨S16x256, .f32⟩ : BufTy).Contents (Elt F) := (uitofp .f32 : (⟨S16x256, .i1⟩ : BufTy).Contents (Elt F) → (⟨S16x256, .f32⟩ : BufTy).Contents (Elt F)) x_v27
  have x_cst_34 : (⟨S_, .f32⟩ : BufTy).Contents (Elt F) := (constant S_ .f32 0x00000000#32)
  have x_v121 : (⟨S_, .f32⟩ : BufTy).Contents (Elt F) := ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)) x_v120 x_cst_34
  have x_cst_35 : (⟨S_, .f32⟩ : BufTy).Contents (Elt F) := (constant S_ .f32 0x3F800000#32)
  have x_v122 : (⟨S_, .f32⟩ : BufTy).Contents (Elt F) := (maximumf : (⟨S_, .f32⟩ : BufTy).Contents (Elt F) → (⟨S_, .f32⟩ : BufTy).Contents (Elt F) → (⟨S_, .f32⟩ : BufTy).Contents (Elt F)) x_v121 x_cst_35
  have x_cst_36 : (⟨S_, .f32⟩ : BufTy).Contents (Elt F) := (constant S_ .f32 0x00000000#32)
  have x_v123 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) x_v121 x_cst_36
  have x_v124 : (⟨S16x256, .f32⟩ : BufTy).Contents (Elt F) := (mulf : (⟨S16x256, .f32⟩ : BufTy).Contents (Elt F) → (⟨S16x256, .f32⟩ : BufTy).Contents (Elt F) → (⟨S16x256, .f32⟩ : BufTy).Contents (Elt F)) x_v106 x_v120
  have x_cst_37 : (⟨S_, .f32⟩ : BufTy).Contents (Elt F) := (constant S_ .f32 0x00000000#32)
  have x_v125 : (⟨S_, .f32⟩ : BufTy).Contents (Elt F) := ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)) x_v124 x_cst_37
  have x_v126 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) x_v125 x_v122
  have x_cst_38 : (⟨S_, .f32⟩ : BufTy).Contents (Elt F) := (constant S_ .f32 0x00000000#32)
  have x_call6_v0 : (⟨S_, .f32⟩ : BufTy).Contents (Elt F) := id x_cst_38
  have x_v127 : (⟨S_, .f32⟩ : BufTy).Contents (Elt F) := select x_v123 x_v126 x_call6_v0
  have x_v128 : (⟨S16x256, .f32⟩ : BufTy).Contents (Elt F) := (mulf : (⟨S16x256, .f32⟩ : BufTy).Contents (Elt F) → (⟨S16x256, .f32⟩ : BufTy).Contents (Elt F) → (⟨S16x256, .f32⟩ : BufTy).Contents (Elt F)) x_v119 x_v120
  have x_cst_39 : (⟨S_, .f32⟩ : BufTy).Contents (Elt F) := (constant S_ .f32 0x00000000#32)
  have x_v129 : (⟨S_, .f32⟩ : BufTy).Contents (Elt F) := ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)) x_v128 x_cst_39
  have x_v130 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) x_v129 x_v122
  have x_cst_40 : (⟨S_, .f32⟩ : BufTy).Contents (Elt F) := (constant S_ .f32 0x00000000#32)
  have x_call7_v0 : (⟨S_, .f32⟩ : BufTy).Contents (Elt F) := id x_cst_40
  have x_v131 : (⟨S_, .f32⟩ : BufTy).Contents (Elt F) := select x_v123 x_v130 x_call7_v0
  have x_cst_41 : (⟨S_, .f32⟩ : BufTy).Contents (Elt F) := (constant S_ .f32 0x3F800000#32)
  have x_v132 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) x_cst_41 x_v3
  have x_cst_42 : (⟨S_, .f32⟩ : BufTy).Contents (Elt F) := (constant S_ .f32 0x3F800000#32)
  have x_v133 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) x_cst_42 x_v127
  have x_v134 : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) x_v132 x_v133
  have x_cst_43 : (⟨S_, .f32⟩ : BufTy).Contents (Elt F) := (constant S_ .f32 0x3F800000#32)
  have x_v135 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) x_cst_43 x_v131
  have x_v136 : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) x_v134 x_v135
  have x_v137 : (⟨S1, .f32⟩ : BufTy).Contents (Elt F) := (broadcastInDim S1 ![] bcast_S_S1 : (⟨S_, .f32⟩ : BufTy).Contents (Elt F) → (⟨S1, .f32⟩ : BufTy).Contents (Elt F)) x_v136
  have x_v138 : (⟨S1, .f32⟩ : BufTy).Contents (Elt F) := (broadcastInDim S1 ![] bcast_S_S1 : (⟨S_, .f32⟩ : BufTy).Contents (Elt F) → (⟨S1, .f32⟩ : BufTy).Contents (Elt F)) x_v3
  have x_v139 : (⟨S1, .f32⟩ : BufTy).Contents (Elt F) := (broadcastInDim S1 ![] bcast_S_S1 : (⟨S_, .f32⟩ : BufTy).Contents (Elt F) → (⟨S1, .f32⟩ : BufTy).Contents (Elt F)) x_v127
  have x_v140 : (⟨S1, .f32⟩ : BufTy).Contents (Elt F) := (broadcastInDim S1 ![] bcast_S_S1 : (⟨S_, .f32⟩ : BufTy).Contents (Elt F) → (⟨S1, .f32⟩ : BufTy).Contents (Elt F)) x_v131
  have x_v141 : (⟨S4, .f32⟩ : BufTy).Contents (Elt F) := concatenate S4 0 [⟨S1, x_v137⟩, ⟨S1, x_v138⟩, ⟨S1, x_v139⟩, ⟨S1, x_v140⟩] concatenates_S1_S1_S1_S1_S4_d0
  x_v141

end Cert.KernelIdeal.Tail

end
-- ==== Proof.KIValue.lean ====
/-
  The value of the kernel program's region, at the exact instance: the one-element output array ends at the zero word
  plus the total, over ALL pixels, of the pixel terms of the prediction map against the target map — and so the scalar
  the host operations after the region start from is that total divided by the value of the word 0x4A800000.

  The scratch word after point t is the scratch word after point t − 1 (the zero word before point 0) plus the total of
  the pixel terms over the point's block; the block of point t is rows 1024·t … 1024·t + 1023 of the [8192, 512]
  reshapes of the two maps; the last point copies the scratch word into the output array. Eight steps from the zero
  word are the zero word plus the eight block totals; the block totals add up to the total over the [8192, 512] array;
  and the reshape lists the same elements. No finiteness is used: only that addition on the extended reals commutes
  and associates.
-/
import proofs.«125002_j27127013441992_1_alg».proof.Proof.KIPieces
import proofs.«125002_j27127013441992_1_alg».proof.Proof.BceValue
import proofs.«125002_j27127013441992_1_alg».proof.Proof.TailStages
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP Cert.KernelIdeal.Fr
open Idealize.ShloMosaic.ValueIdx Cert.LibSumRegroup Cert.Bce Cert.KernelIdeal.Bce

variable {F : FTy → Type} [FloatOps F]
variable (m : (ℓ : Loc nD τ sig) → Buf (Elt F) ℓ)

theorem hN : cfg0.N = 8 := N_0

theorem lt_N {n : ℕ} (h : n < 8) : n < cfg0.N := lt_of_lt_of_eq h hN.symm

/-! ## The output array after the region -/

/-- What the output array ends at: the scratch word after the last point. -/
abbrev result (c : Dev nD) : Buf (Elt F) ((c : Thread nD τ).loc main_call0_v0) := (outsAt0 m c 7 (lt_N (by decide))).2

/-- The one write-back, at point 7, writes it: block (0, 0) of the [1, 1] array read through zero offsets is the array. -/
theorem flushed_eq (c : Dev nD) (t : Fin cfg0.N) (hf : (cfg0.win 2).flush t = true) :
    (dats m 0 c).flushed 2 t = ((cfg0.win 2).blk t).view.read (Elt F) (result m c) := by
  have hN' : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2, out_last m c t0_7 (by decide)]
  have hz' : (fun a => win0_2.index t0_7 a * main_call0_v0.ty.shape.size a) = fun _ => 0 := funext fun a => by fin_cases a <;> decide
  exact (Memref.read_access_unit_zero (Elt F) main_call0_v0 hz' (fun a => by rw [congrFun hz' a]; simp) (result m c)).symm

/-- So the output array ends holding the scratch word after point 7 (point 7's block covers it). -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_call0_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-! ## The blocks the points read -/

/-- The two arrays the region's input windows stage are the [8192, 512] reshapes of the first two arguments. -/
theorem V_v0 (c : Dev nD) : (V m c main_v0 : S8192x512.Idx → Elt F .f32)
    = shapeCast S8192x512 (m ((c : Thread nD τ).loc main_arg0)) shapeCasts_S16x1x512x512_S8192x512 := by
  dsimp only [V, V0]
  simp only [hostOps0, List.flatten_cons, List.flatten_nil, List.append_nil, List.cons_append, List.nil_append]
  after_results
  rfl

theorem V_v1 (c : Dev nD) : (V m c main_v1 : S8192x512.Idx → Elt F .f32)
    = shapeCast S8192x512 (m ((c : Thread nD τ).loc main_arg1)) shapeCasts_S16x1x512x512_S8192x512 := by
  dsimp only [V, V0]
  simp only [hostOps0, List.flatten_cons, List.flatten_nil, List.append_nil, List.cons_append, List.nil_append]
  after_results
  rfl

/-- Row `1024 t + r` of the staged array, column `q`. -/
abbrev rowOf (t : Fin cfg0.N) (y : S1024x512.Idx) : S8192x512.Idx :=
  ix2 ⟨1024 * t.val + (y 0).val, row_lt (n := 8) (m := 1024) ⟨t.val, lt_of_lt_of_eq t.isLt hN⟩ (idx2_lt0 y)⟩ (y 1)

/-- The block of point `t` of the first window: rows 1024·t … of the staged array. -/
theorem iblk0_apply (c : Dev nD) (t : Fin cfg0.N) (y : S1024x512.Idx) :
    (iblk m c 0 t : Vec F S1024x512 .f32) y = (V m c main_v0 : S8192x512.Idx → Elt F .f32) (rowOf t y) := by
  have hi : win0_0.index t 0 = t.val ∧ win0_0.index t 1 = 0 := by
    rcases fin_N0 t with rfl | rfl | rfl | rfl | rfl | rfl | rfl | rfl <;> decide
  unfold iblk
  rw [View.read_apply]
  show V m c main_v0 _ = V m c main_v0 _
  congr 1
  funext a
  apply Fin.ext
  match a with
  | ⟨0, _⟩ => show win0_0.index t 0 * 1024 + 1 * (y 0).val = 1024 * t.val + (y 0).val; rw [hi.1]; omega
  | ⟨1, _⟩ => show win0_0.index t 1 * 512 + 1 * (y 1).val = (y 1).val; rw [hi.2]; omega

/-- The same for the second window. -/
theorem iblk1_apply (c : Dev nD) (t : Fin cfg0.N) (y : S1024x512.Idx) :
    (iblk m c 1 t : Vec F S1024x512 .f32) y = (V m c main_v1 : S8192x512.Idx → Elt F .f32) (rowOf t y) := by
  have hi : win0_1.index t 0 = t.val ∧ win0_1.index t 1 = 0 := by
    rcases fin_N0 t with rfl | rfl | rfl | rfl | rfl | rfl | rfl | rfl <;> decide
  unfold iblk
  rw [View.read_apply]
  show V m c main_v1 _ = V m c main_v1 _
  congr 1
  funext a
  apply Fin.ext
  match a with
  | ⟨0, _⟩ => show win0_1.index t 0 * 1024 + 1 * (y 0).val = 1024 * t.val + (y 0).val; rw [hi.1]; omega
  | ⟨1, _⟩ => show win0_1.index t 1 * 512 + 1 * (y 1).val = (y 1).val; rw [hi.2]; omega

end Cert.KernelIdeal.Val

/-! ## At the exact instance: the scratch word is the zero word plus the block totals so far -/

namespace Cert.KernelIdeal.Val

open Cert.KernelIdeal Cert.KernelIdeal.Gen Cert.KernelIdeal.GenP Cert.KernelIdeal.Fr
open Idealize.ShloMosaic.ValueIdx Cert.LibSumRegroup Cert.Bce Cert.KernelIdeal.Bce

variable (m : (ℓ : Loc nD τ sig) → Buf (Elt Ideal) ℓ)

/-- The pixel term at an index of the [8192, 512] staged arrays. -/
abbrev term (c : Dev nD) (k : S8192x512.Idx) : EReal :=
  bce ((V m c main_v0 : S8192x512.Idx → EReal) k) ((V m c main_v1 : S8192x512.Idx → EReal) k)

/-- The total of the pixel terms over the block of point `n`. -/
abbrev blockTotal (c : Dev nD) (n : ℕ) (h : n < cfg0.N) : EReal :=
  ∑ y : S1024x512.Idx, term m c (rowOf ⟨n, h⟩ y)

/-- The zero word plus the block totals of the points up to `n`, added in point order. -/
def acc (c : Dev nD) : (n : ℕ) → n < cfg0.N → EReal
  | 0, h => Ideal.ofBits .f32 0x00000000#32 + blockTotal m c 0 h
  | n + 1, h => acc c n (Nat.lt_of_succ_lt h) + blockTotal m c (n + 1) h

/-- One step at the exact instance, over the staged arrays. -/
theorem step_apply (c : Dev nD) (n : ℕ) (h : n < cfg0.N) (a : Vec Ideal S1x1 .f32) (j : S1x1.Idx) :
    k0_pay2 (F := Ideal) (iblk m c 0 ⟨n, h⟩) (iblk m c 1 ⟨n, h⟩) a j = a j + blockTotal m c n h := by
  rw [k0_pay2_apply]
  refine congrArg (fun s => a j + s) (Finset.sum_congr rfl fun y _ => ?_)
  show bce ((iblk m c 0 ⟨n, h⟩ : Vec Ideal S1024x512 .f32) y) ((iblk m c 1 ⟨n, h⟩ : Vec Ideal S1024x512 .f32) y) = _
  rw [iblk0_apply, iblk1_apply]

/-- The scratch word after point `n` is that running sum. -/
theorem scratch_apply (c : Dev nD) : ∀ (n : ℕ) (h : n < cfg0.N) (j : S1x1.Idx), (outsAt0 m c n h).2 j = acc m c n h
  | 0, h, j => by
    rw [scratch_zero m c h, step_apply, k0_pay1_apply]
    rfl
  | n + 1, h, j => by
    rw [scratch_succ m c n h, step_apply, scratch_apply c n (Nat.lt_of_succ_lt h) j]
    rfl

/-- Eight steps: the zero word plus the total over the whole [8192, 512] arrays. -/
theorem acc_last (c : Dev nD) :
    acc m c 7 (lt_N (by decide)) = Ideal.ofBits .f32 0x00000000#32 + ∑ k : S8192x512.Idx, term m c k := by
  have e := sum_row_blocks 8 1024 512 (fun k : (⟨2, ![8 * 1024, 512]⟩ : Shape).Idx => term m c k)
  have a8 := accum8 (Ideal.ofBits .f32 0x00000000#32) (fun t : Fin 8 => blockTotal m c t.val (lt_N t.isLt))
  simp only [acc]
  refine a8.trans (congrArg (fun s => Ideal.ofBits .f32 0x00000000#32 + s) ?_)
  exact e.symm

/-- The staged arrays are reshapes of the arguments, and a total does not see a reshape: the total is over all pixels
    of the two maps. -/
theorem total_eq (c : Dev nD) :
    ∑ k : S8192x512.Idx, term m c k
      = ∑ i : S16x1x512x512.Idx, bce (m ((c : Thread nD τ).loc main_arg0) i) (m ((c : Thread nD τ).loc main_arg1) i) := by
  have h0 := V_v0 (F := Ideal) m c
  have h1 := V_v1 (F := Ideal) m c
  show ∑ k : S8192x512.Idx, bce ((V m c main_v0 : S8192x512.Idx → EReal) k) ((V m c main_v1 : S8192x512.Idx → EReal) k) = _
  rw [h0, h1]
  exact sum_shapeCast (fun i : S16x1x512x512.Idx => bce (m ((c : Thread nD τ).loc main_arg0) i) (m ((c : Thread nD τ).loc main_arg1) i))
    shapeCasts_S16x1x512x512_S8192x512

/-- THE KERNEL'S LOSS: the scalar the tail starts from, as a function of the two maps. -/
theorem ker_loss (c : Dev nD) :
    Cert.KernelIdeal.Tail.stH_v3 (F := Ideal) ((dats m 0 c).arrAt 2 cfg0.N)
      = fun _ => Ideal.div (Ideal.ofBits .f32 0x00000000#32
          + ∑ i : S16x1x512x512.Idx, bce (m ((c : Thread nD τ).loc main_arg0) i) (m ((c : Thread nD τ).loc main_arg1) i))
          (Ideal.ofBits .f32 0x4A800000#32) := by
  rw [final_o]
  funext i0
  unfold Cert.KernelIdeal.Tail.stH_v3
  show Ideal.div ((outsAt0 m c 7 _).2 _) (Ideal.ofBits .f32 0x4A800000#32) = _
  rw [scratch_apply, acc_last, total_eq]

end Cert.KernelIdeal.Val

end
-- ==== Proof.TailK.lean ====
import proofs.«125002_j27127013441992_1_alg».proof.Proof.TailStages

set_option maxRecDepth 65536

noncomputable section

namespace Cert.KernelIdeal.Tail

open Cert.KernelIdeal Cert.KernelIdeal.Facts₀ Cert.KernelIdeal.Facts Idealize.ShloMosaic Idealize.ShloMosaic.TcCoe Idealize.SL.Sem Idealize.ShloMosaic.StableHlo

variable {F : FTy → Type} [FloatOps F]

/-! The kernel program's host operations after the region, as the windows' lists, and each live value after a
    window as its stage of the values before the window. -/

/-- Window H of the kernel program's tail (3 operations). -/
abbrev winH : List (HloOp τ sig (Elt F)) :=
  [ StableHlo.TRef.reshape (.of main_call0_v0 : StableHlo.TRef sig ⟨S1x1, .f32⟩) (.of main_v2 : StableHlo.TRef sig ⟨S_, .f32⟩) rfl shapeCasts_S1x1_S_,
    StableHlo.nullary main_cst (constant S_ .f32 0x4A800000#32),
    StableHlo.binary main_v2 main_cst main_v3 (Host.divf : (⟨S_, .f32⟩ : BufTy).Contents (Elt F) → (⟨S_, .f32⟩ : BufTy).Contents (Elt F) → (⟨S_, .f32⟩ : BufTy).Contents (Elt F)) ]

/-- Window A of the kernel program's tail (78 operations). -/
abbrev winA : List (HloOp τ sig (Elt F)) :=
  [ StableHlo.unary main_arg5 main_v4 ((extractStridedSlice S16x256x1 ![0, 0, 0] · slices_S16x256x4_S16x256x1_0_0_0) : (⟨S16x256x4, .i32⟩ : BufTy).Contents (Elt F) → (⟨S16x256x1, .i32⟩ : BufTy).Contents (Elt F)),
    StableHlo.reshape main_v4 main_v5 rfl shapeCasts_S16x256x1_S16x256,
    StableHlo.unary main_arg5 main_v6 ((extractStridedSlice S16x256x1 ![0, 0, 1] · slices_S16x256x4_S16x256x1_0_0_1) : (⟨S16x256x4, .i32⟩ : BufTy).Contents (Elt F) → (⟨S16x256x1, .i32⟩ : BufTy).Contents (Elt F)),
    StableHlo.reshape main_v6 main_v7 rfl shapeCasts_S16x256x1_S16x256,
    StableHlo.unary main_arg5 main_v8 ((extractStridedSlice S16x256x1 ![0, 0, 2] · slices_S16x256x4_S16x256x1_0_0_2) : (⟨S16x256x4, .i32⟩ : BufTy).Contents (Elt F) → (⟨S16x256x1, .i32⟩ : BufTy).Contents (Elt F)),
    StableHlo.reshape main_v8 main_v9 rfl shapeCasts_S16x256x1_S16x256,
    StableHlo.unary main_arg5 main_v10 ((extractStridedSlice S16x256x1 ![0, 0, 3] · slices_S16x256x4_S16x256x1_0_0_3) : (⟨S16x256x4, .i32⟩ : BufTy).Contents (Elt F) → (⟨S16x256x1, .i32⟩ : BufTy).Contents (Elt F)),
    StableHlo.reshape main_v10 main_v11 rfl shapeCasts_S16x256x1_S16x256,
    StableHlo.binary main_v5 main_v9 main_v12 (addi : (⟨S16x256, .i32⟩ : BufTy).Contents (Elt F) → (⟨S16x256, .i32⟩ : BufTy).Contents (Elt F) → (⟨S16x256, .i32⟩ : BufTy).Contents (Elt F)),
    StableHlo.nullary main_c (constantI S_ 32 2#32),
    StableHlo.TRef.unary (.of main_c : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16x256, .i32⟩) (broadcastInDim S16x256 ![] bcast_S_S16x256),
    StableHlo.TRef.binary (.of main_v12 : StableHlo.TRef sig ⟨S16x256, .i32⟩) (.of main_call1_v1 : StableHlo.TRef sig ⟨S16x256, .i32⟩) (.of main_call1_v2 : StableHlo.TRef sig ⟨S16x256, .i32⟩) Host.divsi,
    StableHlo.TRef.unary (.of main_v12 : StableHlo.TRef sig ⟨S16x256, .i32⟩) (.of main_call1_v3 : StableHlo.TRef sig ⟨S16x256, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S16x256, .i32⟩) (broadcastInDim S16x256 ![] bcast_S_S16x256),
    StableHlo.TRef.binary (.of main_call1_v3 : StableHlo.TRef sig ⟨S16x256, .i32⟩) (.of main_call1_v5 : StableHlo.TRef sig ⟨S16x256, .i32⟩) (.of main_call1_v6 : StableHlo.TRef sig ⟨S16x256, .i1⟩) (cmpi .ne),
    StableHlo.TRef.unary (.of main_call1_v0 : StableHlo.TRef sig ⟨S_, .i32⟩) (.of main_call1_v7 : StableHlo.TRef sig ⟨S16x256, .i32⟩) (broadcastInDim S16x256 ![] bcast_S_S16x256),
    StableHlo.TRef.binary (.of main_v12 : StableHlo.TRef sig ⟨S16x256, .i32⟩) (.of main_call1_v7 : StableHlo.TRef sig ⟨S16x256, .i32⟩) (.of main_call1_v8 : StableHlo.TRef sig ⟨S16x256, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S16x256, .i32⟩) (broadcastInDim S16x256 ![] bcast_S_S16x256),
    StableHlo.TRef.binary (.of main_call1_v8 : StableHlo.TRef sig ⟨S16x256, .i32⟩) (.of main_call1_v9 : StableHlo.TRef sig ⟨S16x256, .i32⟩) (.of main_call1_v10 : StableHlo.TRef sig ⟨S16x256, .i1⟩) (cmpi .ne),
    StableHlo.TRef.binary (.of main_call1_v6 : StableHlo.TRef sig ⟨S16x256, .i1⟩) (.of main_call1_v10 : StableHlo.TRef sig ⟨S16x256, .i1⟩) (.of main_call1_v11 : StableHlo.TRef sig ⟨S16x256, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S16x256, .i32⟩) (broadcastInDim S16x256 ![] bcast_S_S16x256),
    StableHlo.TRef.binary (.of main_call1_v2 : StableHlo.TRef sig ⟨S16x256, .i32⟩) (.of main_call1_v12 : StableHlo.TRef sig ⟨S16x256, .i32⟩) (.of main_call1_v13 : StableHlo.TRef sig ⟨S16x256, .i32⟩) subi,
    StableHlo.TRef.ternary (.of main_call1_v11 : StableHlo.TRef sig ⟨S16x256, .i1⟩) (.of main_call1_v13 : StableHlo.TRef sig ⟨S16x256, .i32⟩) (.of main_call1_v2 : StableHlo.TRef sig ⟨S16x256, .i32⟩) (.of main_v13 : StableHlo.TRef sig ⟨S16x256, .i32⟩) select,
    StableHlo.binary main_v7 main_v11 main_v14 (addi : (⟨S16x256, .i32⟩ : BufTy).Contents (Elt F) → (⟨S16x256, .i32⟩ : BufTy).Contents (Elt F) → (⟨S16x256, .i32⟩ : BufTy).Contents (Elt F)),
    StableHlo.nullary main_c_0 (constantI S_ 32 2#32),
    StableHlo.TRef.unary (.of main_c_0 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16x256, .i32⟩) (broadcastInDim S16x256 ![] bcast_S_S16x256),
    StableHlo.TRef.binary (.of main_v14 : StableHlo.TRef sig ⟨S16x256, .i32⟩) (.of main_call2_v1 : StableHlo.TRef sig ⟨S16x256, .i32⟩) (.of main_call2_v2 : StableHlo.TRef sig ⟨S16x256, .i32⟩) Host.divsi,
    StableHlo.TRef.unary (.of main_v14 : StableHlo.TRef sig ⟨S16x256, .i32⟩) (.of main_call2_v3 : StableHlo.TRef sig ⟨S16x256, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S16x256, .i32⟩) (broadcastInDim S16x256 ![] bcast_S_S16x256),
    StableHlo.TRef.binary (.of main_call2_v3 : StableHlo.TRef sig ⟨S16x256, .i32⟩) (.of main_call2_v5 : StableHlo.TRef sig ⟨S16x256, .i32⟩) (.of main_call2_v6 : StableHlo.TRef sig ⟨S16x256, .i1⟩) (cmpi .ne),
    StableHlo.TRef.unary (.of main_call2_v0 : StableHlo.TRef sig ⟨S_, .i32⟩) (.of main_call2_v7 : StableHlo.TRef sig ⟨S16x256, .i32⟩) (broadcastInDim S16x256 ![] bcast_S_S16x256),
    StableHlo.TRef.binary (.of main_v14 : StableHlo.TRef sig ⟨S16x256, .i32⟩) (.of main_call2_v7 : StableHlo.TRef sig ⟨S16x256, .i32⟩) (.of main_call2_v8 : StableHlo.TRef sig ⟨S16x256, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S16x256, .i32⟩) (broadcastInDim S16x256 ![] bcast_S_S16x256),
    StableHlo.TRef.binary (.of main_call2_v8 : StableHlo.TRef sig ⟨S16x256, .i32⟩) (.of main_call2_v9 : StableHlo.TRef sig ⟨S16x256, .i32⟩) (.of main_call2_v10 : StableHlo.TRef sig ⟨S16x256, .i1⟩) (cmpi .ne),
    StableHlo.TRef.binary (.of main_call2_v6 : StableHlo.TRef sig ⟨S16x256, .i1⟩) (.of main_call2_v10 : StableHlo.TRef sig ⟨S16x256, .i1⟩) (.of main_call2_v11 : StableHlo.TRef sig ⟨S16x256, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S16x256, .i32⟩) (broadcastInDim S16x256 ![] bcast_S_S16x256),
    StableHlo.TRef.binary (.of main_call2_v2 : StableHlo.TRef sig ⟨S16x256, .i32⟩) (.of main_call2_v12 : StableHlo.TRef sig ⟨S16x256, .i32⟩) (.of main_call2_v13 : StableHlo.TRef sig ⟨S16x256, .i32⟩) subi,
    StableHlo.TRef.ternary (.of main_call2_v11 : StableHlo.TRef sig ⟨S16x256, .i1⟩) (.of main_call2_v13 : StableHlo.TRef sig ⟨S16x256, .i32⟩) (.of main_call2_v2 : StableHlo.TRef sig ⟨S16x256, .i32⟩) (.of main_v15 : StableHlo.TRef sig ⟨S16x256, .i32⟩) select,
    StableHlo.nullary main_c_1 (constantI S_ 32 0#32),
    StableHlo.unary main_c_1 main_v16 (broadcastInDim S16x256 ![] bcast_S_S16x256 : (⟨S_, .i32⟩ : BufTy).Contents (Elt F) → (⟨S16x256, .i32⟩ : BufTy).Contents (Elt F)),
    StableHlo.binary main_v13 main_v16 main_v17 (cmpi .sge : (⟨S16x256, .i32⟩ : BufTy).Contents (Elt F) → (⟨S16x256, .i32⟩ : BufTy).Contents (Elt F) → (⟨S16x256, .i1⟩ : BufTy).Contents (Elt F)),
    StableHlo.binary main_arg6 main_v17 main_v18 (andi : (⟨S16x256, .i1⟩ : BufTy).Contents (Elt F) → (⟨S16x256, .i1⟩ : BufTy).Contents (Elt F) → (⟨S16x256, .i1⟩ : BufTy).Contents (Elt F)),
    StableHlo.nullary main_c_2 (constantI S_ 32 512#32),
    StableHlo.unary main_c_2 main_v19 (broadcastInDim S16x256 ![] bcast_S_S16x256 : (⟨S_, .i32⟩ : BufTy).Contents (Elt F) → (⟨S16x256, .i32⟩ : BufTy).Contents (Elt F)),
    StableHlo.binary main_v13 main_v19 main_v20 (cmpi .slt : (⟨S16x256, .i32⟩ : BufTy).Contents (Elt F) → (⟨S16x256, .i32⟩ : BufTy).Contents (Elt F) → (⟨S16x256, .i1⟩ : BufTy).Contents (Elt F)),
    StableHlo.binary main_v18 main_v20 main_v21 (andi : (⟨S16x256, .i1⟩ : BufTy).Contents (Elt F) → (⟨S16x256, .i1⟩ : BufTy).Contents (Elt F) → (⟨S16x256, .i1⟩ : BufTy).Contents (Elt F)),
    StableHlo.nullary main_c_3 (constantI S_ 32 0#32),
    StableHlo.unary main_c_3 main_v22 (broadcastInDim S16x256 ![] bcast_S_S16x256 : (⟨S_, .i32⟩ : BufTy).Contents (Elt F) → (⟨S16x256, .i32⟩ : BufTy).Contents (Elt F)),
    StableHlo.binary main_v15 main_v22 main_v23 (cmpi .sge : (⟨S16x256, .i32⟩ : BufTy).Contents (Elt F) → (⟨S16x256, .i32⟩ : BufTy).Contents (Elt F) → (⟨S16x256, .i1⟩ : BufTy).Contents (Elt F)),
    StableHlo.binary main_v21 main_v23 main_v24 (andi : (⟨S16x256, .i1⟩ : BufTy).Contents (Elt F) → (⟨S16x256, .i1⟩ : BufTy).Contents (Elt F) → (⟨S16x256, .i1⟩ : BufTy).Contents (Elt F)),
    StableHlo.nullary main_c_4 (constantI S_ 32 512#32),
    StableHlo.unary main_c_4 main_v25 (broadcastInDim S16x256 ![] bcast_S_S16x256 : (⟨S_, .i32⟩ : BufTy).Contents (Elt F) → (⟨S16x256, .i32⟩ : BufTy).Contents (Elt F)),
    StableHlo.binary main_v15 main_v25 main_v26 (cmpi .slt : (⟨S16x256, .i32⟩ : BufTy).Contents (Elt F) → (⟨S16x256, .i32⟩ : BufTy).Contents (Elt F) → (⟨S16x256, .i1⟩ : BufTy).Contents (Elt F)),
    StableHlo.binary main_v24 main_v26 main_v27 (andi : (⟨S16x256, .i1⟩ : BufTy).Contents (Elt F) → (⟨S16x256, .i1⟩ : BufTy).Contents (Elt F) → (⟨S16x256, .i1⟩ : BufTy).Contents (Elt F)),
    StableHlo.nullary main_c_5 (constantI S_ 32 0#32),
    StableHlo.nullary main_c_6 (constantI S_ 32 511#32),
    StableHlo.TRef.unary (.of main_c_5 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16x256, .i32⟩) (broadcastInDim S16x256 ![] bcast_S_S16x256),
    StableHlo.TRef.binary (.of main_call3_v1 : StableHlo.TRef sig ⟨S16x256, .i32⟩) (.of main_v13 : StableHlo.TRef sig ⟨S16x256, .i32⟩) (.of main_call3_v2 : StableHlo.TRef sig ⟨S16x256, .i32⟩) maxsi,
    StableHlo.TRef.unary (.of main_c_6 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S16x256, .i32⟩) (broadcastInDim S16x256 ![] bcast_S_S16x256),
    StableHlo.TRef.binary (.of main_call3_v4 : StableHlo.TRef sig ⟨S16x256, .i32⟩) (.of main_call3_v2 : StableHlo.TRef sig ⟨S16x256, .i32⟩) (.of main_v28 : StableHlo.TRef sig ⟨S16x256, .i32⟩) minsi,
    StableHlo.nullary main_c_7 (constantI S_ 32 0#32),
    StableHlo.nullary main_c_8 (constantI S_ 32 511#32),
    StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16x256, .i32⟩) (broadcastInDim S16x256 ![] bcast_S_S16x256),
    StableHlo.TRef.binary (.of main_call4_v1 : StableHlo.TRef sig ⟨S16x256, .i32⟩) (.of main_v15 : StableHlo.TRef sig ⟨S16x256, .i32⟩) (.of main_call4_v2 : StableHlo.TRef sig ⟨S16x256, .i32⟩) maxsi,
    StableHlo.TRef.unary (.of main_c_8 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S16x256, .i32⟩) (broadcastInDim S16x256 ![] bcast_S_S16x256),
    StableHlo.TRef.binary (.of main_call4_v4 : StableHlo.TRef sig ⟨S16x256, .i32⟩) (.of main_call4_v2 : StableHlo.TRef sig ⟨S16x256, .i32⟩) (.of main_v29 : StableHlo.TRef sig ⟨S16x256, .i32⟩) minsi ]

/-- Window C of the kernel program's tail (93 operations). -/
abbrev winC : List (HloOp τ sig (Elt F)) :=
  [ StableHlo.nullary main_v30 (iotaInDim S16 32 0),
    StableHlo.unary main_v30 main_v31 (broadcastInDim S16x1 ![0] bcast_S16_S16x1_0 : (⟨S16, .i32⟩ : BufTy).Contents (Elt F) → (⟨S16x1, .i32⟩ : BufTy).Contents (Elt F)),
    StableHlo.nullary main_c_9 (constantI S_ 32 0#32),
    StableHlo.unary main_c_9 main_v32 (broadcastInDim S16x1 ![] bcast_S_S16x1 : (⟨S_, .i32⟩ : BufTy).Contents (Elt F) → (⟨S16x1, .i32⟩ : BufTy).Contents (Elt F)),
    StableHlo.binary main_v31 main_v32 main_v33 (cmpi .slt : (⟨S16x1, .i32⟩ : BufTy).Contents (Elt F) → (⟨S16x1, .i32⟩ : BufTy).Contents (Elt F) → (⟨S16x1, .i1⟩ : BufTy).Contents (Elt F)),
    StableHlo.nullary main_c_10 (constantI S_ 32 16#32),
    StableHlo.unary main_c_10 main_v34 (broadcastInDim S16x1 ![] bcast_S_S16x1 : (⟨S_, .i32⟩ : BufTy).Contents (Elt F) → (⟨S16x1, .i32⟩ : BufTy).Contents (Elt F)),
    StableHlo.binary main_v31 main_v34 main_v35 (addi : (⟨S16x1, .i32⟩ : BufTy).Contents (Elt F) → (⟨S16x1, .i32⟩ : BufTy).Contents (Elt F) → (⟨S16x1, .i32⟩ : BufTy).Contents (Elt F)),
    StableHlo.ternary main_v33 main_v35 main_v31 main_v36 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_11 (constantI S_ 32 0#32),
    StableHlo.unary main_c_11 main_v37 (broadcastInDim S16x256 ![] bcast_S_S16x256 : (⟨S_, .i32⟩ : BufTy).Contents (Elt F) → (⟨S16x256, .i32⟩ : BufTy).Contents (Elt F)),
    StableHlo.binary main_v29 main_v37 main_v38 (cmpi .slt : (⟨S16x256, .i32⟩ : BufTy).Contents (Elt F) → (⟨S16x256, .i32⟩ : BufTy).Contents (Elt F) → (⟨S16x256, .i1⟩ : BufTy).Contents (Elt F)),
    StableHlo.nullary main_c_12 (constantI S_ 32 512#32),
    StableHlo.unary main_c_12 main_v39 (broadcastInDim S16x256 ![] bcast_S_S16x256 : (⟨S_, .i32⟩ : BufTy).Contents (Elt F) → (⟨S16x256, .i32⟩ : BufTy).Contents (Elt F)),
    StableHlo.binary main_v29 main_v39 main_v40 (addi : (⟨S16x256, .i32⟩ : BufTy).Contents (Elt F) → (⟨S16x256, .i32⟩ : BufTy).Contents (Elt F) → (⟨S16x256, .i32⟩ : BufTy).Contents (Elt F)),
    StableHlo.ternary main_v38 main_v40 main_v29 main_v41 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_13 (constantI S_ 32 0#32),
    StableHlo.unary main_c_13 main_v42 (broadcastInDim S16x256 ![] bcast_S_S16x256 : (⟨S_, .i32⟩ : BufTy).Contents (Elt F) → (⟨S16x256, .i32⟩ : BufTy).Contents (Elt F)),
    StableHlo.binary main_v28 main_v42 main_v43 (cmpi .slt : (⟨S16x256, .i32⟩ : BufTy).Contents (Elt F) → (⟨S16x256, .i32⟩ : BufTy).Contents (Elt F) → (⟨S16x256, .i1⟩ : BufTy).Contents (Elt F)),
    StableHlo.nullary main_c_14 (constantI S_ 32 512#32),
    StableHlo.unary main_c_14 main_v44 (broadcastInDim S16x256 ![] bcast_S_S16x256 : (⟨S_, .i32⟩ : BufTy).Contents (Elt F) → (⟨S16x256, .i32⟩ : BufTy).Contents (Elt F)),
    StableHlo.binary main_v28 main_v44 main_v45 (addi : (⟨S16x256, .i32⟩ : BufTy).Contents (Elt F) → (⟨S16x256, .i32⟩ : BufTy).Contents (Elt F) → (⟨S16x256, .i32⟩ : BufTy).Contents (Elt F)),
    StableHlo.ternary main_v43 main_v45 main_v28 main_v46 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v36 main_v47 (broadcastInDim S16x256 ![0, 1] bcast_S16x1_S16x256_0_1 : (⟨S16x1, .i32⟩ : BufTy).Contents (Elt F) → (⟨S16x256, .i32⟩ : BufTy).Contents (Elt F)),
    StableHlo.unary main_v47 main_v48 (broadcastInDim S16x256x1 ![0, 1] bcast_S16x256_S16x256x1_0_1 : (⟨S16x256, .i32⟩ : BufTy).Contents (Elt F) → (⟨S16x256x1, .i32⟩ : BufTy).Contents (Elt F)),
    StableHlo.unary main_v41 main_v49 (broadcastInDim S16x256x1 ![0, 1] bcast_S16x256_S16x256x1_0_1 : (⟨S16x256, .i32⟩ : BufTy).Contents (Elt F) → (⟨S16x256x1, .i32⟩ : BufTy).Contents (Elt F)),
    StableHlo.unary main_v46 main_v50 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v48, main_v49, main_v50] main_v51 (fun u => concatenate S16x256x3 2 [⟨S16x256x1, u 0⟩, ⟨S16x256x1, u 1⟩, ⟨S16x256x1, u 2⟩] concatenates_S16x256x1_S16x256x1_S16x256x1_S16x256x3_d2),
    StableHlo.binary main_arg3 main_v51 main_v52 ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)),
    StableHlo.nullary main_c_15 (constantI S_ 32 0#32),
    StableHlo.unary main_c_15 main_v53 (broadcastInDim S16x1 ![] bcast_S_S16x1 : (⟨S_, .i32⟩ : BufTy).Contents (Elt F) → (⟨S16x1, .i32⟩ : BufTy).Contents (Elt F)),
    StableHlo.binary main_v31 main_v53 main_v54 (cmpi .slt : (⟨S16x1, .i32⟩ : BufTy).Contents (Elt F) → (⟨S16x1, .i32⟩ : BufTy).Contents (Elt F) → (⟨S16x1, .i1⟩ : BufTy).Contents (Elt F)),
    StableHlo.nullary main_c_16 (constantI S_ 32 16#32),
    StableHlo.unary main_c_16 main_v55 (broadcastInDim S16x1 ![] bcast_S_S16x1 : (⟨S_, .i32⟩ : BufTy).Contents (Elt F) → (⟨S16x1, .i32⟩ : BufTy).Contents (Elt F)),
    StableHlo.binary main_v31 main_v55 main_v56 (addi : (⟨S16x1, .i32⟩ : BufTy).Contents (Elt F) → (⟨S16x1, .i32⟩ : BufTy).Contents (Elt F) → (⟨S16x1, .i32⟩ : BufTy).Contents (Elt F)),
    StableHlo.ternary main_v54 main_v56 main_v31 main_v57 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_17 (constantI S_ 32 0#32),
    StableHlo.unary main_c_17 main_v58 (broadcastInDim S16x256 ![] bcast_S_S16x256 : (⟨S_, .i32⟩ : BufTy).Contents (Elt F) → (⟨S16x256, .i32⟩ : BufTy).Contents (Elt F)),
    StableHlo.binary main_v29 main_v58 main_v59 (cmpi .slt : (⟨S16x256, .i32⟩ : BufTy).Contents (Elt F) → (⟨S16x256, .i32⟩ : BufTy).Contents (Elt F) → (⟨S16x256, .i1⟩ : BufTy).Contents (Elt F)),
    StableHlo.nullary main_c_18 (constantI S_ 32 512#32),
    StableHlo.unary main_c_18 main_v60 (broadcastInDim S16x256 ![] bcast_S_S16x256 : (⟨S_, .i32⟩ : BufTy).Contents (Elt F) → (⟨S16x256, .i32⟩ : BufTy).Contents (Elt F)),
    StableHlo.binary main_v29 main_v60 main_v61 (addi : (⟨S16x256, .i32⟩ : BufTy).Contents (Elt F) → (⟨S16x256, .i32⟩ : BufTy).Contents (Elt F) → (⟨S16x256, .i32⟩ : BufTy).Contents (Elt F)),
    StableHlo.ternary main_v59 main_v61 main_v29 main_v62 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_19 (constantI S_ 32 0#32),
    StableHlo.unary main_c_19 main_v63 (broadcastInDim S16x256 ![] bcast_S_S16x256 : (⟨S_, .i32⟩ : BufTy).Contents (Elt F) → (⟨S16x256, .i32⟩ : BufTy).Contents (Elt F)),
    StableHlo.binary main_v28 main_v63 main_v64 (cmpi .slt : (⟨S16x256, .i32⟩ : BufTy).Contents (Elt F) → (⟨S16x256, .i32⟩ : BufTy).Contents (Elt F) → (⟨S16x256, .i1⟩ : BufTy).Contents (Elt F)),
    StableHlo.nullary main_c_20 (constantI S_ 32 512#32),
    StableHlo.unary main_c_20 main_v65 (broadcastInDim S16x256 ![] bcast_S_S16x256 : (⟨S_, .i32⟩ : BufTy).Contents (Elt F) → (⟨S16x256, .i32⟩ : BufTy).Contents (Elt F)),
    StableHlo.binary main_v28 main_v65 main_v66 (addi : (⟨S16x256, .i32⟩ : BufTy).Contents (Elt F) → (⟨S16x256, .i32⟩ : BufTy).Contents (Elt F) → (⟨S16x256, .i32⟩ : BufTy).Contents (Elt F)),
    StableHlo.ternary main_v64 main_v66 main_v28 main_v67 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v57 main_v68 (broadcastInDim S16x256 ![0, 1] bcast_S16x1_S16x256_0_1 : (⟨S16x1, .i32⟩ : BufTy).Contents (Elt F) → (⟨S16x256, .i32⟩ : BufTy).Contents (Elt F)),
    StableHlo.nullary main_c_21 (constantI S_ 32 0#32),
    StableHlo.unary main_c_21 main_v69 (broadcastInDim S16x256 ![] bcast_S_S16x256 : (⟨S_, .i32⟩ : BufTy).Contents (Elt F) → (⟨S16x256, .i32⟩ : BufTy).Contents (Elt F)),
    StableHlo.unary main_v69 main_v70 (id : (⟨S16x256, .i32⟩ : BufTy).Contents (Elt F) → (⟨S16x256, .i32⟩ : BufTy).Contents (Elt F)),
    StableHlo.unary main_v68 main_v71 (broadcastInDim S16x256x1 ![0, 1] bcast_S16x256_S16x256x1_0_1 : (⟨S16x256, .i32⟩ : BufTy).Contents (Elt F) → (⟨S16x256x1, .i32⟩ : BufTy).Contents (Elt F)),
    StableHlo.unary main_v70 main_v72 (broadcastInDim S16x256x1 ![0, 1] bcast_S16x256_S16x256x1_0_1 : (⟨S16x256, .i32⟩ : BufTy).Contents (Elt F) → (⟨S16x256x1, .i32⟩ : BufTy).Contents (Elt F)),
    StableHlo.unary main_v62 main_v73 (broadcastInDim S16x256x1 ![0, 1] bcast_S16x256_S16x256x1_0_1 : (⟨S16x256, .i32⟩ : BufTy).Contents (Elt F) → (⟨S16x256x1, .i32⟩ : BufTy).Contents (Elt F)),
    StableHlo.unary main_v67 main_v74 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v71, main_v72, main_v73, main_v74] main_v75 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_arg2 main_v75 main_v76 ((fun x i => Host.gather gather_S16x1x512x512_S16x256x4_S16x256_n_0123_n_n_0123_2_1111 x i) : (⟨S16x1x512x512, .f32⟩ : BufTy).Contents (Elt F) → (⟨S16x256x4, .i32⟩ : BufTy).Contents (Elt F) → (⟨S16x256, .f32⟩ : BufTy).Contents (Elt F)),
    StableHlo.unary main_v5 main_v77 (sitofp .f32 : (⟨S16x256, .i32⟩ : BufTy).Contents (Elt F) → (⟨S16x256, .f32⟩ : BufTy).Contents (Elt F)),
    StableHlo.nullary main_cst_22 (constant S_ .f32 0x44000000#32),
    StableHlo.unary main_cst_22 main_v78 (broadcastInDim S16x256 ![] bcast_S_S16x256 : (⟨S_, .f32⟩ : BufTy).Contents (Elt F) → (⟨S16x256, .f32⟩ : BufTy).Contents (Elt F)),
    StableHlo.binary main_v77 main_v78 main_v79 (Host.divf : (⟨S16x256, .f32⟩ : BufTy).Contents (Elt F) → (⟨S16x256, .f32⟩ : BufTy).Contents (Elt F) → (⟨S16x256, .f32⟩ : BufTy).Contents (Elt F)),
    StableHlo.unary main_v7 main_v80 (sitofp .f32 : (⟨S16x256, .i32⟩ : BufTy).Contents (Elt F) → (⟨S16x256, .f32⟩ : BufTy).Contents (Elt F)),
    StableHlo.nullary main_cst_23 (constant S_ .f32 0x44000000#32),
    StableHlo.unary main_cst_23 main_v81 (broadcastInDim S16x256 ![] bcast_S_S16x256 : (⟨S_, .f32⟩ : BufTy).Contents (Elt F) → (⟨S16x256, .f32⟩ : BufTy).Contents (Elt F)),
    StableHlo.binary main_v80 main_v81 main_v82 (Host.divf : (⟨S16x256, .f32⟩ : BufTy).Contents (Elt F) → (⟨S16x256, .f32⟩ : BufTy).Contents (Elt F) → (⟨S16x256, .f32⟩ : BufTy).Contents (Elt F)),
    StableHlo.unary main_v9 main_v83 (sitofp .f32 : (⟨S16x256, .i32⟩ : BufTy).Contents (Elt F) → (⟨S16x256, .f32⟩ : BufTy).Contents (Elt F)),
    StableHlo.nullary main_cst_24 (constant S_ .f32 0x44000000#32),
    StableHlo.unary main_cst_24 main_v84 (broadcastInDim S16x256 ![] bcast_S_S16x256 : (⟨S_, .f32⟩ : BufTy).Contents (Elt F) → (⟨S16x256, .f32⟩ : BufTy).Contents (Elt F)),
    StableHlo.binary main_v83 main_v84 main_v85 (Host.divf : (⟨S16x256, .f32⟩ : BufTy).Contents (Elt F) → (⟨S16x256, .f32⟩ : BufTy).Contents (Elt F) → (⟨S16x256, .f32⟩ : BufTy).Contents (Elt F)),
    StableHlo.unary main_v11 main_v86 (sitofp .f32 : (⟨S16x256, .i32⟩ : BufTy).Contents (Elt F) → (⟨S16x256, .f32⟩ : BufTy).Contents (Elt F)),
    StableHlo.nullary main_cst_25 (constant S_ .f32 0x44000000#32),
    StableHlo.unary main_cst_25 main_v87 (broadcastInDim S16x256 ![] bcast_S_S16x256 : (⟨S_, .f32⟩ : BufTy).Contents (Elt F) → (⟨S16x256, .f32⟩ : BufTy).Contents (Elt F)),
    StableHlo.binary main_v86 main_v87 main_v88 (Host.divf : (⟨S16x256, .f32⟩ : BufTy).Contents (Elt F) → (⟨S16x256, .f32⟩ : BufTy).Contents (Elt F) → (⟨S16x256, .f32⟩ : BufTy).Contents (Elt F)),
    StableHlo.unary main_v79 main_v89 (broadcastInDim S16x256x1 ![0, 1] bcast_S16x256_S16x256x1_0_1 : (⟨S16x256, .f32⟩ : BufTy).Contents (Elt F) → (⟨S16x256x1, .f32⟩ : BufTy).Contents (Elt F)),
    StableHlo.unary main_v82 main_v90 (broadcastInDim S16x256x1 ![0, 1] bcast_S16x256_S16x256x1_0_1 : (⟨S16x256, .f32⟩ : BufTy).Contents (Elt F) → (⟨S16x256x1, .f32⟩ : BufTy).Contents (Elt F)),
    StableHlo.unary main_v85 main_v91 (broadcastInDim S16x256x1 ![0, 1] bcast_S16x256_S16x256x1_0_1 : (⟨S16x256, .f32⟩ : BufTy).Contents (Elt F) → (⟨S16x256x1, .f32⟩ : BufTy).Contents (Elt F)),
    StableHlo.unary main_v88 main_v92 (broadcastInDim S16x256x1 ![0, 1] bcast_S16x256_S16x256x1_0_1 : (⟨S16x256, .f32⟩ : BufTy).Contents (Elt F) → (⟨S16x256x1, .f32⟩ : BufTy).Contents (Elt F)),
    StableHlo.nary ![main_v89, main_v90, main_v91, main_v92] main_v93 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_v52 main_v93 main_v94 (subf : (⟨S16x256x4, .f32⟩ : BufTy).Contents (Elt F) → (⟨S16x256x4, .f32⟩ : BufTy).Contents (Elt F) → (⟨S16x256x4, .f32⟩ : BufTy).Contents (Elt F)),
    StableHlo.unary main_v94 main_v95 (Host.absf : (⟨S16x256x4, .f32⟩ : BufTy).Contents (Elt F) → (⟨S16x256x4, .f32⟩ : BufTy).Contents (Elt F)),
    StableHlo.nullary main_cst_26 (constant S_ .f32 0x3F800000#32),
    StableHlo.unary main_cst_26 main_v96 (broadcastInDim S16x256x4 ![] bcast_S_S16x256x4 : (⟨S_, .f32⟩ : BufTy).Contents (Elt F) → (⟨S16x256x4, .f32⟩ : BufTy).Contents (Elt F)),
    StableHlo.binary main_v95 main_v96 main_v97 (cmpf .olt : (⟨S16x256x4, .f32⟩ : BufTy).Contents (Elt F) → (⟨S16x256x4, .f32⟩ : BufTy).Contents (Elt F) → (⟨S16x256x4, .i1⟩ : BufTy).Contents (Elt F)),
    StableHlo.nullary main_cst_27 (constant S_ .f32 0x3F000000#32),
    StableHlo.unary main_cst_27 main_v98 (broadcastInDim S16x256x4 ![] bcast_S_S16x256x4 : (⟨S_, .f32⟩ : BufTy).Contents (Elt F) → (⟨S16x256x4, .f32⟩ : BufTy).Contents (Elt F)),
    StableHlo.binary main_v98 main_v95 main_v99 (mulf : (⟨S16x256x4, .f32⟩ : BufTy).Contents (Elt F) → (⟨S16x256x4, .f32⟩ : BufTy).Contents (Elt F) → (⟨S16x256x4, .f32⟩ : BufTy).Contents (Elt F)),
    StableHlo.binary main_v99 main_v95 main_v100 (mulf : (⟨S16x256x4, .f32⟩ : BufTy).Contents (Elt F) → (⟨S16x256x4, .f32⟩ : BufTy).Contents (Elt F) → (⟨S16x256x4, .f32⟩ : BufTy).Contents (Elt F)),
    StableHlo.nullary main_cst_28 (constant S_ .f32 0x3F000000#32),
    StableHlo.unary main_cst_28 main_v101 (broadcastInDim S16x256x4 ![] bcast_S_S16x256x4 : (⟨S_, .f32⟩ : BufTy).Contents (Elt F) → (⟨S16x256x4, .f32⟩ : BufTy).Contents (Elt F)),
    StableHlo.binary main_v95 main_v101 main_v102 (subf : (⟨S16x256x4, .f32⟩ : BufTy).Contents (Elt F) → (⟨S16x256x4, .f32⟩ : BufTy).Contents (Elt F) → (⟨S16x256x4, .f32⟩ : BufTy).Contents (Elt F)) ]

/-- Window D of the kernel program's tail (56 operations). -/
abbrev winD : List (HloOp τ sig (Elt F)) :=
  [ StableHlo.TRef.ternary (.of main_v97 : StableHlo.TRef sig ⟨S16x256x4, .i1⟩) (.of main_v100 : StableHlo.TRef sig ⟨S16x256x4, .f32⟩) (.of main_v102 : StableHlo.TRef sig ⟨S16x256x4, .f32⟩) (.of main_v103 : StableHlo.TRef sig ⟨S16x256x4, .f32⟩) select,
    StableHlo.nullary main_cst_29 (constant S_ .f32 0x00000000#32),
    StableHlo.binary main_v103 main_cst_29 main_v104 ((fun x v => Host.reduceAdd x v reducesTo_S16x256x4_S16x256_d2 h_S_) : (⟨S16x256x4, .f32⟩ : BufTy).Contents (Elt F) → (⟨S_, .f32⟩ : BufTy).Contents (Elt F) → (⟨S16x256, .f32⟩ : BufTy).Contents (Elt F)),
    StableHlo.nullary main_cst_30 (constant S_ .f32 0x40800000#32),
    StableHlo.unary main_cst_30 main_v105 (broadcastInDim S16x256 ![] bcast_S_S16x256 : (⟨S_, .f32⟩ : BufTy).Contents (Elt F) → (⟨S16x256, .f32⟩ : BufTy).Contents (Elt F)),
    StableHlo.binary main_v104 main_v105 main_v106 (Host.divf : (⟨S16x256, .f32⟩ : BufTy).Contents (Elt F) → (⟨S16x256, .f32⟩ : BufTy).Contents (Elt F) → (⟨S16x256, .f32⟩ : BufTy).Contents (Elt F)),
    StableHlo.unary main_v76 main_v107 (Host.log : (⟨S16x256, .f32⟩ : BufTy).Contents (Elt F) → (⟨S16x256, .f32⟩ : BufTy).Contents (Elt F)),
    StableHlo.nullary main_cst_31 (constant S_ .f32 0xC2C80000#32),
    StableHlo.unary main_cst_31 main_v108 (broadcastInDim S16x256 ![] bcast_S_S16x256 : (⟨S_, .f32⟩ : BufTy).Contents (Elt F) → (⟨S16x256, .f32⟩ : BufTy).Contents (Elt F)),
    StableHlo.binary main_v107 main_v108 main_v109 (maximumf : (⟨S16x256, .f32⟩ : BufTy).Contents (Elt F) → (⟨S16x256, .f32⟩ : BufTy).Contents (Elt F) → (⟨S16x256, .f32⟩ : BufTy).Contents (Elt F)),
    StableHlo.unary main_v76 main_v110 (Host.negf : (⟨S16x256, .f32⟩ : BufTy).Contents (Elt F) → (⟨S16x256, .f32⟩ : BufTy).Contents (Elt F)),
    StableHlo.unary main_v110 main_v111 (Host.log1p : (⟨S16x256, .f32⟩ : BufTy).Contents (Elt F) → (⟨S16x256, .f32⟩ : BufTy).Contents (Elt F)),
    StableHlo.nullary main_cst_32 (constant S_ .f32 0xC2C80000#32),
    StableHlo.unary main_cst_32 main_v112 (broadcastInDim S16x256 ![] bcast_S_S16x256 : (⟨S_, .f32⟩ : BufTy).Contents (Elt F) → (⟨S16x256, .f32⟩ : BufTy).Contents (Elt F)),
    StableHlo.binary main_v111 main_v112 main_v113 (maximumf : (⟨S16x256, .f32⟩ : BufTy).Contents (Elt F) → (⟨S16x256, .f32⟩ : BufTy).Contents (Elt F) → (⟨S16x256, .f32⟩ : BufTy).Contents (Elt F)),
    StableHlo.binary main_arg4 main_v109 main_v114 (mulf : (⟨S16x256, .f32⟩ : BufTy).Contents (Elt F) → (⟨S16x256, .f32⟩ : BufTy).Contents (Elt F) → (⟨S16x256, .f32⟩ : BufTy).Contents (Elt F)),
    StableHlo.nullary main_cst_33 (constant S_ .f32 0x3F800000#32),
    StableHlo.unary main_cst_33 main_v115 (broadcastInDim S16x256 ![] bcast_S_S16x256 : (⟨S_, .f32⟩ : BufTy).Contents (Elt F) → (⟨S16x256, .f32⟩ : BufTy).Contents (Elt F)),
    StableHlo.binary main_v115 main_arg4 main_v116 (subf : (⟨S16x256, .f32⟩ : BufTy).Contents (Elt F) → (⟨S16x256, .f32⟩ : BufTy).Contents (Elt F) → (⟨S16x256, .f32⟩ : BufTy).Contents (Elt F)),
    StableHlo.binary main_v116 main_v113 main_v117 (mulf : (⟨S16x256, .f32⟩ : BufTy).Contents (Elt F) → (⟨S16x256, .f32⟩ : BufTy).Contents (Elt F) → (⟨S16x256, .f32⟩ : BufTy).Contents (Elt F)),
    StableHlo.binary main_v114 main_v117 main_v118 (addf : (⟨S16x256, .f32⟩ : BufTy).Contents (Elt F) → (⟨S16x256, .f32⟩ : BufTy).Contents (Elt F) → (⟨S16x256, .f32⟩ : BufTy).Contents (Elt F)),
    StableHlo.unary main_v118 main_v119 (Host.negf : (⟨S16x256, .f32⟩ : BufTy).Contents (Elt F) → (⟨S16x256, .f32⟩ : BufTy).Contents (Elt F)),
    StableHlo.unary main_v27 main_v120 (uitofp .f32 : (⟨S16x256, .i1⟩ : BufTy).Contents (Elt F) → (⟨S16x256, .f32⟩ : BufTy).Contents (Elt F)),
    StableHlo.nullary main_cst_34 (constant S_ .f32 0x00000000#32),
    StableHlo.binary main_v120 main_cst_34 main_v121 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.nullary main_cst_35 (constant S_ .f32 0x3F800000#32),
    StableHlo.binary main_v121 main_cst_35 main_v122 (maximumf : (⟨S_, .f32⟩ : BufTy).Contents (Elt F) → (⟨S_, .f32⟩ : BufTy).Contents (Elt F) → (⟨S_, .f32⟩ : BufTy).Contents (Elt F)),
    StableHlo.nullary main_cst_36 (constant S_ .f32 0x00000000#32),
    StableHlo.binary main_v121 main_cst_36 main_v123 (cmpf .ogt : (⟨S_, .f32⟩ : BufTy).Contents (Elt F) → (⟨S_, .f32⟩ : BufTy).Contents (Elt F) → (⟨S_, .i1⟩ : BufTy).Contents (Elt F)),
    StableHlo.binary main_v106 main_v120 main_v124 (mulf : (⟨S16x256, .f32⟩ : BufTy).Contents (Elt F) → (⟨S16x256, .f32⟩ : BufTy).Contents (Elt F) → (⟨S16x256, .f32⟩ : BufTy).Contents (Elt F)),
    StableHlo.nullary main_cst_37 (constant S_ .f32 0x00000000#32),
    StableHlo.binary main_v124 main_cst_37 main_v125 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v125 main_v122 main_v126 (Host.divf : (⟨S_, .f32⟩ : BufTy).Contents (Elt F) → (⟨S_, .f32⟩ : BufTy).Contents (Elt F) → (⟨S_, .f32⟩ : BufTy).Contents (Elt F)),
    StableHlo.nullary main_cst_38 (constant S_ .f32 0x00000000#32),
    StableHlo.TRef.unary (.of main_cst_38 : StableHlo.TRef sig ⟨S_, .f32⟩) (.of main_call6_v0 : StableHlo.TRef sig ⟨S_, .f32⟩) id,
    StableHlo.TRef.ternary (.of main_v123 : StableHlo.TRef sig ⟨S_, .i1⟩) (.of main_v126 : StableHlo.TRef sig ⟨S_, .f32⟩) (.of main_call6_v0 : StableHlo.TRef sig ⟨S_, .f32⟩) (.of main_v127 : StableHlo.TRef sig ⟨S_, .f32⟩) select,
    StableHlo.binary main_v119 main_v120 main_v128 (mulf : (⟨S16x256, .f32⟩ : BufTy).Contents (Elt F) → (⟨S16x256, .f32⟩ : BufTy).Contents (Elt F) → (⟨S16x256, .f32⟩ : BufTy).Contents (Elt F)),
    StableHlo.nullary main_cst_39 (constant S_ .f32 0x00000000#32),
    StableHlo.binary main_v128 main_cst_39 main_v129 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v129 main_v122 main_v130 (Host.divf : (⟨S_, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.TRef.unary (.of main_cst_40 : StableHlo.TRef sig ⟨S_, .f32⟩) (.of main_call7_v0 : StableHlo.TRef sig ⟨S_, .f32⟩) id,
    StableHlo.TRef.ternary (.of main_v123 : StableHlo.TRef sig ⟨S_, .i1⟩) (.of main_v130 : StableHlo.TRef sig ⟨S_, .f32⟩) (.of main_call7_v0 : StableHlo.TRef sig ⟨S_, .f32⟩) (.of main_v131 : StableHlo.TRef sig ⟨S_, .f32⟩) select,
    StableHlo.nullary main_cst_41 (constant S_ .f32 0x3F800000#32),
    StableHlo.binary main_cst_41 main_v3 main_v132 (mulf : (⟨S_, .f32⟩ : BufTy).Contents (Elt F) → (⟨S_, .f32⟩ : BufTy).Contents (Elt F) → (⟨S_, .f32⟩ : BufTy).Contents (Elt F)),
    StableHlo.nullary main_cst_42 (constant S_ .f32 0x3F800000#32),
    StableHlo.binary main_cst_42 main_v127 main_v133 (mulf : (⟨S_, .f32⟩ : BufTy).Contents (Elt F) → (⟨S_, .f32⟩ : BufTy).Contents (Elt F) → (⟨S_, .f32⟩ : BufTy).Contents (Elt F)),
    StableHlo.binary main_v132 main_v133 main_v134 (addf : (⟨S_, .f32⟩ : BufTy).Contents (Elt F) → (⟨S_, .f32⟩ : BufTy).Contents (Elt F) → (⟨S_, .f32⟩ : BufTy).Contents (Elt F)),
    StableHlo.nullary main_cst_43 (constant S_ .f32 0x3F800000#32),
    StableHlo.binary main_cst_43 main_v131 main_v135 (mulf : (⟨S_, .f32⟩ : BufTy).Contents (Elt F) → (⟨S_, .f32⟩ : BufTy).Contents (Elt F) → (⟨S_, .f32⟩ : BufTy).Contents (Elt F)),
    StableHlo.binary main_v134 main_v135 main_v136 (addf : (⟨S_, .f32⟩ : BufTy).Contents (Elt F) → (⟨S_, .f32⟩ : BufTy).Contents (Elt F) → (⟨S_, .f32⟩ : BufTy).Contents (Elt F)),
    StableHlo.unary main_v136 main_v137 (broadcastInDim S1 ![] bcast_S_S1 : (⟨S_, .f32⟩ : BufTy).Contents (Elt F) → (⟨S1, .f32⟩ : BufTy).Contents (Elt F)),
    StableHlo.unary main_v3 main_v138 (broadcastInDim S1 ![] bcast_S_S1 : (⟨S_, .f32⟩ : BufTy).Contents (Elt F) → (⟨S1, .f32⟩ : BufTy).Contents (Elt F)),
    StableHlo.unary main_v127 main_v139 (broadcastInDim S1 ![] bcast_S_S1 : (⟨S_, .f32⟩ : BufTy).Contents (Elt F) → (⟨S1, .f32⟩ : BufTy).Contents (Elt F)),
    StableHlo.unary main_v131 main_v140 (broadcastInDim S1 ![] bcast_S_S1 : (⟨S_, .f32⟩ : BufTy).Contents (Elt F) → (⟨S1, .f32⟩ : BufTy).Contents (Elt F)),
    StableHlo.nary ![main_v137, main_v138, main_v139, main_v140] main_v141 (fun u => concatenate S4 0 [⟨S1, u 0⟩, ⟨S1, u 1⟩, ⟨S1, u 2⟩, ⟨S1, u 3⟩] concatenates_S1_S1_S1_S1_S4_d0) ]

set_option maxHeartbeats 40000000 in
theorem stH_v3_eq (W : Valuation τ sig (Elt F)) :
    after winH W (main_v3 : DevRef τ sig) = stH_v3 (W (main_call0_v0 : DevRef τ sig)) := by
  after_results_simp <;> rfl

set_option maxHeartbeats 40000000 in
theorem stA_v5_eq (W : Valuation τ sig (Elt F)) :
    after winA W (main_v5 : DevRef τ sig) = stA_v5 (W (main_arg5 : DevRef τ sig)) := by
  after_results_simp <;> rfl

set_option maxHeartbeats 40000000 in
theorem stA_v7_eq (W : Valuation τ sig (Elt F)) :
    after winA W (main_v7 : DevRef τ sig) = stA_v7 (W (main_arg5 : DevRef τ sig)) := by
  after_results_simp <;> rfl

set_option maxHeartbeats 40000000 in
theorem stA_v9_eq (W : Valuation τ sig (Elt F)) :
    after winA W (main_v9 : DevRef τ sig) = stA_v9 (W (main_arg5 : DevRef τ sig)) := by
  after_results_simp <;> rfl

set_option maxHeartbeats 40000000 in
theorem stA_v11_eq (W : Valuation τ sig (Elt F)) :
    after winA W (main_v11 : DevRef τ sig) = stA_v11 (W (main_arg5 : DevRef τ sig)) := by
  after_results_simp <;> rfl

set_option maxHeartbeats 40000000 in
theorem stA_v27_eq (W : Valuation τ sig (Elt F)) :
    after winA W (main_v27 : DevRef τ sig) = stA_v27 (W (main_arg5 : DevRef τ sig)) (W (main_arg6 : DevRef τ sig)) := by
  after_results_simp <;> rfl

set_option maxHeartbeats 40000000 in
theorem stA_v28_eq (W : Valuation τ sig (Elt F)) :
    after winA W (main_v28 : DevRef τ sig) = stA_v28 (W (main_arg5 : DevRef τ sig)) := by
  after_results_simp <;> rfl

set_option maxHeartbeats 40000000 in
theorem stA_v29_eq (W : Valuation τ sig (Elt F)) :
    after winA W (main_v29 : DevRef τ sig) = stA_v29 (W (main_arg5 : DevRef τ sig)) := by
  after_results_simp <;> rfl

set_option maxHeartbeats 40000000 in
theorem stC_v76_eq (W : Valuation τ sig (Elt F)) :
    after winC W (main_v76 : DevRef τ sig) = stC_v76 (W (main_v29 : DevRef τ sig)) (W (main_v28 : DevRef τ sig)) (W (main_arg2 : DevRef τ sig)) := by
  after_results_simp <;> rfl

set_option maxHeartbeats 40000000 in
theorem stC_v97_eq (W : Valuation τ sig (Elt F)) :
    after winC W (main_v97 : DevRef τ sig) = stC_v97 (W (main_v29 : DevRef τ sig)) (W (main_v28 : DevRef τ sig)) (W (main_arg3 : DevRef τ sig)) (W (main_v5 : DevRef τ sig)) (W (main_v7 : DevRef τ sig)) (W (main_v9 : DevRef τ sig)) (W (main_v11 : DevRef τ sig)) := by
  after_results_simp <;> rfl

set_option maxHeartbeats 40000000 in
theorem stC_v100_eq (W : Valuation τ sig (Elt F)) :
    after winC W (main_v100 : DevRef τ sig) = stC_v100 (W (main_v29 : DevRef τ sig)) (W (main_v28 : DevRef τ sig)) (W (main_arg3 : DevRef τ sig)) (W (main_v5 : DevRef τ sig)) (W (main_v7 : DevRef τ sig)) (W (main_v9 : DevRef τ sig)) (W (main_v11 : DevRef τ sig)) := by
  after_results_simp <;> rfl

set_option maxHeartbeats 40000000 in
theorem stC_v102_eq (W : Valuation τ sig (Elt F)) :
    after winC W (main_v102 : DevRef τ sig) = stC_v102 (W (main_v29 : DevRef τ sig)) (W (main_v28 : DevRef τ sig)) (W (main_arg3 : DevRef τ sig)) (W (main_v5 : DevRef τ sig)) (W (main_v7 : DevRef τ sig)) (W (main_v9 : DevRef τ sig)) (W (main_v11 : DevRef τ sig)) := by
  after_results_simp <;> rfl

set_option maxHeartbeats 40000000 in
theorem stD_v141_eq (W : Valuation τ sig (Elt F)) :
    after winD W (main_v141 : DevRef τ sig) = stD_v141 (W (main_v97 : DevRef τ sig)) (W (main_v100 : DevRef τ sig)) (W (main_v102 : DevRef τ sig)) (W (main_v76 : DevRef τ sig)) (W (main_arg4 : DevRef τ sig)) (W (main_v27 : DevRef τ sig)) (W (main_v3 : DevRef τ sig)) := by
  after_results_simp <;> rfl

end Cert.KernelIdeal.Tail

end
-- ==== Proof.TailFn.lean ====
/-
  The host computation that follows the pixelwise loss, as ONE function of the loss and of the five arguments it still
  reads: the box centres from the corner coordinates (floor division by two), the validity mask, the clipped centres,
  the two gathers at the centres, the smooth-L1 term against the normalised corners, the cross-entropy of the gathered
  confidence, their masked means, the weighted total, and the four results stacked. It is the composition of the
  windows' stages; both programs apply it, to the same arguments, so the certificate never opens it.
-/
import proofs.«125002_j27127013441992_1_alg».proof.Proof.TailStages

noncomputable section

namespace Cert.KernelIdeal.Tail

open Cert.KernelIdeal Idealize.ShloMosaic

variable {F : FTy → Type} [FloatOps F]

/-- The tail as one function: `loss` the pixelwise loss (a scalar), `a2` the confidence map, `a3` the box map,
    `a4` the box confidences, `a5` the box corners, `a6` the box mask. -/
noncomputable def tailFn (loss : (⟨S_, .f32⟩ : BufTy).Contents (Elt F))
    (a2 : (⟨S16x1x512x512, .f32⟩ : BufTy).Contents (Elt F)) (a3 : (⟨S16x4x512x512, .f32⟩ : BufTy).Contents (Elt F))
    (a4 : (⟨S16x256, .f32⟩ : BufTy).Contents (Elt F)) (a5 : (⟨S16x256x4, .i32⟩ : BufTy).Contents (Elt F))
    (a6 : (⟨S16x256, .i1⟩ : BufTy).Contents (Elt F)) : (⟨S4, .f32⟩ : BufTy).Contents (Elt F) :=
  stD_v141
    (stC_v97 (stA_v29 a5) (stA_v28 a5) a3 (stA_v5 a5) (stA_v7 a5) (stA_v9 a5) (stA_v11 a5))
    (stC_v100 (stA_v29 a5) (stA_v28 a5) a3 (stA_v5 a5) (stA_v7 a5) (stA_v9 a5) (stA_v11 a5))
    (stC_v102 (stA_v29 a5) (stA_v28 a5) a3 (stA_v5 a5) (stA_v7 a5) (stA_v9 a5) (stA_v11 a5))
    (stC_v76 (stA_v29 a5) (stA_v28 a5) a2)
    a4 (stA_v27 a5 a6) loss

end Cert.KernelIdeal.Tail

end
-- ==== Proof.TailKComp.lean ====
/- The kernel program's host operations after its region compute the tail function of the region's result and the
   arguments: the windows' stages composed, a value a window does not write passing through it unchanged; and the
   program's stretches after the region, in order, are those windows. -/
import proofs.«125002_j27127013441992_1_alg».proof.Proof.TailK
import proofs.«125002_j27127013441992_1_alg».proof.Proof.TailFn
import proofs.«125002_j27127013441992_1_alg».proof.Proof.KILaunch

set_option maxRecDepth 65536

noncomputable section

namespace Cert.KernelIdeal.Tail

open Cert.KernelIdeal Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The references the loss's reshape, the element count and the division writes. -/
abbrev winH_W : List (Ref sig .tc) := [main_v2, main_cst, main_v3]
theorem winH_writes : (winH : List (HloOp τ sig (Elt F))).Forall fun op => op.writes ⊆ (winH_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references window A writes. -/
abbrev winA_W : List (Ref sig .tc) := [main_v4, main_v5, main_v6, main_v7, main_v8, main_v9, main_v10, main_v11, main_v12, main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v13, main_v14, main_c_0, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v15, main_c_1, main_v16, main_v17, main_v18, main_c_2, main_v19, main_v20, main_v21, main_c_3, main_v22, main_v23, main_v24, main_c_4, main_v25, main_v26, main_v27, main_c_5, main_c_6, main_call3_v0, main_call3_v1, main_call3_v2, main_call3_v3, main_call3_v4, main_v28, main_c_7, main_c_8, main_call4_v0, main_call4_v1, main_call4_v2, main_call4_v3, main_call4_v4, main_v29]
theorem winA_writes : (winA : List (HloOp τ sig (Elt F))).Forall fun op => op.writes ⊆ (winA_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references window C writes. -/
abbrev winC_W : List (Ref sig .tc) := [main_v30, main_v31, main_c_9, main_v32, main_v33, main_c_10, main_v34, main_v35, main_v36, main_c_11, main_v37, main_v38, main_c_12, main_v39, main_v40, main_v41, main_c_13, main_v42, main_v43, main_c_14, main_v44, main_v45, main_v46, main_v47, main_v48, main_v49, main_v50, main_v51, main_v52, main_c_15, main_v53, main_v54, main_c_16, main_v55, main_v56, main_v57, main_c_17, main_v58, main_v59, main_c_18, main_v60, main_v61, main_v62, main_c_19, main_v63, main_v64, main_c_20, main_v65, main_v66, main_v67, main_v68, main_c_21, main_v69, main_v70, main_v71, main_v72, main_v73, main_v74, main_v75, main_v76, main_v77, main_cst_22, main_v78, main_v79, main_v80, main_cst_23, main_v81, main_v82, main_v83, main_cst_24, main_v84, main_v85, main_v86, main_cst_25, main_v87, main_v88, main_v89, main_v90, main_v91, main_v92, main_v93, main_v94, main_v95, main_cst_26, main_v96, main_v97, main_cst_27, main_v98, main_v99, main_v100, main_cst_28, main_v101, main_v102]
theorem winC_writes : (winC : List (HloOp τ sig (Elt F))).Forall fun op => op.writes ⊆ (winC_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A reference a window does not write keeps its contents through it. -/
theorem keepH (r : Ref sig .tc) (h : r ∉ winH_W) (W : Valuation τ sig (Elt F)) :
    after winH W (Proc.devRef .tc r) = W (Proc.devRef .tc r) := after_of_writes_sub winH W winH_writes h
theorem keepA (r : Ref sig .tc) (h : r ∉ winA_W) (W : Valuation τ sig (Elt F)) :
    after winA W (Proc.devRef .tc r) = W (Proc.devRef .tc r) := after_of_writes_sub winA W winA_writes h
theorem keepC (r : Ref sig .tc) (h : r ∉ winC_W) (W : Valuation τ sig (Elt F)) :
    after winC W (Proc.devRef .tc r) = W (Proc.devRef .tc r) := after_of_writes_sub winC W winC_writes h

set_option maxHeartbeats 4000000 in
/-- The four windows after the region, from any contents: the result is the tail function of the loss — window H's
    stage of the region's result — and the five arguments the tail reads. Window D's stage at the contents after
    windows H, A and C; its inputs are window C's stages, or pass through window C; theirs are window A's stages, or
    pass through it; the loss is window H's stage and the arguments pass through window H. -/
theorem ker_value (W : Valuation τ sig (Elt F)) :
    after (winH ++ (winA ++ (winC ++ winD))) W (main_v141 : DevRef τ sig)
      = tailFn (stH_v3 (W (main_call0_v0 : DevRef τ sig))) (W (main_arg2 : DevRef τ sig)) (W (main_arg3 : DevRef τ sig))
          (W (main_arg4 : DevRef τ sig)) (W (main_arg5 : DevRef τ sig)) (W (main_arg6 : DevRef τ sig)) := by
  rw [after_append, after_append, after_append, stD_v141_eq, stC_v97_eq, stC_v100_eq, stC_v102_eq, stC_v76_eq,
    keepC main_arg4 (by decide), keepC main_v27 (by decide), keepC main_v3 (by decide),
    stA_v29_eq, stA_v28_eq, stA_v5_eq, stA_v7_eq, stA_v9_eq, stA_v11_eq, stA_v27_eq,
    keepA main_arg2 (by decide), keepA main_arg3 (by decide), keepA main_arg4 (by decide), keepA main_v3 (by decide),
    stH_v3_eq,
    keepH main_arg2 (by decide), keepH main_arg3 (by decide), keepH main_arg4 (by decide), keepH main_arg5 (by decide),
    keepH main_arg6 (by decide)]
  rfl

/-- The program's stretches of host operations after the region, in order, are the four windows: the same 233
    operations, cut differently. -/
theorem tail_split :
    (([GenP.hostOps1, GenP.hostOps1_1, GenP.hostOps1_2, GenP.hostOps1_3, GenP.hostOps1_4, GenP.hostOps1_5, GenP.hostOps1_6, GenP.hostOps1_7, GenP.hostOps1_8, GenP.hostOps1_9, GenP.hostOps1_10, GenP.hostOps1_11, GenP.hostOps1_12, GenP.hostOps1_13, GenP.hostOps1_14, GenP.hostOps1_15] : List (List (HloOp τ sig (Elt F)))).flatten)
      = winH ++ (winA ++ (winC ++ winD)) := rfl

end Cert.KernelIdeal.Tail

end
-- ==== Proof.KIRun.lean ====
/-
  The kernel program's run at the exact instance, read back: every weakly fair execution terminates with the result at
  the tail function of the pixelwise loss — the zero word plus the total of the pixel terms over the two maps, divided
  by the value of the word 0x4A800000 — and of the five remaining arguments, and with every argument unchanged.

  The frame run names the result buffer's contents as the lines after the region applied to the region's exit
  contents: the output array at what the region left in it, every other buffer at what the two reshapes before the
  region left. The lines are the tail's windows; the output array is the scratch word after the last point; no line
  and neither reshape writes an argument.
-/
import proofs.«125002_j27127013441992_1_alg».proof.Proof.KIValue
import proofs.«125002_j27127013441992_1_alg».proof.Proof.TailKComp

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP Cert.KernelIdeal.Fr Cert.KernelIdeal.Tail
open Cert.Bce

variable (m : (ℓ : Loc nD τ sig) → Buf (Elt Ideal) ℓ) (ρ : Dev nD → PrngReg)

/-- The pixelwise loss of a prediction map against a target map: the zero word plus the total of the pixel terms,
    divided by the value of the word 0x4A800000 (the number of pixels). -/
def lossOf (p t : S16x1x512x512.Idx → EReal) : (⟨S_, .f32⟩ : BufTy).Contents (Elt Ideal) :=
  fun _ => Ideal.div (Ideal.ofBits .f32 0x00000000#32 + ∑ i : S16x1x512x512.Idx, bce (p i) (t i)) (Ideal.ofBits .f32 0x4A800000#32)

/-- The result as a function of the seven arguments. -/
def resultOf (c : Dev nD) : Buf (Elt Ideal) ((c.tc : Thread nD τ).loc main_v141) :=
  tailFn (lossOf (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The region's exit contents at an argument are its launch contents. -/
theorem exit_arg (c : Dev nD) (b : Ref sig .tc) (harr : ∀ w, Pipeline.arrRef spec0 w ≠ b) (h0 : b ≠ main_v0) (h1 : b ≠ main_v1) :
    Pipeline.withArrays spec0 c (V0 m c) (fun w => (dats m 0 c).arrAt w cfg0.N) (Proc.devRef .tc b) = m ((c.tc : Thread nD τ).loc b) :=
  (Pipeline.withArrays_of_ne _ c (V0 m c) _ b harr).trans
    ((StableHlo.after_of_forall_not_mem _ _ (pre_not_writes h0 h1)).trans rfl)

/-- What the result buffer holds after the lines that follow the region. -/
theorem value (c : Dev nD) :
    Pipeline.afterTail₀ cfgs (dats m) 0 (V0 m) tailOpss c main_v141 = resultOf m c := by
  unfold Pipeline.afterTail₀
  rw [show ((tailOpss : List (List (HloOp τ sig (Elt Ideal)))).flatten) = winH ++ (winA ++ (winC ++ winD)) from tail_split]
  refine (ker_value _).trans ?_
  have e0 : Pipeline.withArrays spec0 c (V0 m c) (fun w => (dats m 0 c).arrAt w cfg0.N) (main_call0_v0 : DevRef τ sig)
      = (dats m 0 c).arrAt 2 cfg0.N := Pipeline.withArrays_arr spec0 launch0.win.arr_inj c _ _ 2
  have e2 := exit_arg m c main_arg2 (by decide) (by decide) (by decide)
  have e3 := exit_arg m c main_arg3 (by decide) (by decide) (by decide)
  have e4 := exit_arg m c main_arg4 (by decide) (by decide) (by decide)
  have e5 := exit_arg m c main_arg5 (by decide) (by decide) (by decide)
  have e6 := exit_arg m c main_arg6 (by decide) (by decide) (by decide)
  rw [e0, e2, e3, e4, e5, e6, ker_loss]
  rfl

/-- The run, read. -/
theorem run : θ_run defs (onTc (τ := τ) (main (F := Ideal))) ⟨m, fun _ => 0, ρ⟩ fun r => ∀ c : Dev nD,
      r.2.mem ((c.tc : Thread nD τ).loc main_v141) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v141 (Pipeline.mem_restRefs_of main_v141 rfl (by decide))).trans (value m c),
     ((h c).2 main_arg0 (Pipeline.mem_restRefs_of main_arg0 rfl (by decide))).trans (afterTail_kept m (dats m) c main_arg0 (by decide) (by decide) (by decide) (by decide)),
     ((h c).2 main_arg1 (Pipeline.mem_restRefs_of main_arg1 rfl (by decide))).trans (afterTail_kept m (dats m) c main_arg1 (by decide) (by decide) (by decide) (by decide)),
     ((h c).2 main_arg2 (Pipeline.mem_restRefs_of main_arg2 rfl (by decide))).trans (afterTail_kept m (dats m) c main_arg2 (by decide) (by decide) (by decide) (by decide)),
     ((h c).2 main_arg3 (Pipeline.mem_restRefs_of main_arg3 rfl (by decide))).trans (afterTail_kept m (dats m) c main_arg3 (by decide) (by decide) (by decide) (by decide)),
     ((h c).2 main_arg4 (Pipeline.mem_restRefs_of main_arg4 rfl (by decide))).trans (afterTail_kept m (dats m) c main_arg4 (by decide) (by decide) (by decide) (by decide)),
     ((h c).2 main_arg5 (Pipeline.mem_restRefs_of main_arg5 rfl (by decide))).trans (afterTail_kept m (dats m) c main_arg5 (by decide) (by decide) (by decide) (by decide)),
     ((h c).2 main_arg6 (Pipeline.mem_restRefs_of main_arg6 rfl (by decide))).trans (afterTail_kept m (dats m) c main_arg6 (by decide) (by decide) (by decide) (by decide))⟩)
    (run_main m ρ)

end Cert.KernelIdeal.Val

end
-- ==== Proof.RefOps.lean ====
/- The reference program's @main as the list of its 247 host operations, each outlined function's body written out
   at its call over the call's own buffers, cut into the stretches the kernel program's tail is cut into. -/
import proofs.«125002_j27127013441992_1_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first 20 operations: the pixelwise binary cross-entropy of %arg0 against %arg1, its sum over all four axes, and the division by the element count (everything that computes %14). -/
abbrev opsHead : List (HloOp τ sig (Elt F)) :=
  [ StableHlo.unary main_arg0 main_v0 (Host.log : (⟨S16x1x512x512, .f32⟩ : BufTy).Contents (Elt F) → (⟨S16x1x512x512, .f32⟩ : BufTy).Contents (Elt F)),
    StableHlo.nullary main_cst (constant S_ .f32 0xC2C80000#32),
    StableHlo.unary main_cst main_v1 (broadcastInDim S16x1x512x512 ![] bcast_S_S16x1x512x512 : (⟨S_, .f32⟩ : BufTy).Contents (Elt F) → (⟨S16x1x512x512, .f32⟩ : BufTy).Contents (Elt F)),
    StableHlo.binary main_v0 main_v1 main_v2 (maximumf : (⟨S16x1x512x512, .f32⟩ : BufTy).Contents (Elt F) → (⟨S16x1x512x512, .f32⟩ : BufTy).Contents (Elt F) → (⟨S16x1x512x512, .f32⟩ : BufTy).Contents (Elt F)),
    StableHlo.unary main_arg0 main_v3 (Host.negf : (⟨S16x1x512x512, .f32⟩ : BufTy).Contents (Elt F) → (⟨S16x1x512x512, .f32⟩ : BufTy).Contents (Elt F)),
    StableHlo.unary main_v3 main_v4 (Host.log1p : (⟨S16x1x512x512, .f32⟩ : BufTy).Contents (Elt F) → (⟨S16x1x512x512, .f32⟩ : BufTy).Contents (Elt F)),
    StableHlo.nullary main_cst_0 (constant S_ .f32 0xC2C80000#32),
    StableHlo.unary main_cst_0 main_v5 (broadcastInDim S16x1x512x512 ![] bcast_S_S16x1x512x512 : (⟨S_, .f32⟩ : BufTy).Contents (Elt F) → (⟨S16x1x512x512, .f32⟩ : BufTy).Contents (Elt F)),
    StableHlo.binary main_v4 main_v5 main_v6 (maximumf : (⟨S16x1x512x512, .f32⟩ : BufTy).Contents (Elt F) → (⟨S16x1x512x512, .f32⟩ : BufTy).Contents (Elt F) → (⟨S16x1x512x512, .f32⟩ : BufTy).Contents (Elt F)),
    StableHlo.binary main_arg1 main_v2 main_v7 (mulf : (⟨S16x1x512x512, .f32⟩ : BufTy).Contents (Elt F) → (⟨S16x1x512x512, .f32⟩ : BufTy).Contents (Elt F) → (⟨S16x1x512x512, .f32⟩ : BufTy).Contents (Elt F)),
    StableHlo.nullary main_cst_1 (constant S_ .f32 0x3F800000#32),
    StableHlo.unary main_cst_1 main_v8 (broadcastInDim S16x1x512x512 ![] bcast_S_S16x1x512x512 : (⟨S_, .f32⟩ : BufTy).Contents (Elt F) → (⟨S16x1x512x512, .f32⟩ : BufTy).Contents (Elt F)),
    StableHlo.binary main_v8 main_arg1 main_v9 (subf : (⟨S16x1x512x512, .f32⟩ : BufTy).Contents (Elt F) → (⟨S16x1x512x512, .f32⟩ : BufTy).Contents (Elt F) → (⟨S16x1x512x512, .f32⟩ : BufTy).Contents (Elt F)),
    StableHlo.binary main_v9 main_v6 main_v10 (mulf : (⟨S16x1x512x512, .f32⟩ : BufTy).Contents (Elt F) → (⟨S16x1x512x512, .f32⟩ : BufTy).Contents (Elt F) → (⟨S16x1x512x512, .f32⟩ : BufTy).Contents (Elt F)),
    StableHlo.binary main_v7 main_v10 main_v11 (addf : (⟨S16x1x512x512, .f32⟩ : BufTy).Contents (Elt F) → (⟨S16x1x512x512, .f32⟩ : BufTy).Contents (Elt F) → (⟨S16x1x512x512, .f32⟩ : BufTy).Contents (Elt F)),
    StableHlo.unary main_v11 main_v12 (Host.negf : (⟨S16x1x512x512, .f32⟩ : BufTy).Contents (Elt F) → (⟨S16x1x512x512, .f32⟩ : BufTy).Contents (Elt F)),
    StableHlo.nullary main_cst_2 (constant S_ .f32 0x00000000#32),
    StableHlo.binary main_v12 main_cst_2 main_v13 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    StableHlo.nullary main_cst_3 (constant S_ .f32 0x4A800000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)) ]

/-- The four slices and reshapes of %arg5, the sum of columns 0 and 2, and the constant 2. -/
abbrev opsT1 : List (HloOp τ sig (Elt F)) :=
  [ StableHlo.unary main_arg5 main_v15 ((extractStridedSlice S16x256x1 ![0, 0, 0] · slices_S16x256x4_S16x256x1_0_0_0) : (⟨S16x256x4, .i32⟩ : BufTy).Contents (Elt F) → (⟨S16x256x1, .i32⟩ : BufTy).Contents (Elt F)),
    StableHlo.reshape main_v15 main_v16 rfl shapeCasts_S16x256x1_S16x256,
    StableHlo.unary main_arg5 main_v17 ((extractStridedSlice S16x256x1 ![0, 0, 1] · slices_S16x256x4_S16x256x1_0_0_1) : (⟨S16x256x4, .i32⟩ : BufTy).Contents (Elt F) → (⟨S16x256x1, .i32⟩ : BufTy).Contents (Elt F)),
    StableHlo.reshape main_v17 main_v18 rfl shapeCasts_S16x256x1_S16x256,
    StableHlo.unary main_arg5 main_v19 ((extractStridedSlice S16x256x1 ![0, 0, 2] · slices_S16x256x4_S16x256x1_0_0_2) : (⟨S16x256x4, .i32⟩ : BufTy).Contents (Elt F) → (⟨S16x256x1, .i32⟩ : BufTy).Contents (Elt F)),
    StableHlo.reshape main_v19 main_v20 rfl shapeCasts_S16x256x1_S16x256,
    StableHlo.unary main_arg5 main_v21 ((extractStridedSlice S16x256x1 ![0, 0, 3] · slices_S16x256x4_S16x256x1_0_0_3) : (⟨S16x256x4, .i32⟩ : BufTy).Contents (Elt F) → (⟨S16x256x1, .i32⟩ : BufTy).Contents (Elt F)),
    StableHlo.reshape main_v21 main_v22 rfl shapeCasts_S16x256x1_S16x256,
    StableHlo.binary main_v16 main_v20 main_v23 (addi : (⟨S16x256, .i32⟩ : BufTy).Contents (Elt F) → (⟨S16x256, .i32⟩ : BufTy).Contents (Elt F) → (⟨S16x256, .i32⟩ : BufTy).Contents (Elt F)),
    StableHlo.nullary main_c (constantI S_ 32 2#32) ]

/-- The first floor division by 2 (of %23), its callee's 17 operations over the call's own buffers; it writes %24. -/
abbrev opsT2 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S16x256, .i32⟩) (broadcastInDim S16x256 ![] bcast_S_S16x256),
    StableHlo.TRef.binary (.of main_v23 : StableHlo.TRef sig ⟨S16x256, .i32⟩) (.of main_call0_v1 : StableHlo.TRef sig ⟨S16x256, .i32⟩) (.of main_call0_v2 : StableHlo.TRef sig ⟨S16x256, .i32⟩) Host.divsi,
    StableHlo.TRef.unary (.of main_v23 : StableHlo.TRef sig ⟨S16x256, .i32⟩) (.of main_call0_v3 : StableHlo.TRef sig ⟨S16x256, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S16x256, .i32⟩) (broadcastInDim S16x256 ![] bcast_S_S16x256),
    StableHlo.TRef.binary (.of main_call0_v3 : StableHlo.TRef sig ⟨S16x256, .i32⟩) (.of main_call0_v5 : StableHlo.TRef sig ⟨S16x256, .i32⟩) (.of main_call0_v6 : StableHlo.TRef sig ⟨S16x256, .i1⟩) (cmpi .ne),
    StableHlo.TRef.unary (.of main_call0_v0 : StableHlo.TRef sig ⟨S_, .i32⟩) (.of main_call0_v7 : StableHlo.TRef sig ⟨S16x256, .i32⟩) (broadcastInDim S16x256 ![] bcast_S_S16x256),
    StableHlo.TRef.binary (.of main_v23 : StableHlo.TRef sig ⟨S16x256, .i32⟩) (.of main_call0_v7 : StableHlo.TRef sig ⟨S16x256, .i32⟩) (.of main_call0_v8 : StableHlo.TRef sig ⟨S16x256, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S16x256, .i32⟩) (broadcastInDim S16x256 ![] bcast_S_S16x256),
    StableHlo.TRef.binary (.of main_call0_v8 : StableHlo.TRef sig ⟨S16x256, .i32⟩) (.of main_call0_v9 : StableHlo.TRef sig ⟨S16x256, .i32⟩) (.of main_call0_v10 : StableHlo.TRef sig ⟨S16x256, .i1⟩) (cmpi .ne),
    StableHlo.TRef.binary (.of main_call0_v6 : StableHlo.TRef sig ⟨S16x256, .i1⟩) (.of main_call0_v10 : StableHlo.TRef sig ⟨S16x256, .i1⟩) (.of main_call0_v11 : StableHlo.TRef sig ⟨S16x256, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S16x256, .i32⟩) (broadcastInDim S16x256 ![] bcast_S_S16x256),
    StableHlo.TRef.binary (.of main_call0_v2 : StableHlo.TRef sig ⟨S16x256, .i32⟩) (.of main_call0_v12 : StableHlo.TRef sig ⟨S16x256, .i32⟩) (.of main_call0_v13 : StableHlo.TRef sig ⟨S16x256, .i32⟩) subi,
    StableHlo.TRef.ternary (.of main_call0_v11 : StableHlo.TRef sig ⟨S16x256, .i1⟩) (.of main_call0_v13 : StableHlo.TRef sig ⟨S16x256, .i32⟩) (.of main_call0_v2 : StableHlo.TRef sig ⟨S16x256, .i32⟩) (.of main_v24 : StableHlo.TRef sig ⟨S16x256, .i32⟩) select ]

/-- The sum of columns 1 and 3 and the constant 2. -/
abbrev opsT3 : List (HloOp τ sig (Elt F)) :=
  [ StableHlo.binary main_v18 main_v22 main_v25 (addi : (⟨S16x256, .i32⟩ : BufTy).Contents (Elt F) → (⟨S16x256, .i32⟩ : BufTy).Contents (Elt F) → (⟨S16x256, .i32⟩ : BufTy).Contents (Elt F)),
    StableHlo.nullary main_c_4 (constantI S_ 32 2#32) ]

/-- The second floor division by 2 (of %25), 17 operations; it writes %26. -/
abbrev opsT4 : List (HloOp τ sig (Elt F)) :=
  [ StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16x256, .i32⟩) (broadcastInDim S16x256 ![] bcast_S_S16x256),
    StableHlo.TRef.binary (.of main_v25 : StableHlo.TRef sig ⟨S16x256, .i32⟩) (.of main_call1_v1 : StableHlo.TRef sig ⟨S16x256, .i32⟩) (.of main_call1_v2 : StableHlo.TRef sig ⟨S16x256, .i32⟩) Host.divsi,
    StableHlo.TRef.unary (.of main_v25 : StableHlo.TRef sig ⟨S16x256, .i32⟩) (.of main_call1_v3 : StableHlo.TRef sig ⟨S16x256, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S16x256, .i32⟩) (broadcastInDim S16x256 ![] bcast_S_S16x256),
    StableHlo.TRef.binary (.of main_call1_v3 : StableHlo.TRef sig ⟨S16x256, .i32⟩) (.of main_call1_v5 : StableHlo.TRef sig ⟨S16x256, .i32⟩) (.of main_call1_v6 : StableHlo.TRef sig ⟨S16x256, .i1⟩) (cmpi .ne),
    StableHlo.TRef.unary (.of main_call1_v0 : StableHlo.TRef sig ⟨S_, .i32⟩) (.of main_call1_v7 : StableHlo.TRef sig ⟨S16x256, .i32⟩) (broadcastInDim S16x256 ![] bcast_S_S16x256),
    StableHlo.TRef.binary (.of main_v25 : StableHlo.TRef sig ⟨S16x256, .i32⟩) (.of main_call1_v7 : StableHlo.TRef sig ⟨S16x256, .i32⟩) (.of main_call1_v8 : StableHlo.TRef sig ⟨S16x256, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S16x256, .i32⟩) (broadcastInDim S16x256 ![] bcast_S_S16x256),
    StableHlo.TRef.binary (.of main_call1_v8 : StableHlo.TRef sig ⟨S16x256, .i32⟩) (.of main_call1_v9 : StableHlo.TRef sig ⟨S16x256, .i32⟩) (.of main_call1_v10 : StableHlo.TRef sig ⟨S16x256, .i1⟩) (cmpi .ne),
    StableHlo.TRef.binary (.of main_call1_v6 : StableHlo.TRef sig ⟨S16x256, .i1⟩) (.of main_call1_v10 : StableHlo.TRef sig ⟨S16x256, .i1⟩) (.of main_call1_v11 : StableHlo.TRef sig ⟨S16x256, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S16x256, .i32⟩) (broadcastInDim S16x256 ![] bcast_S_S16x256),
    StableHlo.TRef.binary (.of main_call1_v2 : StableHlo.TRef sig ⟨S16x256, .i32⟩) (.of main_call1_v12 : StableHlo.TRef sig ⟨S16x256, .i32⟩) (.of main_call1_v13 : StableHlo.TRef sig ⟨S16x256, .i32⟩) subi,
    StableHlo.TRef.ternary (.of main_call1_v11 : StableHlo.TRef sig ⟨S16x256, .i1⟩) (.of main_call1_v13 : StableHlo.TRef sig ⟨S16x256, .i32⟩) (.of main_call1_v2 : StableHlo.TRef sig ⟨S16x256, .i32⟩) (.of main_v26 : StableHlo.TRef sig ⟨S16x256, .i32⟩) select ]

/-- The validity mask %38: both centres in [0, 512) and %arg6. -/
abbrev opsT5 : List (HloOp τ sig (Elt F)) :=
  [ StableHlo.nullary main_c_5 (constantI S_ 32 0#32),
    StableHlo.unary main_c_5 main_v27 (broadcastInDim S16x256 ![] bcast_S_S16x256 : (⟨S_, .i32⟩ : BufTy).Contents (Elt F) → (⟨S16x256, .i32⟩ : BufTy).Contents (Elt F)),
    StableHlo.binary main_v24 main_v27 main_v28 (cmpi .sge : (⟨S16x256, .i32⟩ : BufTy).Contents (Elt F) → (⟨S16x256, .i32⟩ : BufTy).Contents (Elt F) → (⟨S16x256, .i1⟩ : BufTy).Contents (Elt F)),
    StableHlo.binary main_arg6 main_v28 main_v29 (andi : (⟨S16x256, .i1⟩ : BufTy).Contents (Elt F) → (⟨S16x256, .i1⟩ : BufTy).Contents (Elt F) → (⟨S16x256, .i1⟩ : BufTy).Contents (Elt F)),
    StableHlo.nullary main_c_6 (constantI S_ 32 512#32),
    StableHlo.unary main_c_6 main_v30 (broadcastInDim S16x256 ![] bcast_S_S16x256 : (⟨S_, .i32⟩ : BufTy).Contents (Elt F) → (⟨S16x256, .i32⟩ : BufTy).Contents (Elt F)),
    StableHlo.binary main_v24 main_v30 main_v31 (cmpi .slt : (⟨S16x256, .i32⟩ : BufTy).Contents (Elt F) → (⟨S16x256, .i32⟩ : BufTy).Contents (Elt F) → (⟨S16x256, .i1⟩ : BufTy).Contents (Elt F)),
    StableHlo.binary main_v29 main_v31 main_v32 (andi : (⟨S16x256, .i1⟩ : BufTy).Contents (Elt F) → (⟨S16x256, .i1⟩ : BufTy).Contents (Elt F) → (⟨S16x256, .i1⟩ : BufTy).Contents (Elt F)),
    StableHlo.nullary main_c_7 (constantI S_ 32 0#32),
    StableHlo.unary main_c_7 main_v33 (broadcastInDim S16x256 ![] bcast_S_S16x256 : (⟨S_, .i32⟩ : BufTy).Contents (Elt F) → (⟨S16x256, .i32⟩ : BufTy).Contents (Elt F)),
    StableHlo.binary main_v26 main_v33 main_v34 (cmpi .sge : (⟨S16x256, .i32⟩ : BufTy).Contents (Elt F) → (⟨S16x256, .i32⟩ : BufTy).Contents (Elt F) → (⟨S16x256, .i1⟩ : BufTy).Contents (Elt F)),
    StableHlo.binary main_v32 main_v34 main_v35 (andi : (⟨S16x256, .i1⟩ : BufTy).Contents (Elt F) → (⟨S16x256, .i1⟩ : BufTy).Contents (Elt F) → (⟨S16x256, .i1⟩ : BufTy).Contents (Elt F)),
    StableHlo.nullary main_c_8 (constantI S_ 32 512#32),
    StableHlo.unary main_c_8 main_v36 (broadcastInDim S16x256 ![] bcast_S_S16x256 : (⟨S_, .i32⟩ : BufTy).Contents (Elt F) → (⟨S16x256, .i32⟩ : BufTy).Contents (Elt F)),
    StableHlo.binary main_v26 main_v36 main_v37 (cmpi .slt : (⟨S16x256, .i32⟩ : BufTy).Contents (Elt F) → (⟨S16x256, .i32⟩ : BufTy).Contents (Elt F) → (⟨S16x256, .i1⟩ : BufTy).Contents (Elt F)),
    StableHlo.binary main_v35 main_v37 main_v38 (andi : (⟨S16x256, .i1⟩ : BufTy).Contents (Elt F) → (⟨S16x256, .i1⟩ : BufTy).Contents (Elt F) → (⟨S16x256, .i1⟩ : BufTy).Contents (Elt F)),
    StableHlo.nullary main_c_9 (constantI S_ 32 0#32),
    StableHlo.nullary main_c_10 (constantI S_ 32 511#32) ]

/-- The clip of %24 to [0, 511], 6 operations; it writes %39. -/
abbrev opsT6 : List (HloOp τ sig (Elt F)) :=
  [ StableHlo.TRef.unary (.of main_c_9 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16x256, .i32⟩) (broadcastInDim S16x256 ![] bcast_S_S16x256),
    StableHlo.TRef.binary (.of main_call2_v1 : StableHlo.TRef sig ⟨S16x256, .i32⟩) (.of main_v24 : StableHlo.TRef sig ⟨S16x256, .i32⟩) (.of main_call2_v2 : StableHlo.TRef sig ⟨S16x256, .i32⟩) maxsi,
    StableHlo.TRef.unary (.of main_c_10 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S16x256, .i32⟩) (broadcastInDim S16x256 ![] bcast_S_S16x256),
    StableHlo.TRef.binary (.of main_call2_v4 : StableHlo.TRef sig ⟨S16x256, .i32⟩) (.of main_call2_v2 : StableHlo.TRef sig ⟨S16x256, .i32⟩) (.of main_v39 : StableHlo.TRef sig ⟨S16x256, .i32⟩) minsi ]

/-- The bounds of the second clip. -/
abbrev opsT7 : List (HloOp τ sig (Elt F)) :=
  [ StableHlo.nullary main_c_11 (constantI S_ 32 0#32),
    StableHlo.nullary main_c_12 (constantI S_ 32 511#32) ]

/-- The clip of %26 to [0, 511], 6 operations; it writes %40. -/
abbrev opsT8 : List (HloOp τ sig (Elt F)) :=
  [ StableHlo.TRef.unary (.of main_c_11 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16x256, .i32⟩) (broadcastInDim S16x256 ![] bcast_S_S16x256),
    StableHlo.TRef.binary (.of main_call3_v1 : StableHlo.TRef sig ⟨S16x256, .i32⟩) (.of main_v26 : StableHlo.TRef sig ⟨S16x256, .i32⟩) (.of main_call3_v2 : StableHlo.TRef sig ⟨S16x256, .i32⟩) maxsi,
    StableHlo.TRef.unary (.of main_c_12 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S16x256, .i32⟩) (broadcastInDim S16x256 ![] bcast_S_S16x256),
    StableHlo.TRef.binary (.of main_call3_v4 : StableHlo.TRef sig ⟨S16x256, .i32⟩) (.of main_call3_v2 : StableHlo.TRef sig ⟨S16x256, .i32⟩) (.of main_v40 : StableHlo.TRef sig ⟨S16x256, .i32⟩) minsi ]

/-- The two gathers at the clipped centres, the normalized corners, their difference from the gathered geometry and the two branches of the smooth-L1 term. -/
abbrev opsT9 : List (HloOp τ sig (Elt F)) :=
  [ StableHlo.nullary main_v41 (iotaInDim S16 32 0),
    StableHlo.unary main_v41 main_v42 (broadcastInDim S16x1 ![0] bcast_S16_S16x1_0 : (⟨S16, .i32⟩ : BufTy).Contents (Elt F) → (⟨S16x1, .i32⟩ : BufTy).Contents (Elt F)),
    StableHlo.nullary main_c_13 (constantI S_ 32 0#32),
    StableHlo.unary main_c_13 main_v43 (broadcastInDim S16x1 ![] bcast_S_S16x1 : (⟨S_, .i32⟩ : BufTy).Contents (Elt F) → (⟨S16x1, .i32⟩ : BufTy).Contents (Elt F)),
    StableHlo.binary main_v42 main_v43 main_v44 (cmpi .slt : (⟨S16x1, .i32⟩ : BufTy).Contents (Elt F) → (⟨S16x1, .i32⟩ : BufTy).Contents (Elt F) → (⟨S16x1, .i1⟩ : BufTy).Contents (Elt F)),
    StableHlo.nullary main_c_14 (constantI S_ 32 16#32),
    StableHlo.unary main_c_14 main_v45 (broadcastInDim S16x1 ![] bcast_S_S16x1 : (⟨S_, .i32⟩ : BufTy).Contents (Elt F) → (⟨S16x1, .i32⟩ : BufTy).Contents (Elt F)),
    StableHlo.binary main_v42 main_v45 main_v46 (addi : (⟨S16x1, .i32⟩ : BufTy).Contents (Elt F) → (⟨S16x1, .i32⟩ : BufTy).Contents (Elt F) → (⟨S16x1, .i32⟩ : BufTy).Contents (Elt F)),
    StableHlo.ternary main_v44 main_v46 main_v42 main_v47 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_15 (constantI S_ 32 0#32),
    StableHlo.unary main_c_15 main_v48 (broadcastInDim S16x256 ![] bcast_S_S16x256 : (⟨S_, .i32⟩ : BufTy).Contents (Elt F) → (⟨S16x256, .i32⟩ : BufTy).Contents (Elt F)),
    StableHlo.binary main_v40 main_v48 main_v49 (cmpi .slt : (⟨S16x256, .i32⟩ : BufTy).Contents (Elt F) → (⟨S16x256, .i32⟩ : BufTy).Contents (Elt F) → (⟨S16x256, .i1⟩ : BufTy).Contents (Elt F)),
    StableHlo.nullary main_c_16 (constantI S_ 32 512#32),
    StableHlo.unary main_c_16 main_v50 (broadcastInDim S16x256 ![] bcast_S_S16x256 : (⟨S_, .i32⟩ : BufTy).Contents (Elt F) → (⟨S16x256, .i32⟩ : BufTy).Contents (Elt F)),
    StableHlo.binary main_v40 main_v50 main_v51 (addi : (⟨S16x256, .i32⟩ : BufTy).Contents (Elt F) → (⟨S16x256, .i32⟩ : BufTy).Contents (Elt F) → (⟨S16x256, .i32⟩ : BufTy).Contents (Elt F)),
    StableHlo.ternary main_v49 main_v51 main_v40 main_v52 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_17 (constantI S_ 32 0#32),
    StableHlo.unary main_c_17 main_v53 (broadcastInDim S16x256 ![] bcast_S_S16x256 : (⟨S_, .i32⟩ : BufTy).Contents (Elt F) → (⟨S16x256, .i32⟩ : BufTy).Contents (Elt F)),
    StableHlo.binary main_v39 main_v53 main_v54 (cmpi .slt : (⟨S16x256, .i32⟩ : BufTy).Contents (Elt F) → (⟨S16x256, .i32⟩ : BufTy).Contents (Elt F) → (⟨S16x256, .i1⟩ : BufTy).Contents (Elt F)),
    StableHlo.nullary main_c_18 (constantI S_ 32 512#32),
    StableHlo.unary main_c_18 main_v55 (broadcastInDim S16x256 ![] bcast_S_S16x256 : (⟨S_, .i32⟩ : BufTy).Contents (Elt F) → (⟨S16x256, .i32⟩ : BufTy).Contents (Elt F)),
    StableHlo.binary main_v39 main_v55 main_v56 (addi : (⟨S16x256, .i32⟩ : BufTy).Contents (Elt F) → (⟨S16x256, .i32⟩ : BufTy).Contents (Elt F) → (⟨S16x256, .i32⟩ : BufTy).Contents (Elt F)),
    StableHlo.ternary main_v54 main_v56 main_v39 main_v57 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v47 main_v58 (broadcastInDim S16x256 ![0, 1] bcast_S16x1_S16x256_0_1 : (⟨S16x1, .i32⟩ : BufTy).Contents (Elt F) → (⟨S16x256, .i32⟩ : BufTy).Contents (Elt F)),
    StableHlo.unary main_v58 main_v59 (broadcastInDim S16x256x1 ![0, 1] bcast_S16x256_S16x256x1_0_1 : (⟨S16x256, .i32⟩ : BufTy).Contents (Elt F) → (⟨S16x256x1, .i32⟩ : BufTy).Contents (Elt F)),
    StableHlo.unary main_v52 main_v60 (broadcastInDim S16x256x1 ![0, 1] bcast_S16x256_S16x256x1_0_1 : (⟨S16x256, .i32⟩ : BufTy).Contents (Elt F) → (⟨S16x256x1, .i32⟩ : BufTy).Contents (Elt F)),
    StableHlo.unary main_v57 main_v61 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v59, main_v60, main_v61] main_v62 (fun u => concatenate S16x256x3 2 [⟨S16x256x1, u 0⟩, ⟨S16x256x1, u 1⟩, ⟨S16x256x1, u 2⟩] concatenates_S16x256x1_S16x256x1_S16x256x1_S16x256x3_d2),
    StableHlo.binary main_arg3 main_v62 main_v63 ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)),
    StableHlo.nullary main_c_19 (constantI S_ 32 0#32),
    StableHlo.unary main_c_19 main_v64 (broadcastInDim S16x1 ![] bcast_S_S16x1 : (⟨S_, .i32⟩ : BufTy).Contents (Elt F) → (⟨S16x1, .i32⟩ : BufTy).Contents (Elt F)),
    StableHlo.binary main_v42 main_v64 main_v65 (cmpi .slt : (⟨S16x1, .i32⟩ : BufTy).Contents (Elt F) → (⟨S16x1, .i32⟩ : BufTy).Contents (Elt F) → (⟨S16x1, .i1⟩ : BufTy).Contents (Elt F)),
    StableHlo.nullary main_c_20 (constantI S_ 32 16#32),
    StableHlo.unary main_c_20 main_v66 (broadcastInDim S16x1 ![] bcast_S_S16x1 : (⟨S_, .i32⟩ : BufTy).Contents (Elt F) → (⟨S16x1, .i32⟩ : BufTy).Contents (Elt F)),
    StableHlo.binary main_v42 main_v66 main_v67 (addi : (⟨S16x1, .i32⟩ : BufTy).Contents (Elt F) → (⟨S16x1, .i32⟩ : BufTy).Contents (Elt F) → (⟨S16x1, .i32⟩ : BufTy).Contents (Elt F)),
    StableHlo.ternary main_v65 main_v67 main_v42 main_v68 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_21 (constantI S_ 32 0#32),
    StableHlo.unary main_c_21 main_v69 (broadcastInDim S16x256 ![] bcast_S_S16x256 : (⟨S_, .i32⟩ : BufTy).Contents (Elt F) → (⟨S16x256, .i32⟩ : BufTy).Contents (Elt F)),
    StableHlo.binary main_v40 main_v69 main_v70 (cmpi .slt : (⟨S16x256, .i32⟩ : BufTy).Contents (Elt F) → (⟨S16x256, .i32⟩ : BufTy).Contents (Elt F) → (⟨S16x256, .i1⟩ : BufTy).Contents (Elt F)),
    StableHlo.nullary main_c_22 (constantI S_ 32 512#32),
    StableHlo.unary main_c_22 main_v71 (broadcastInDim S16x256 ![] bcast_S_S16x256 : (⟨S_, .i32⟩ : BufTy).Contents (Elt F) → (⟨S16x256, .i32⟩ : BufTy).Contents (Elt F)),
    StableHlo.binary main_v40 main_v71 main_v72 (addi : (⟨S16x256, .i32⟩ : BufTy).Contents (Elt F) → (⟨S16x256, .i32⟩ : BufTy).Contents (Elt F) → (⟨S16x256, .i32⟩ : BufTy).Contents (Elt F)),
    StableHlo.ternary main_v70 main_v72 main_v40 main_v73 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_23 (constantI S_ 32 0#32),
    StableHlo.unary main_c_23 main_v74 (broadcastInDim S16x256 ![] bcast_S_S16x256 : (⟨S_, .i32⟩ : BufTy).Contents (Elt F) → (⟨S16x256, .i32⟩ : BufTy).Contents (Elt F)),
    StableHlo.binary main_v39 main_v74 main_v75 (cmpi .slt : (⟨S16x256, .i32⟩ : BufTy).Contents (Elt F) → (⟨S16x256, .i32⟩ : BufTy).Contents (Elt F) → (⟨S16x256, .i1⟩ : BufTy).Contents (Elt F)),
    StableHlo.nullary main_c_24 (constantI S_ 32 512#32),
    StableHlo.unary main_c_24 main_v76 (broadcastInDim S16x256 ![] bcast_S_S16x256 : (⟨S_, .i32⟩ : BufTy).Contents (Elt F) → (⟨S16x256, .i32⟩ : BufTy).Contents (Elt F)),
    StableHlo.binary main_v39 main_v76 main_v77 (addi : (⟨S16x256, .i32⟩ : BufTy).Contents (Elt F) → (⟨S16x256, .i32⟩ : BufTy).Contents (Elt F) → (⟨S16x256, .i32⟩ : BufTy).Contents (Elt F)),
    StableHlo.ternary main_v75 main_v77 main_v39 main_v78 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v68 main_v79 (broadcastInDim S16x256 ![0, 1] bcast_S16x1_S16x256_0_1 : (⟨S16x1, .i32⟩ : BufTy).Contents (Elt F) → (⟨S16x256, .i32⟩ : BufTy).Contents (Elt F)),
    StableHlo.nullary main_c_25 (constantI S_ 32 0#32),
    StableHlo.unary main_c_25 main_v80 (broadcastInDim S16x256 ![] bcast_S_S16x256 : (⟨S_, .i32⟩ : BufTy).Contents (Elt F) → (⟨S16x256, .i32⟩ : BufTy).Contents (Elt F)),
    StableHlo.unary main_v80 main_v81 (id : (⟨S16x256, .i32⟩ : BufTy).Contents (Elt F) → (⟨S16x256, .i32⟩ : BufTy).Contents (Elt F)),
    StableHlo.unary main_v79 main_v82 (broadcastInDim S16x256x1 ![0, 1] bcast_S16x256_S16x256x1_0_1 : (⟨S16x256, .i32⟩ : BufTy).Contents (Elt F) → (⟨S16x256x1, .i32⟩ : BufTy).Contents (Elt F)),
    StableHlo.unary main_v81 main_v83 (broadcastInDim S16x256x1 ![0, 1] bcast_S16x256_S16x256x1_0_1 : (⟨S16x256, .i32⟩ : BufTy).Contents (Elt F) → (⟨S16x256x1, .i32⟩ : BufTy).Contents (Elt F)),
    StableHlo.unary main_v73 main_v84 (broadcastInDim S16x256x1 ![0, 1] bcast_S16x256_S16x256x1_0_1 : (⟨S16x256, .i32⟩ : BufTy).Contents (Elt F) → (⟨S16x256x1, .i32⟩ : BufTy).Contents (Elt F)),
    StableHlo.unary main_v78 main_v85 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v82, main_v83, main_v84, main_v85] main_v86 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_arg2 main_v86 main_v87 ((fun x i => Host.gather gather_S16x1x512x512_S16x256x4_S16x256_n_0123_n_n_0123_2_1111 x i) : (⟨S16x1x512x512, .f32⟩ : BufTy).Contents (Elt F) → (⟨S16x256x4, .i32⟩ : BufTy).Contents (Elt F) → (⟨S16x256, .f32⟩ : BufTy).Contents (Elt F)),
    StableHlo.unary main_v16 main_v88 (sitofp .f32 : (⟨S16x256, .i32⟩ : BufTy).Contents (Elt F) → (⟨S16x256, .f32⟩ : BufTy).Contents (Elt F)),
    StableHlo.nullary main_cst_26 (constant S_ .f32 0x44000000#32),
    StableHlo.unary main_cst_26 main_v89 (broadcastInDim S16x256 ![] bcast_S_S16x256 : (⟨S_, .f32⟩ : BufTy).Contents (Elt F) → (⟨S16x256, .f32⟩ : BufTy).Contents (Elt F)),
    StableHlo.binary main_v88 main_v89 main_v90 (Host.divf : (⟨S16x256, .f32⟩ : BufTy).Contents (Elt F) → (⟨S16x256, .f32⟩ : BufTy).Contents (Elt F) → (⟨S16x256, .f32⟩ : BufTy).Contents (Elt F)),
    StableHlo.unary main_v18 main_v91 (sitofp .f32 : (⟨S16x256, .i32⟩ : BufTy).Contents (Elt F) → (⟨S16x256, .f32⟩ : BufTy).Contents (Elt F)),
    StableHlo.nullary main_cst_27 (constant S_ .f32 0x44000000#32),
    StableHlo.unary main_cst_27 main_v92 (broadcastInDim S16x256 ![] bcast_S_S16x256 : (⟨S_, .f32⟩ : BufTy).Contents (Elt F) → (⟨S16x256, .f32⟩ : BufTy).Contents (Elt F)),
    StableHlo.binary main_v91 main_v92 main_v93 (Host.divf : (⟨S16x256, .f32⟩ : BufTy).Contents (Elt F) → (⟨S16x256, .f32⟩ : BufTy).Contents (Elt F) → (⟨S16x256, .f32⟩ : BufTy).Contents (Elt F)),
    StableHlo.unary main_v20 main_v94 (sitofp .f32 : (⟨S16x256, .i32⟩ : BufTy).Contents (Elt F) → (⟨S16x256, .f32⟩ : BufTy).Contents (Elt F)),
    StableHlo.nullary main_cst_28 (constant S_ .f32 0x44000000#32),
    StableHlo.unary main_cst_28 main_v95 (broadcastInDim S16x256 ![] bcast_S_S16x256 : (⟨S_, .f32⟩ : BufTy).Contents (Elt F) → (⟨S16x256, .f32⟩ : BufTy).Contents (Elt F)),
    StableHlo.binary main_v94 main_v95 main_v96 (Host.divf : (⟨S16x256, .f32⟩ : BufTy).Contents (Elt F) → (⟨S16x256, .f32⟩ : BufTy).Contents (Elt F) → (⟨S16x256, .f32⟩ : BufTy).Contents (Elt F)),
    StableHlo.unary main_v22 main_v97 (sitofp .f32 : (⟨S16x256, .i32⟩ : BufTy).Contents (Elt F) → (⟨S16x256, .f32⟩ : BufTy).Contents (Elt F)),
    StableHlo.nullary main_cst_29 (constant S_ .f32 0x44000000#32),
    StableHlo.unary main_cst_29 main_v98 (broadcastInDim S16x256 ![] bcast_S_S16x256 : (⟨S_, .f32⟩ : BufTy).Contents (Elt F) → (⟨S16x256, .f32⟩ : BufTy).Contents (Elt F)),
    StableHlo.binary main_v97 main_v98 main_v99 (Host.divf : (⟨S16x256, .f32⟩ : BufTy).Contents (Elt F) → (⟨S16x256, .f32⟩ : BufTy).Contents (Elt F) → (⟨S16x256, .f32⟩ : BufTy).Contents (Elt F)),
    StableHlo.unary main_v90 main_v100 (broadcastInDim S16x256x1 ![0, 1] bcast_S16x256_S16x256x1_0_1 : (⟨S16x256, .f32⟩ : BufTy).Contents (Elt F) → (⟨S16x256x1, .f32⟩ : BufTy).Contents (Elt F)),
    StableHlo.unary main_v93 main_v101 (broadcastInDim S16x256x1 ![0, 1] bcast_S16x256_S16x256x1_0_1 : (⟨S16x256, .f32⟩ : BufTy).Contents (Elt F) → (⟨S16x256x1, .f32⟩ : BufTy).Contents (Elt F)),
    StableHlo.unary main_v96 main_v102 (broadcastInDim S16x256x1 ![0, 1] bcast_S16x256_S16x256x1_0_1 : (⟨S16x256, .f32⟩ : BufTy).Contents (Elt F) → (⟨S16x256x1, .f32⟩ : BufTy).Contents (Elt F)),
    StableHlo.unary main_v99 main_v103 (broadcastInDim S16x256x1 ![0, 1] bcast_S16x256_S16x256x1_0_1 : (⟨S16x256, .f32⟩ : BufTy).Contents (Elt F) → (⟨S16x256x1, .f32⟩ : BufTy).Contents (Elt F)),
    StableHlo.nary ![main_v100, main_v101, main_v102, main_v103] main_v104 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_v63 main_v104 main_v105 (subf : (⟨S16x256x4, .f32⟩ : BufTy).Contents (Elt F) → (⟨S16x256x4, .f32⟩ : BufTy).Contents (Elt F) → (⟨S16x256x4, .f32⟩ : BufTy).Contents (Elt F)),
    StableHlo.unary main_v105 main_v106 (Host.absf : (⟨S16x256x4, .f32⟩ : BufTy).Contents (Elt F) → (⟨S16x256x4, .f32⟩ : BufTy).Contents (Elt F)),
    StableHlo.nullary main_cst_30 (constant S_ .f32 0x3F800000#32),
    StableHlo.unary main_cst_30 main_v107 (broadcastInDim S16x256x4 ![] bcast_S_S16x256x4 : (⟨S_, .f32⟩ : BufTy).Contents (Elt F) → (⟨S16x256x4, .f32⟩ : BufTy).Contents (Elt F)),
    StableHlo.binary main_v106 main_v107 main_v108 (cmpf .olt : (⟨S16x256x4, .f32⟩ : BufTy).Contents (Elt F) → (⟨S16x256x4, .f32⟩ : BufTy).Contents (Elt F) → (⟨S16x256x4, .i1⟩ : BufTy).Contents (Elt F)),
    StableHlo.nullary main_cst_31 (constant S_ .f32 0x3F000000#32),
    StableHlo.unary main_cst_31 main_v109 (broadcastInDim S16x256x4 ![] bcast_S_S16x256x4 : (⟨S_, .f32⟩ : BufTy).Contents (Elt F) → (⟨S16x256x4, .f32⟩ : BufTy).Contents (Elt F)),
    StableHlo.binary main_v109 main_v106 main_v110 (mulf : (⟨S16x256x4, .f32⟩ : BufTy).Contents (Elt F) → (⟨S16x256x4, .f32⟩ : BufTy).Contents (Elt F) → (⟨S16x256x4, .f32⟩ : BufTy).Contents (Elt F)),
    StableHlo.binary main_v110 main_v106 main_v111 (mulf : (⟨S16x256x4, .f32⟩ : BufTy).Contents (Elt F) → (⟨S16x256x4, .f32⟩ : BufTy).Contents (Elt F) → (⟨S16x256x4, .f32⟩ : BufTy).Contents (Elt F)),
    StableHlo.nullary main_cst_32 (constant S_ .f32 0x3F000000#32),
    StableHlo.unary main_cst_32 main_v112 (broadcastInDim S16x256x4 ![] bcast_S_S16x256x4 : (⟨S_, .f32⟩ : BufTy).Contents (Elt F) → (⟨S16x256x4, .f32⟩ : BufTy).Contents (Elt F)),
    StableHlo.binary main_v106 main_v112 main_v113 (subf : (⟨S16x256x4, .f32⟩ : BufTy).Contents (Elt F) → (⟨S16x256x4, .f32⟩ : BufTy).Contents (Elt F) → (⟨S16x256x4, .f32⟩ : BufTy).Contents (Elt F)) ]

/-- The select between the two smooth-L1 branches; it writes %114. -/
abbrev opsT10 : List (HloOp τ sig (Elt F)) :=
  [ StableHlo.TRef.ternary (.of main_v108 : StableHlo.TRef sig ⟨S16x256x4, .i1⟩) (.of main_v111 : StableHlo.TRef sig ⟨S16x256x4, .f32⟩) (.of main_v113 : StableHlo.TRef sig ⟨S16x256x4, .f32⟩) (.of main_v114 : StableHlo.TRef sig ⟨S16x256x4, .f32⟩) select ]

/-- The per-point mean over the four coordinates, the cross-entropy at the gathered centre, the mask as floats, its count, and the masked sum's operand. -/
abbrev opsT11 : List (HloOp τ sig (Elt F)) :=
  [ StableHlo.nullary main_cst_33 (constant S_ .f32 0x00000000#32),
    StableHlo.binary main_v114 main_cst_33 main_v115 ((fun x v => Host.reduceAdd x v reducesTo_S16x256x4_S16x256_d2 h_S_) : (⟨S16x256x4, .f32⟩ : BufTy).Contents (Elt F) → (⟨S_, .f32⟩ : BufTy).Contents (Elt F) → (⟨S16x256, .f32⟩ : BufTy).Contents (Elt F)),
    StableHlo.nullary main_cst_34 (constant S_ .f32 0x40800000#32),
    StableHlo.unary main_cst_34 main_v116 (broadcastInDim S16x256 ![] bcast_S_S16x256 : (⟨S_, .f32⟩ : BufTy).Contents (Elt F) → (⟨S16x256, .f32⟩ : BufTy).Contents (Elt F)),
    StableHlo.binary main_v115 main_v116 main_v117 (Host.divf : (⟨S16x256, .f32⟩ : BufTy).Contents (Elt F) → (⟨S16x256, .f32⟩ : BufTy).Contents (Elt F) → (⟨S16x256, .f32⟩ : BufTy).Contents (Elt F)),
    StableHlo.unary main_v87 main_v118 (Host.log : (⟨S16x256, .f32⟩ : BufTy).Contents (Elt F) → (⟨S16x256, .f32⟩ : BufTy).Contents (Elt F)),
    StableHlo.nullary main_cst_35 (constant S_ .f32 0xC2C80000#32),
    StableHlo.unary main_cst_35 main_v119 (broadcastInDim S16x256 ![] bcast_S_S16x256 : (⟨S_, .f32⟩ : BufTy).Contents (Elt F) → (⟨S16x256, .f32⟩ : BufTy).Contents (Elt F)),
    StableHlo.binary main_v118 main_v119 main_v120 (maximumf : (⟨S16x256, .f32⟩ : BufTy).Contents (Elt F) → (⟨S16x256, .f32⟩ : BufTy).Contents (Elt F) → (⟨S16x256, .f32⟩ : BufTy).Contents (Elt F)),
    StableHlo.unary main_v87 main_v121 (Host.negf : (⟨S16x256, .f32⟩ : BufTy).Contents (Elt F) → (⟨S16x256, .f32⟩ : BufTy).Contents (Elt F)),
    StableHlo.unary main_v121 main_v122 (Host.log1p : (⟨S16x256, .f32⟩ : BufTy).Contents (Elt F) → (⟨S16x256, .f32⟩ : BufTy).Contents (Elt F)),
    StableHlo.nullary main_cst_36 (constant S_ .f32 0xC2C80000#32),
    StableHlo.unary main_cst_36 main_v123 (broadcastInDim S16x256 ![] bcast_S_S16x256 : (⟨S_, .f32⟩ : BufTy).Contents (Elt F) → (⟨S16x256, .f32⟩ : BufTy).Contents (Elt F)),
    StableHlo.binary main_v122 main_v123 main_v124 (maximumf : (⟨S16x256, .f32⟩ : BufTy).Contents (Elt F) → (⟨S16x256, .f32⟩ : BufTy).Contents (Elt F) → (⟨S16x256, .f32⟩ : BufTy).Contents (Elt F)),
    StableHlo.binary main_arg4 main_v120 main_v125 (mulf : (⟨S16x256, .f32⟩ : BufTy).Contents (Elt F) → (⟨S16x256, .f32⟩ : BufTy).Contents (Elt F) → (⟨S16x256, .f32⟩ : BufTy).Contents (Elt F)),
    StableHlo.nullary main_cst_37 (constant S_ .f32 0x3F800000#32),
    StableHlo.unary main_cst_37 main_v126 (broadcastInDim S16x256 ![] bcast_S_S16x256 : (⟨S_, .f32⟩ : BufTy).Contents (Elt F) → (⟨S16x256, .f32⟩ : BufTy).Contents (Elt F)),
    StableHlo.binary main_v126 main_arg4 main_v127 (subf : (⟨S16x256, .f32⟩ : BufTy).Contents (Elt F) → (⟨S16x256, .f32⟩ : BufTy).Contents (Elt F) → (⟨S16x256, .f32⟩ : BufTy).Contents (Elt F)),
    StableHlo.binary main_v127 main_v124 main_v128 (mulf : (⟨S16x256, .f32⟩ : BufTy).Contents (Elt F) → (⟨S16x256, .f32⟩ : BufTy).Contents (Elt F) → (⟨S16x256, .f32⟩ : BufTy).Contents (Elt F)),
    StableHlo.binary main_v125 main_v128 main_v129 (addf : (⟨S16x256, .f32⟩ : BufTy).Contents (Elt F) → (⟨S16x256, .f32⟩ : BufTy).Contents (Elt F) → (⟨S16x256, .f32⟩ : BufTy).Contents (Elt F)),
    StableHlo.unary main_v129 main_v130 (Host.negf : (⟨S16x256, .f32⟩ : BufTy).Contents (Elt F) → (⟨S16x256, .f32⟩ : BufTy).Contents (Elt F)),
    StableHlo.unary main_v38 main_v131 (uitofp .f32 : (⟨S16x256, .i1⟩ : BufTy).Contents (Elt F) → (⟨S16x256, .f32⟩ : BufTy).Contents (Elt F)),
    StableHlo.nullary main_cst_38 (constant S_ .f32 0x00000000#32),
    StableHlo.binary main_v131 main_cst_38 main_v132 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.nullary main_cst_39 (constant S_ .f32 0x3F800000#32),
    StableHlo.binary main_v132 main_cst_39 main_v133 (maximumf : (⟨S_, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.binary main_v132 main_cst_40 main_v134 (cmpf .ogt : (⟨S_, .f32⟩ : BufTy).Contents (Elt F) → (⟨S_, .f32⟩ : BufTy).Contents (Elt F) → (⟨S_, .i1⟩ : BufTy).Contents (Elt F)),
    StableHlo.binary main_v117 main_v131 main_v135 (mulf : (⟨S16x256, .f32⟩ : BufTy).Contents (Elt F) → (⟨S16x256, .f32⟩ : BufTy).Contents (Elt F) → (⟨S16x256, .f32⟩ : BufTy).Contents (Elt F)),
    StableHlo.nullary main_cst_41 (constant S_ .f32 0x00000000#32),
    StableHlo.binary main_v135 main_cst_41 main_v136 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v136 main_v133 main_v137 (Host.divf : (⟨S_, .f32⟩ : BufTy).Contents (Elt F) → (⟨S_, .f32⟩ : BufTy).Contents (Elt F) → (⟨S_, .f32⟩ : BufTy).Contents (Elt F)),
    StableHlo.nullary main_cst_42 (constant S_ .f32 0x00000000#32) ]

/-- The masked geometry mean, zero when no point is valid: 2 operations; it writes %138. -/
abbrev opsT12 : List (HloOp τ sig (Elt F)) :=
  [ StableHlo.TRef.unary (.of main_cst_42 : StableHlo.TRef sig ⟨S_, .f32⟩) (.of main_call5_v0 : StableHlo.TRef sig ⟨S_, .f32⟩) id,
    StableHlo.TRef.ternary (.of main_v134 : StableHlo.TRef sig ⟨S_, .i1⟩) (.of main_v137 : StableHlo.TRef sig ⟨S_, .f32⟩) (.of main_call5_v0 : StableHlo.TRef sig ⟨S_, .f32⟩) (.of main_v138 : StableHlo.TRef sig ⟨S_, .f32⟩) select ]

/-- The masked classification sum and its division by the count. -/
abbrev opsT13 : List (HloOp τ sig (Elt F)) :=
  [ StableHlo.binary main_v130 main_v131 main_v139 (mulf : (⟨S16x256, .f32⟩ : BufTy).Contents (Elt F) → (⟨S16x256, .f32⟩ : BufTy).Contents (Elt F) → (⟨S16x256, .f32⟩ : BufTy).Contents (Elt F)),
    StableHlo.nullary main_cst_43 (constant S_ .f32 0x00000000#32),
    StableHlo.binary main_v139 main_cst_43 main_v140 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v140 main_v133 main_v141 (Host.divf : (⟨S_, .f32⟩ : BufTy).Contents (Elt F) → (⟨S_, .f32⟩ : BufTy).Contents (Elt F) → (⟨S_, .f32⟩ : BufTy).Contents (Elt F)),
    StableHlo.nullary main_cst_44 (constant S_ .f32 0x00000000#32) ]

/-- The masked classification mean, zero when no point is valid: 2 operations; it writes %142. -/
abbrev opsT14 : List (HloOp τ sig (Elt F)) :=
  [ StableHlo.TRef.unary (.of main_cst_44 : StableHlo.TRef sig ⟨S_, .f32⟩) (.of main_call6_v0 : StableHlo.TRef sig ⟨S_, .f32⟩) id,
    StableHlo.TRef.ternary (.of main_v134 : StableHlo.TRef sig ⟨S_, .i1⟩) (.of main_v141 : StableHlo.TRef sig ⟨S_, .f32⟩) (.of main_call6_v0 : StableHlo.TRef sig ⟨S_, .f32⟩) (.of main_v142 : StableHlo.TRef sig ⟨S_, .f32⟩) select ]

/-- The weighted total and the concatenation of the four scalars into %152. -/
abbrev opsT15 : List (HloOp τ sig (Elt F)) :=
  [ StableHlo.nullary main_cst_45 (constant S_ .f32 0x3F800000#32),
    StableHlo.binary main_cst_45 main_v14 main_v143 (mulf : (⟨S_, .f32⟩ : BufTy).Contents (Elt F) → (⟨S_, .f32⟩ : BufTy).Contents (Elt F) → (⟨S_, .f32⟩ : BufTy).Contents (Elt F)),
    StableHlo.nullary main_cst_46 (constant S_ .f32 0x3F800000#32),
    StableHlo.binary main_cst_46 main_v138 main_v144 (mulf : (⟨S_, .f32⟩ : BufTy).Contents (Elt F) → (⟨S_, .f32⟩ : BufTy).Contents (Elt F) → (⟨S_, .f32⟩ : BufTy).Contents (Elt F)),
    StableHlo.binary main_v143 main_v144 main_v145 (addf : (⟨S_, .f32⟩ : BufTy).Contents (Elt F) → (⟨S_, .f32⟩ : BufTy).Contents (Elt F) → (⟨S_, .f32⟩ : BufTy).Contents (Elt F)),
    StableHlo.nullary main_cst_47 (constant S_ .f32 0x3F800000#32),
    StableHlo.binary main_cst_47 main_v142 main_v146 (mulf : (⟨S_, .f32⟩ : BufTy).Contents (Elt F) → (⟨S_, .f32⟩ : BufTy).Contents (Elt F) → (⟨S_, .f32⟩ : BufTy).Contents (Elt F)),
    StableHlo.binary main_v145 main_v146 main_v147 (addf : (⟨S_, .f32⟩ : BufTy).Contents (Elt F) → (⟨S_, .f32⟩ : BufTy).Contents (Elt F) → (⟨S_, .f32⟩ : BufTy).Contents (Elt F)),
    StableHlo.unary main_v147 main_v148 (broadcastInDim S1 ![] bcast_S_S1 : (⟨S_, .f32⟩ : BufTy).Contents (Elt F) → (⟨S1, .f32⟩ : BufTy).Contents (Elt F)),
    StableHlo.unary main_v14 main_v149 (broadcastInDim S1 ![] bcast_S_S1 : (⟨S_, .f32⟩ : BufTy).Contents (Elt F) → (⟨S1, .f32⟩ : BufTy).Contents (Elt F)),
    StableHlo.unary main_v138 main_v150 (broadcastInDim S1 ![] bcast_S_S1 : (⟨S_, .f32⟩ : BufTy).Contents (Elt F) → (⟨S1, .f32⟩ : BufTy).Contents (Elt F)),
    StableHlo.unary main_v142 main_v151 (broadcastInDim S1 ![] bcast_S_S1 : (⟨S_, .f32⟩ : BufTy).Contents (Elt F) → (⟨S1, .f32⟩ : BufTy).Contents (Elt F)),
    StableHlo.nary ![main_v148, main_v149, main_v150, main_v151] main_v152 (fun u => concatenate S4 0 [⟨S1, u 0⟩, ⟨S1, u 1⟩, ⟨S1, u 2⟩, ⟨S1, u 3⟩] concatenates_S1_S1_S1_S1_S4_d0) ]

/-- The rest of @main after %14, stretch by stretch. -/
abbrev opsTail : List (List (HloOp τ sig (Elt F))) :=
  [opsT1, opsT2, opsT3, opsT4, opsT5, opsT6, opsT7, opsT8, opsT9, opsT10, opsT11, opsT12, opsT13, opsT14, opsT15]

/-- @main's 247 operations, in order. -/
abbrev ops : List (HloOp τ sig (Elt F)) := opsHead ++ opsTail.flatten

end Cert.ReferenceIdeal.RefRun

end
-- ==== Proof.TailR.lean ====
import proofs.«125002_j27127013441992_1_alg».proof.Proof.TailStages
import proofs.«125002_j27127013441992_1_alg».proof.Proof.RefOps

set_option maxRecDepth 65536

noncomputable section

namespace Cert.ReferenceIdeal.Tail

open Cert.ReferenceIdeal Cert.ReferenceIdeal.Facts₀ Cert.ReferenceIdeal.Facts Cert.ReferenceIdeal.RefRun Idealize.ShloMosaic Idealize.ShloMosaic.TcCoe Idealize.SL.Sem Idealize.ShloMosaic.StableHlo
open Cert.KernelIdeal.Tail (stA_v5 stA_v7 stA_v9 stA_v11 stA_v27 stA_v28 stA_v29 stC_v76 stC_v97 stC_v100 stC_v102 stD_v141)

variable {F : FTy → Type} [FloatOps F]

/-! The reference's host operations after its pixelwise loss, in the same windows, and each live value after a
    window as the SAME stage of the values before the window. -/

/-- Window A of the reference's tail (78 operations). -/
abbrev winA : List (HloOp τ sig (Elt F)) := opsT1 ++ opsT2 ++ opsT3 ++ opsT4 ++ opsT5 ++ opsT6 ++ opsT7 ++ opsT8

/-- Window C of the reference's tail (93 operations). -/
abbrev winC : List (HloOp τ sig (Elt F)) := opsT9

/-- Window D of the reference's tail (56 operations). -/
abbrev winD : List (HloOp τ sig (Elt F)) := opsT10 ++ opsT11 ++ opsT12 ++ opsT13 ++ opsT14 ++ opsT15

set_option maxHeartbeats 40000000 in
theorem stA_v5_eq (V : Valuation τ sig (Elt F)) :
    after winA V (main_v16 : DevRef τ sig) = stA_v5 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stA_v7_eq (V : Valuation τ sig (Elt F)) :
    after winA V (main_v18 : DevRef τ sig) = stA_v7 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stA_v9_eq (V : Valuation τ sig (Elt F)) :
    after winA V (main_v20 : DevRef τ sig) = stA_v9 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stA_v11_eq (V : Valuation τ sig (Elt F)) :
    after winA V (main_v22 : DevRef τ sig) = stA_v11 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stA_v27_eq (V : Valuation τ sig (Elt F)) :
    after winA V (main_v38 : DevRef τ sig) = stA_v27 (V (main_arg5 : DevRef τ sig)) (V (main_arg6 : DevRef τ sig)) := by
  simp only [winA, opsT1, opsT2, opsT3, opsT4, opsT5, opsT6, opsT7, opsT8, List.cons_append, List.nil_append, List.append_nil]
  after_results_simp <;> rfl

set_option maxHeartbeats 40000000 in
theorem stA_v28_eq (V : Valuation τ sig (Elt F)) :
    after winA V (main_v39 : DevRef τ sig) = stA_v28 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stA_v29_eq (V : Valuation τ sig (Elt F)) :
    after winA V (main_v40 : DevRef τ sig) = stA_v29 (V (main_arg5 : DevRef τ sig)) := by
  simp only [winA, opsT1, opsT2, opsT3, opsT4, opsT5, opsT6, opsT7, opsT8, List.cons_append, List.nil_append, List.append_nil]
  after_results_simp <;> rfl

set_option maxHeartbeats 40000000 in
theorem stC_v76_eq (V : Valuation τ sig (Elt F)) :
    after winC V (main_v87 : DevRef τ sig) = stC_v76 (V (main_v40 : DevRef τ sig)) (V (main_v39 : DevRef τ sig)) (V (main_arg2 : DevRef τ sig)) := by
  simp only [winC, opsT9, List.cons_append, List.nil_append, List.append_nil]
  after_results_simp <;> rfl

set_option maxHeartbeats 40000000 in
theorem stC_v97_eq (V : Valuation τ sig (Elt F)) :
    after winC V (main_v108 : DevRef τ sig) = stC_v97 (V (main_v40 : DevRef τ sig)) (V (main_v39 : DevRef τ sig)) (V (main_arg3 : DevRef τ sig)) (V (main_v16 : DevRef τ sig)) (V (main_v18 : DevRef τ sig)) (V (main_v20 : DevRef τ sig)) (V (main_v22 : DevRef τ sig)) := by
  simp only [winC, opsT9, List.cons_append, List.nil_append, List.append_nil]
  after_results_simp <;> rfl

set_option maxHeartbeats 40000000 in
theorem stC_v100_eq (V : Valuation τ sig (Elt F)) :
    after winC V (main_v111 : DevRef τ sig) = stC_v100 (V (main_v40 : DevRef τ sig)) (V (main_v39 : DevRef τ sig)) (V (main_arg3 : DevRef τ sig)) (V (main_v16 : DevRef τ sig)) (V (main_v18 : DevRef τ sig)) (V (main_v20 : DevRef τ sig)) (V (main_v22 : DevRef τ sig)) := by
  simp only [winC, opsT9, List.cons_append, List.nil_append, List.append_nil]
  after_results_simp <;> rfl

set_option maxHeartbeats 40000000 in
theorem stC_v102_eq (V : Valuation τ sig (Elt F)) :
    after winC V (main_v113 : DevRef τ sig) = stC_v102 (V (main_v40 : DevRef τ sig)) (V (main_v39 : DevRef τ sig)) (V (main_arg3 : DevRef τ sig)) (V (main_v16 : DevRef τ sig)) (V (main_v18 : DevRef τ sig)) (V (main_v20 : DevRef τ sig)) (V (main_v22 : DevRef τ sig)) := by
  simp only [winC, opsT9, List.cons_append, List.nil_append, List.append_nil]
  after_results_simp <;> rfl

set_option maxHeartbeats 40000000 in
theorem stD_v141_eq (V : Valuation τ sig (Elt F)) :
    after winD V (main_v152 : DevRef τ sig) = stD_v141 (V (main_v108 : DevRef τ sig)) (V (main_v111 : DevRef τ sig)) (V (main_v113 : DevRef τ sig)) (V (main_v87 : DevRef τ sig)) (V (main_arg4 : DevRef τ sig)) (V (main_v38 : DevRef τ sig)) (V (main_v14 : DevRef τ sig)) := by
  simp only [winD, opsT10, opsT11, opsT12, opsT13, opsT14, opsT15, List.cons_append, List.nil_append, List.append_nil]
  after_results_simp <;> rfl

end Cert.ReferenceIdeal.Tail

end
-- ==== Proof.RefMain.lean ====
/- @main is the straight line of its operations: each printed window of statements unfolds to the line of its own
   operations (the calls unfolded at their sites), and the four lines in order are the whole list. -/
import proofs.«125002_j27127013441992_1_alg».proof.Proof.RefOps
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements window 0 of @main (102), calls unfolded. -/
abbrev win0 : List (HloOp τ sig (Elt F)) :=
  [ StableHlo.unary main_arg0 main_v0 (Host.log : (⟨S16x1x512x512, .f32⟩ : BufTy).Contents (Elt F) → (⟨S16x1x512x512, .f32⟩ : BufTy).Contents (Elt F)),
    StableHlo.nullary main_cst (constant S_ .f32 0xC2C80000#32),
    StableHlo.unary main_cst main_v1 (broadcastInDim S16x1x512x512 ![] bcast_S_S16x1x512x512 : (⟨S_, .f32⟩ : BufTy).Contents (Elt F) → (⟨S16x1x512x512, .f32⟩ : BufTy).Contents (Elt F)),
    StableHlo.binary main_v0 main_v1 main_v2 (maximumf : (⟨S16x1x512x512, .f32⟩ : BufTy).Contents (Elt F) → (⟨S16x1x512x512, .f32⟩ : BufTy).Contents (Elt F) → (⟨S16x1x512x512, .f32⟩ : BufTy).Contents (Elt F)),
    StableHlo.unary main_arg0 main_v3 (Host.negf : (⟨S16x1x512x512, .f32⟩ : BufTy).Contents (Elt F) → (⟨S16x1x512x512, .f32⟩ : BufTy).Contents (Elt F)),
    StableHlo.unary main_v3 main_v4 (Host.log1p : (⟨S16x1x512x512, .f32⟩ : BufTy).Contents (Elt F) → (⟨S16x1x512x512, .f32⟩ : BufTy).Contents (Elt F)),
    StableHlo.nullary main_cst_0 (constant S_ .f32 0xC2C80000#32),
    StableHlo.unary main_cst_0 main_v5 (broadcastInDim S16x1x512x512 ![] bcast_S_S16x1x512x512 : (⟨S_, .f32⟩ : BufTy).Contents (Elt F) → (⟨S16x1x512x512, .f32⟩ : BufTy).Contents (Elt F)),
    StableHlo.binary main_v4 main_v5 main_v6 (maximumf : (⟨S16x1x512x512, .f32⟩ : BufTy).Contents (Elt F) → (⟨S16x1x512x512, .f32⟩ : BufTy).Contents (Elt F) → (⟨S16x1x512x512, .f32⟩ : BufTy).Contents (Elt F)),
    StableHlo.binary main_arg1 main_v2 main_v7 (mulf : (⟨S16x1x512x512, .f32⟩ : BufTy).Contents (Elt F) → (⟨S16x1x512x512, .f32⟩ : BufTy).Contents (Elt F) → (⟨S16x1x512x512, .f32⟩ : BufTy).Contents (Elt F)),
    StableHlo.nullary main_cst_1 (constant S_ .f32 0x3F800000#32),
    StableHlo.unary main_cst_1 main_v8 (broadcastInDim S16x1x512x512 ![] bcast_S_S16x1x512x512 : (⟨S_, .f32⟩ : BufTy).Contents (Elt F) → (⟨S16x1x512x512, .f32⟩ : BufTy).Contents (Elt F)),
    StableHlo.binary main_v8 main_arg1 main_v9 (subf : (⟨S16x1x512x512, .f32⟩ : BufTy).Contents (Elt F) → (⟨S16x1x512x512, .f32⟩ : BufTy).Contents (Elt F) → (⟨S16x1x512x512, .f32⟩ : BufTy).Contents (Elt F)),
    StableHlo.binary main_v9 main_v6 main_v10 (mulf : (⟨S16x1x512x512, .f32⟩ : BufTy).Contents (Elt F) → (⟨S16x1x512x512, .f32⟩ : BufTy).Contents (Elt F) → (⟨S16x1x512x512, .f32⟩ : BufTy).Contents (Elt F)),
    StableHlo.binary main_v7 main_v10 main_v11 (addf : (⟨S16x1x512x512, .f32⟩ : BufTy).Contents (Elt F) → (⟨S16x1x512x512, .f32⟩ : BufTy).Contents (Elt F) → (⟨S16x1x512x512, .f32⟩ : BufTy).Contents (Elt F)),
    StableHlo.unary main_v11 main_v12 (Host.negf : (⟨S16x1x512x512, .f32⟩ : BufTy).Contents (Elt F) → (⟨S16x1x512x512, .f32⟩ : BufTy).Contents (Elt F)),
    StableHlo.nullary main_cst_2 (constant S_ .f32 0x00000000#32),
    StableHlo.binary main_v12 main_cst_2 main_v13 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    StableHlo.nullary main_cst_3 (constant S_ .f32 0x4A800000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)),
    StableHlo.unary main_arg5 main_v15 ((extractStridedSlice S16x256x1 ![0, 0, 0] · slices_S16x256x4_S16x256x1_0_0_0) : (⟨S16x256x4, .i32⟩ : BufTy).Contents (Elt F) → (⟨S16x256x1, .i32⟩ : BufTy).Contents (Elt F)),
    StableHlo.reshape main_v15 main_v16 rfl shapeCasts_S16x256x1_S16x256,
    StableHlo.unary main_arg5 main_v17 ((extractStridedSlice S16x256x1 ![0, 0, 1] · slices_S16x256x4_S16x256x1_0_0_1) : (⟨S16x256x4, .i32⟩ : BufTy).Contents (Elt F) → (⟨S16x256x1, .i32⟩ : BufTy).Contents (Elt F)),
    StableHlo.reshape main_v17 main_v18 rfl shapeCasts_S16x256x1_S16x256,
    StableHlo.unary main_arg5 main_v19 ((extractStridedSlice S16x256x1 ![0, 0, 2] · slices_S16x256x4_S16x256x1_0_0_2) : (⟨S16x256x4, .i32⟩ : BufTy).Contents (Elt F) → (⟨S16x256x1, .i32⟩ : BufTy).Contents (Elt F)),
    StableHlo.reshape main_v19 main_v20 rfl shapeCasts_S16x256x1_S16x256,
    StableHlo.unary main_arg5 main_v21 ((extractStridedSlice S16x256x1 ![0, 0, 3] · slices_S16x256x4_S16x256x1_0_0_3) : (⟨S16x256x4, .i32⟩ : BufTy).Contents (Elt F) → (⟨S16x256x1, .i32⟩ : BufTy).Contents (Elt F)),
    StableHlo.reshape main_v21 main_v22 rfl shapeCasts_S16x256x1_S16x256,
    StableHlo.binary main_v16 main_v20 main_v23 (addi : (⟨S16x256, .i32⟩ : BufTy).Contents (Elt F) → (⟨S16x256, .i32⟩ : BufTy).Contents (Elt F) → (⟨S16x256, .i32⟩ : BufTy).Contents (Elt F)),
    StableHlo.nullary main_c (constantI S_ 32 2#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S16x256, .i32⟩) (broadcastInDim S16x256 ![] bcast_S_S16x256),
    StableHlo.TRef.binary (.of main_v23 : StableHlo.TRef sig ⟨S16x256, .i32⟩) (.of main_call0_v1 : StableHlo.TRef sig ⟨S16x256, .i32⟩) (.of main_call0_v2 : StableHlo.TRef sig ⟨S16x256, .i32⟩) Host.divsi,
    StableHlo.TRef.unary (.of main_v23 : StableHlo.TRef sig ⟨S16x256, .i32⟩) (.of main_call0_v3 : StableHlo.TRef sig ⟨S16x256, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S16x256, .i32⟩) (broadcastInDim S16x256 ![] bcast_S_S16x256),
    StableHlo.TRef.binary (.of main_call0_v3 : StableHlo.TRef sig ⟨S16x256, .i32⟩) (.of main_call0_v5 : StableHlo.TRef sig ⟨S16x256, .i32⟩) (.of main_call0_v6 : StableHlo.TRef sig ⟨S16x256, .i1⟩) (cmpi .ne),
    StableHlo.TRef.unary (.of main_call0_v0 : StableHlo.TRef sig ⟨S_, .i32⟩) (.of main_call0_v7 : StableHlo.TRef sig ⟨S16x256, .i32⟩) (broadcastInDim S16x256 ![] bcast_S_S16x256),
    StableHlo.TRef.binary (.of main_v23 : StableHlo.TRef sig ⟨S16x256, .i32⟩) (.of main_call0_v7 : StableHlo.TRef sig ⟨S16x256, .i32⟩) (.of main_call0_v8 : StableHlo.TRef sig ⟨S16x256, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S16x256, .i32⟩) (broadcastInDim S16x256 ![] bcast_S_S16x256),
    StableHlo.TRef.binary (.of main_call0_v8 : StableHlo.TRef sig ⟨S16x256, .i32⟩) (.of main_call0_v9 : StableHlo.TRef sig ⟨S16x256, .i32⟩) (.of main_call0_v10 : StableHlo.TRef sig ⟨S16x256, .i1⟩) (cmpi .ne),
    StableHlo.TRef.binary (.of main_call0_v6 : StableHlo.TRef sig ⟨S16x256, .i1⟩) (.of main_call0_v10 : StableHlo.TRef sig ⟨S16x256, .i1⟩) (.of main_call0_v11 : StableHlo.TRef sig ⟨S16x256, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S16x256, .i32⟩) (broadcastInDim S16x256 ![] bcast_S_S16x256),
    StableHlo.TRef.binary (.of main_call0_v2 : StableHlo.TRef sig ⟨S16x256, .i32⟩) (.of main_call0_v12 : StableHlo.TRef sig ⟨S16x256, .i32⟩) (.of main_call0_v13 : StableHlo.TRef sig ⟨S16x256, .i32⟩) subi,
    StableHlo.TRef.ternary (.of main_call0_v11 : StableHlo.TRef sig ⟨S16x256, .i1⟩) (.of main_call0_v13 : StableHlo.TRef sig ⟨S16x256, .i32⟩) (.of main_call0_v2 : StableHlo.TRef sig ⟨S16x256, .i32⟩) (.of main_v24 : StableHlo.TRef sig ⟨S16x256, .i32⟩) select,
    StableHlo.binary main_v18 main_v22 main_v25 (addi : (⟨S16x256, .i32⟩ : BufTy).Contents (Elt F) → (⟨S16x256, .i32⟩ : BufTy).Contents (Elt F) → (⟨S16x256, .i32⟩ : BufTy).Contents (Elt F)),
    StableHlo.nullary main_c_4 (constantI S_ 32 2#32),
    StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16x256, .i32⟩) (broadcastInDim S16x256 ![] bcast_S_S16x256),
    StableHlo.TRef.binary (.of main_v25 : StableHlo.TRef sig ⟨S16x256, .i32⟩) (.of main_call1_v1 : StableHlo.TRef sig ⟨S16x256, .i32⟩) (.of main_call1_v2 : StableHlo.TRef sig ⟨S16x256, .i32⟩) Host.divsi,
    StableHlo.TRef.unary (.of main_v25 : StableHlo.TRef sig ⟨S16x256, .i32⟩) (.of main_call1_v3 : StableHlo.TRef sig ⟨S16x256, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S16x256, .i32⟩) (broadcastInDim S16x256 ![] bcast_S_S16x256),
    StableHlo.TRef.binary (.of main_call1_v3 : StableHlo.TRef sig ⟨S16x256, .i32⟩) (.of main_call1_v5 : StableHlo.TRef sig ⟨S16x256, .i32⟩) (.of main_call1_v6 : StableHlo.TRef sig ⟨S16x256, .i1⟩) (cmpi .ne),
    StableHlo.TRef.unary (.of main_call1_v0 : StableHlo.TRef sig ⟨S_, .i32⟩) (.of main_call1_v7 : StableHlo.TRef sig ⟨S16x256, .i32⟩) (broadcastInDim S16x256 ![] bcast_S_S16x256),
    StableHlo.TRef.binary (.of main_v25 : StableHlo.TRef sig ⟨S16x256, .i32⟩) (.of main_call1_v7 : StableHlo.TRef sig ⟨S16x256, .i32⟩) (.of main_call1_v8 : StableHlo.TRef sig ⟨S16x256, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S16x256, .i32⟩) (broadcastInDim S16x256 ![] bcast_S_S16x256),
    StableHlo.TRef.binary (.of main_call1_v8 : StableHlo.TRef sig ⟨S16x256, .i32⟩) (.of main_call1_v9 : StableHlo.TRef sig ⟨S16x256, .i32⟩) (.of main_call1_v10 : StableHlo.TRef sig ⟨S16x256, .i1⟩) (cmpi .ne),
    StableHlo.TRef.binary (.of main_call1_v6 : StableHlo.TRef sig ⟨S16x256, .i1⟩) (.of main_call1_v10 : StableHlo.TRef sig ⟨S16x256, .i1⟩) (.of main_call1_v11 : StableHlo.TRef sig ⟨S16x256, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S16x256, .i32⟩) (broadcastInDim S16x256 ![] bcast_S_S16x256),
    StableHlo.TRef.binary (.of main_call1_v2 : StableHlo.TRef sig ⟨S16x256, .i32⟩) (.of main_call1_v12 : StableHlo.TRef sig ⟨S16x256, .i32⟩) (.of main_call1_v13 : StableHlo.TRef sig ⟨S16x256, .i32⟩) subi,
    StableHlo.TRef.ternary (.of main_call1_v11 : StableHlo.TRef sig ⟨S16x256, .i1⟩) (.of main_call1_v13 : StableHlo.TRef sig ⟨S16x256, .i32⟩) (.of main_call1_v2 : StableHlo.TRef sig ⟨S16x256, .i32⟩) (.of main_v26 : StableHlo.TRef sig ⟨S16x256, .i32⟩) select,
    StableHlo.nullary main_c_5 (constantI S_ 32 0#32),
    StableHlo.unary main_c_5 main_v27 (broadcastInDim S16x256 ![] bcast_S_S16x256 : (⟨S_, .i32⟩ : BufTy).Contents (Elt F) → (⟨S16x256, .i32⟩ : BufTy).Contents (Elt F)),
    StableHlo.binary main_v24 main_v27 main_v28 (cmpi .sge : (⟨S16x256, .i32⟩ : BufTy).Contents (Elt F) → (⟨S16x256, .i32⟩ : BufTy).Contents (Elt F) → (⟨S16x256, .i1⟩ : BufTy).Contents (Elt F)),
    StableHlo.binary main_arg6 main_v28 main_v29 (andi : (⟨S16x256, .i1⟩ : BufTy).Contents (Elt F) → (⟨S16x256, .i1⟩ : BufTy).Contents (Elt F) → (⟨S16x256, .i1⟩ : BufTy).Contents (Elt F)),
    StableHlo.nullary main_c_6 (constantI S_ 32 512#32),
    StableHlo.unary main_c_6 main_v30 (broadcastInDim S16x256 ![] bcast_S_S16x256 : (⟨S_, .i32⟩ : BufTy).Contents (Elt F) → (⟨S16x256, .i32⟩ : BufTy).Contents (Elt F)),
    StableHlo.binary main_v24 main_v30 main_v31 (cmpi .slt : (⟨S16x256, .i32⟩ : BufTy).Contents (Elt F) → (⟨S16x256, .i32⟩ : BufTy).Contents (Elt F) → (⟨S16x256, .i1⟩ : BufTy).Contents (Elt F)),
    StableHlo.binary main_v29 main_v31 main_v32 (andi : (⟨S16x256, .i1⟩ : BufTy).Contents (Elt F) → (⟨S16x256, .i1⟩ : BufTy).Contents (Elt F) → (⟨S16x256, .i1⟩ : BufTy).Contents (Elt F)),
    StableHlo.nullary main_c_7 (constantI S_ 32 0#32),
    StableHlo.unary main_c_7 main_v33 (broadcastInDim S16x256 ![] bcast_S_S16x256 : (⟨S_, .i32⟩ : BufTy).Contents (Elt F) → (⟨S16x256, .i32⟩ : BufTy).Contents (Elt F)),
    StableHlo.binary main_v26 main_v33 main_v34 (cmpi .sge : (⟨S16x256, .i32⟩ : BufTy).Contents (Elt F) → (⟨S16x256, .i32⟩ : BufTy).Contents (Elt F) → (⟨S16x256, .i1⟩ : BufTy).Contents (Elt F)),
    StableHlo.binary main_v32 main_v34 main_v35 (andi : (⟨S16x256, .i1⟩ : BufTy).Contents (Elt F) → (⟨S16x256, .i1⟩ : BufTy).Contents (Elt F) → (⟨S16x256, .i1⟩ : BufTy).Contents (Elt F)),
    StableHlo.nullary main_c_8 (constantI S_ 32 512#32),
    StableHlo.unary main_c_8 main_v36 (broadcastInDim S16x256 ![] bcast_S_S16x256 : (⟨S_, .i32⟩ : BufTy).Contents (Elt F) → (⟨S16x256, .i32⟩ : BufTy).Contents (Elt F)),
    StableHlo.binary main_v26 main_v36 main_v37 (cmpi .slt : (⟨S16x256, .i32⟩ : BufTy).Contents (Elt F) → (⟨S16x256, .i32⟩ : BufTy).Contents (Elt F) → (⟨S16x256, .i1⟩ : BufTy).Contents (Elt F)),
    StableHlo.binary main_v35 main_v37 main_v38 (andi : (⟨S16x256, .i1⟩ : BufTy).Contents (Elt F) → (⟨S16x256, .i1⟩ : BufTy).Contents (Elt F) → (⟨S16x256, .i1⟩ : BufTy).Contents (Elt F)),
    StableHlo.nullary main_c_9 (constantI S_ 32 0#32),
    StableHlo.nullary main_c_10 (constantI S_ 32 511#32),
    StableHlo.TRef.unary (.of main_c_9 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16x256, .i32⟩) (broadcastInDim S16x256 ![] bcast_S_S16x256),
    StableHlo.TRef.binary (.of main_call2_v1 : StableHlo.TRef sig ⟨S16x256, .i32⟩) (.of main_v24 : StableHlo.TRef sig ⟨S16x256, .i32⟩) (.of main_call2_v2 : StableHlo.TRef sig ⟨S16x256, .i32⟩) maxsi,
    StableHlo.TRef.unary (.of main_c_10 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S16x256, .i32⟩) (broadcastInDim S16x256 ![] bcast_S_S16x256),
    StableHlo.TRef.binary (.of main_call2_v4 : StableHlo.TRef sig ⟨S16x256, .i32⟩) (.of main_call2_v2 : StableHlo.TRef sig ⟨S16x256, .i32⟩) (.of main_v39 : StableHlo.TRef sig ⟨S16x256, .i32⟩) minsi,
    StableHlo.nullary main_c_11 (constantI S_ 32 0#32),
    StableHlo.nullary main_c_12 (constantI S_ 32 511#32),
    StableHlo.TRef.unary (.of main_c_11 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16x256, .i32⟩) (broadcastInDim S16x256 ![] bcast_S_S16x256),
    StableHlo.TRef.binary (.of main_call3_v1 : StableHlo.TRef sig ⟨S16x256, .i32⟩) (.of main_v26 : StableHlo.TRef sig ⟨S16x256, .i32⟩) (.of main_call3_v2 : StableHlo.TRef sig ⟨S16x256, .i32⟩) maxsi,
    StableHlo.TRef.unary (.of main_c_12 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S16x256, .i32⟩) (broadcastInDim S16x256 ![] bcast_S_S16x256),
    StableHlo.TRef.binary (.of main_call3_v4 : StableHlo.TRef sig ⟨S16x256, .i32⟩) (.of main_call3_v2 : StableHlo.TRef sig ⟨S16x256, .i32⟩) (.of main_v40 : StableHlo.TRef sig ⟨S16x256, .i32⟩) minsi,
    StableHlo.nullary main_v41 (iotaInDim S16 32 0),
    StableHlo.unary main_v41 main_v42 (broadcastInDim S16x1 ![0] bcast_S16_S16x1_0 : (⟨S16, .i32⟩ : BufTy).Contents (Elt F) → (⟨S16x1, .i32⟩ : BufTy).Contents (Elt F)),
    StableHlo.nullary main_c_13 (constantI S_ 32 0#32),
    StableHlo.unary main_c_13 main_v43 (broadcastInDim S16x1 ![] bcast_S_S16x1 : (⟨S_, .i32⟩ : BufTy).Contents (Elt F) → (⟨S16x1, .i32⟩ : BufTy).Contents (Elt F)) ]

/-- The operations of statements window 1 of @main (60), calls unfolded. -/
abbrev win1 : List (HloOp τ sig (Elt F)) :=
  [ StableHlo.binary main_v42 main_v43 main_v44 (cmpi .slt : (⟨S16x1, .i32⟩ : BufTy).Contents (Elt F) → (⟨S16x1, .i32⟩ : BufTy).Contents (Elt F) → (⟨S16x1, .i1⟩ : BufTy).Contents (Elt F)),
    StableHlo.nullary main_c_14 (constantI S_ 32 16#32),
    StableHlo.unary main_c_14 main_v45 (broadcastInDim S16x1 ![] bcast_S_S16x1 : (⟨S_, .i32⟩ : BufTy).Contents (Elt F) → (⟨S16x1, .i32⟩ : BufTy).Contents (Elt F)),
    StableHlo.binary main_v42 main_v45 main_v46 (addi : (⟨S16x1, .i32⟩ : BufTy).Contents (Elt F) → (⟨S16x1, .i32⟩ : BufTy).Contents (Elt F) → (⟨S16x1, .i32⟩ : BufTy).Contents (Elt F)),
    StableHlo.ternary main_v44 main_v46 main_v42 main_v47 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_15 (constantI S_ 32 0#32),
    StableHlo.unary main_c_15 main_v48 (broadcastInDim S16x256 ![] bcast_S_S16x256 : (⟨S_, .i32⟩ : BufTy).Contents (Elt F) → (⟨S16x256, .i32⟩ : BufTy).Contents (Elt F)),
    StableHlo.binary main_v40 main_v48 main_v49 (cmpi .slt : (⟨S16x256, .i32⟩ : BufTy).Contents (Elt F) → (⟨S16x256, .i32⟩ : BufTy).Contents (Elt F) → (⟨S16x256, .i1⟩ : BufTy).Contents (Elt F)),
    StableHlo.nullary main_c_16 (constantI S_ 32 512#32),
    StableHlo.unary main_c_16 main_v50 (broadcastInDim S16x256 ![] bcast_S_S16x256 : (⟨S_, .i32⟩ : BufTy).Contents (Elt F) → (⟨S16x256, .i32⟩ : BufTy).Contents (Elt F)),
    StableHlo.binary main_v40 main_v50 main_v51 (addi : (⟨S16x256, .i32⟩ : BufTy).Contents (Elt F) → (⟨S16x256, .i32⟩ : BufTy).Contents (Elt F) → (⟨S16x256, .i32⟩ : BufTy).Contents (Elt F)),
    StableHlo.ternary main_v49 main_v51 main_v40 main_v52 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_17 (constantI S_ 32 0#32),
    StableHlo.unary main_c_17 main_v53 (broadcastInDim S16x256 ![] bcast_S_S16x256 : (⟨S_, .i32⟩ : BufTy).Contents (Elt F) → (⟨S16x256, .i32⟩ : BufTy).Contents (Elt F)),
    StableHlo.binary main_v39 main_v53 main_v54 (cmpi .slt : (⟨S16x256, .i32⟩ : BufTy).Contents (Elt F) → (⟨S16x256, .i32⟩ : BufTy).Contents (Elt F) → (⟨S16x256, .i1⟩ : BufTy).Contents (Elt F)),
    StableHlo.nullary main_c_18 (constantI S_ 32 512#32),
    StableHlo.unary main_c_18 main_v55 (broadcastInDim S16x256 ![] bcast_S_S16x256 : (⟨S_, .i32⟩ : BufTy).Contents (Elt F) → (⟨S16x256, .i32⟩ : BufTy).Contents (Elt F)),
    StableHlo.binary main_v39 main_v55 main_v56 (addi : (⟨S16x256, .i32⟩ : BufTy).Contents (Elt F) → (⟨S16x256, .i32⟩ : BufTy).Contents (Elt F) → (⟨S16x256, .i32⟩ : BufTy).Contents (Elt F)),
    StableHlo.ternary main_v54 main_v56 main_v39 main_v57 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v47 main_v58 (broadcastInDim S16x256 ![0, 1] bcast_S16x1_S16x256_0_1 : (⟨S16x1, .i32⟩ : BufTy).Contents (Elt F) → (⟨S16x256, .i32⟩ : BufTy).Contents (Elt F)),
    StableHlo.unary main_v58 main_v59 (broadcastInDim S16x256x1 ![0, 1] bcast_S16x256_S16x256x1_0_1 : (⟨S16x256, .i32⟩ : BufTy).Contents (Elt F) → (⟨S16x256x1, .i32⟩ : BufTy).Contents (Elt F)),
    StableHlo.unary main_v52 main_v60 (broadcastInDim S16x256x1 ![0, 1] bcast_S16x256_S16x256x1_0_1 : (⟨S16x256, .i32⟩ : BufTy).Contents (Elt F) → (⟨S16x256x1, .i32⟩ : BufTy).Contents (Elt F)),
    StableHlo.unary main_v57 main_v61 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v59, main_v60, main_v61] main_v62 (fun u => concatenate S16x256x3 2 [⟨S16x256x1, u 0⟩, ⟨S16x256x1, u 1⟩, ⟨S16x256x1, u 2⟩] concatenates_S16x256x1_S16x256x1_S16x256x1_S16x256x3_d2),
    StableHlo.binary main_arg3 main_v62 main_v63 ((fun x i => Host.gather gather_S16x4x512x512_S16x256x3_S16x256x4_2_023_n_n_023_2_1411 x i) : (⟨S16x4x512x512, .f32⟩ : BufTy).Contents (Elt F) → (⟨S16x256x3, .i32⟩ : BufTy).Contents (Elt F) → (⟨S16x256x4, .f32⟩ : BufTy).Contents (Elt F)),
    StableHlo.nullary main_c_19 (constantI S_ 32 0#32),
    StableHlo.unary main_c_19 main_v64 (broadcastInDim S16x1 ![] bcast_S_S16x1 : (⟨S_, .i32⟩ : BufTy).Contents (Elt F) → (⟨S16x1, .i32⟩ : BufTy).Contents (Elt F)),
    StableHlo.binary main_v42 main_v64 main_v65 (cmpi .slt : (⟨S16x1, .i32⟩ : BufTy).Contents (Elt F) → (⟨S16x1, .i32⟩ : BufTy).Contents (Elt F) → (⟨S16x1, .i1⟩ : BufTy).Contents (Elt F)),
    StableHlo.nullary main_c_20 (constantI S_ 32 16#32),
    StableHlo.unary main_c_20 main_v66 (broadcastInDim S16x1 ![] bcast_S_S16x1 : (⟨S_, .i32⟩ : BufTy).Contents (Elt F) → (⟨S16x1, .i32⟩ : BufTy).Contents (Elt F)),
    StableHlo.binary main_v42 main_v66 main_v67 (addi : (⟨S16x1, .i32⟩ : BufTy).Contents (Elt F) → (⟨S16x1, .i32⟩ : BufTy).Contents (Elt F) → (⟨S16x1, .i32⟩ : BufTy).Contents (Elt F)),
    StableHlo.ternary main_v65 main_v67 main_v42 main_v68 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_21 (constantI S_ 32 0#32),
    StableHlo.unary main_c_21 main_v69 (broadcastInDim S16x256 ![] bcast_S_S16x256 : (⟨S_, .i32⟩ : BufTy).Contents (Elt F) → (⟨S16x256, .i32⟩ : BufTy).Contents (Elt F)),
    StableHlo.binary main_v40 main_v69 main_v70 (cmpi .slt : (⟨S16x256, .i32⟩ : BufTy).Contents (Elt F) → (⟨S16x256, .i32⟩ : BufTy).Contents (Elt F) → (⟨S16x256, .i1⟩ : BufTy).Contents (Elt F)),
    StableHlo.nullary main_c_22 (constantI S_ 32 512#32),
    StableHlo.unary main_c_22 main_v71 (broadcastInDim S16x256 ![] bcast_S_S16x256 : (⟨S_, .i32⟩ : BufTy).Contents (Elt F) → (⟨S16x256, .i32⟩ : BufTy).Contents (Elt F)),
    StableHlo.binary main_v40 main_v71 main_v72 (addi : (⟨S16x256, .i32⟩ : BufTy).Contents (Elt F) → (⟨S16x256, .i32⟩ : BufTy).Contents (Elt F) → (⟨S16x256, .i32⟩ : BufTy).Contents (Elt F)),
    StableHlo.ternary main_v70 main_v72 main_v40 main_v73 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.nullary main_c_23 (constantI S_ 32 0#32),
    StableHlo.unary main_c_23 main_v74 (broadcastInDim S16x256 ![] bcast_S_S16x256 : (⟨S_, .i32⟩ : BufTy).Contents (Elt F) → (⟨S16x256, .i32⟩ : BufTy).Contents (Elt F)),
    StableHlo.binary main_v39 main_v74 main_v75 (cmpi .slt : (⟨S16x256, .i32⟩ : BufTy).Contents (Elt F) → (⟨S16x256, .i32⟩ : BufTy).Contents (Elt F) → (⟨S16x256, .i1⟩ : BufTy).Contents (Elt F)),
    StableHlo.nullary main_c_24 (constantI S_ 32 512#32),
    StableHlo.unary main_c_24 main_v76 (broadcastInDim S16x256 ![] bcast_S_S16x256 : (⟨S_, .i32⟩ : BufTy).Contents (Elt F) → (⟨S16x256, .i32⟩ : BufTy).Contents (Elt F)),
    StableHlo.binary main_v39 main_v76 main_v77 (addi : (⟨S16x256, .i32⟩ : BufTy).Contents (Elt F) → (⟨S16x256, .i32⟩ : BufTy).Contents (Elt F) → (⟨S16x256, .i32⟩ : BufTy).Contents (Elt F)),
    StableHlo.ternary main_v75 main_v77 main_v39 main_v78 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F)),
    StableHlo.unary main_v68 main_v79 (broadcastInDim S16x256 ![0, 1] bcast_S16x1_S16x256_0_1 : (⟨S16x1, .i32⟩ : BufTy).Contents (Elt F) → (⟨S16x256, .i32⟩ : BufTy).Contents (Elt F)),
    StableHlo.nullary main_c_25 (constantI S_ 32 0#32),
    StableHlo.unary main_c_25 main_v80 (broadcastInDim S16x256 ![] bcast_S_S16x256 : (⟨S_, .i32⟩ : BufTy).Contents (Elt F) → (⟨S16x256, .i32⟩ : BufTy).Contents (Elt F)),
    StableHlo.unary main_v80 main_v81 (id : (⟨S16x256, .i32⟩ : BufTy).Contents (Elt F) → (⟨S16x256, .i32⟩ : BufTy).Contents (Elt F)),
    StableHlo.unary main_v79 main_v82 (broadcastInDim S16x256x1 ![0, 1] bcast_S16x256_S16x256x1_0_1 : (⟨S16x256, .i32⟩ : BufTy).Contents (Elt F) → (⟨S16x256x1, .i32⟩ : BufTy).Contents (Elt F)),
    StableHlo.unary main_v81 main_v83 (broadcastInDim S16x256x1 ![0, 1] bcast_S16x256_S16x256x1_0_1 : (⟨S16x256, .i32⟩ : BufTy).Contents (Elt F) → (⟨S16x256x1, .i32⟩ : BufTy).Contents (Elt F)),
    StableHlo.unary main_v73 main_v84 (broadcastInDim S16x256x1 ![0, 1] bcast_S16x256_S16x256x1_0_1 : (⟨S16x256, .i32⟩ : BufTy).Contents (Elt F) → (⟨S16x256x1, .i32⟩ : BufTy).Contents (Elt F)),
    StableHlo.unary main_v78 main_v85 (broadcastInDim S16x256x1 ![0, 1] bcast_S16x256_S16x256x1_0_1 : (⟨S16x256, .i32⟩ : BufTy).Contents (Elt F) → (⟨S16x256x1, .i32⟩ : BufTy).Contents (Elt F)),
    StableHlo.nary ![main_v82, main_v83, main_v84, main_v85] main_v86 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_arg2 main_v86 main_v87 ((fun x i => Host.gather gather_S16x1x512x512_S16x256x4_S16x256_n_0123_n_n_0123_2_1111 x i) : (⟨S16x1x512x512, .f32⟩ : BufTy).Contents (Elt F) → (⟨S16x256x4, .i32⟩ : BufTy).Contents (Elt F) → (⟨S16x256, .f32⟩ : BufTy).Contents (Elt F)),
    StableHlo.unary main_v16 main_v88 (sitofp .f32 : (⟨S16x256, .i32⟩ : BufTy).Contents (Elt F) → (⟨S16x256, .f32⟩ : BufTy).Contents (Elt F)),
    StableHlo.nullary main_cst_26 (constant S_ .f32 0x44000000#32),
    StableHlo.unary main_cst_26 main_v89 (broadcastInDim S16x256 ![] bcast_S_S16x256 : (⟨S_, .f32⟩ : BufTy).Contents (Elt F) → (⟨S16x256, .f32⟩ : BufTy).Contents (Elt F)),
    StableHlo.binary main_v88 main_v89 main_v90 (Host.divf : (⟨S16x256, .f32⟩ : BufTy).Contents (Elt F) → (⟨S16x256, .f32⟩ : BufTy).Contents (Elt F) → (⟨S16x256, .f32⟩ : BufTy).Contents (Elt F)) ]

/-- The operations of statements window 2 of @main (60), calls unfolded. -/
abbrev win2 : List (HloOp τ sig (Elt F)) :=
  [ StableHlo.unary main_v18 main_v91 (sitofp .f32 : (⟨S16x256, .i32⟩ : BufTy).Contents (Elt F) → (⟨S16x256, .f32⟩ : BufTy).Contents (Elt F)),
    StableHlo.nullary main_cst_27 (constant S_ .f32 0x44000000#32),
    StableHlo.unary main_cst_27 main_v92 (broadcastInDim S16x256 ![] bcast_S_S16x256 : (⟨S_, .f32⟩ : BufTy).Contents (Elt F) → (⟨S16x256, .f32⟩ : BufTy).Contents (Elt F)),
    StableHlo.binary main_v91 main_v92 main_v93 (Host.divf : (⟨S16x256, .f32⟩ : BufTy).Contents (Elt F) → (⟨S16x256, .f32⟩ : BufTy).Contents (Elt F) → (⟨S16x256, .f32⟩ : BufTy).Contents (Elt F)),
    StableHlo.unary main_v20 main_v94 (sitofp .f32 : (⟨S16x256, .i32⟩ : BufTy).Contents (Elt F) → (⟨S16x256, .f32⟩ : BufTy).Contents (Elt F)),
    StableHlo.nullary main_cst_28 (constant S_ .f32 0x44000000#32),
    StableHlo.unary main_cst_28 main_v95 (broadcastInDim S16x256 ![] bcast_S_S16x256 : (⟨S_, .f32⟩ : BufTy).Contents (Elt F) → (⟨S16x256, .f32⟩ : BufTy).Contents (Elt F)),
    StableHlo.binary main_v94 main_v95 main_v96 (Host.divf : (⟨S16x256, .f32⟩ : BufTy).Contents (Elt F) → (⟨S16x256, .f32⟩ : BufTy).Contents (Elt F) → (⟨S16x256, .f32⟩ : BufTy).Contents (Elt F)),
    StableHlo.unary main_v22 main_v97 (sitofp .f32 : (⟨S16x256, .i32⟩ : BufTy).Contents (Elt F) → (⟨S16x256, .f32⟩ : BufTy).Contents (Elt F)),
    StableHlo.nullary main_cst_29 (constant S_ .f32 0x44000000#32),
    StableHlo.unary main_cst_29 main_v98 (broadcastInDim S16x256 ![] bcast_S_S16x256 : (⟨S_, .f32⟩ : BufTy).Contents (Elt F) → (⟨S16x256, .f32⟩ : BufTy).Contents (Elt F)),
    StableHlo.binary main_v97 main_v98 main_v99 (Host.divf : (⟨S16x256, .f32⟩ : BufTy).Contents (Elt F) → (⟨S16x256, .f32⟩ : BufTy).Contents (Elt F) → (⟨S16x256, .f32⟩ : BufTy).Contents (Elt F)),
    StableHlo.unary main_v90 main_v100 (broadcastInDim S16x256x1 ![0, 1] bcast_S16x256_S16x256x1_0_1 : (⟨S16x256, .f32⟩ : BufTy).Contents (Elt F) → (⟨S16x256x1, .f32⟩ : BufTy).Contents (Elt F)),
    StableHlo.unary main_v93 main_v101 (broadcastInDim S16x256x1 ![0, 1] bcast_S16x256_S16x256x1_0_1 : (⟨S16x256, .f32⟩ : BufTy).Contents (Elt F) → (⟨S16x256x1, .f32⟩ : BufTy).Contents (Elt F)),
    StableHlo.unary main_v96 main_v102 (broadcastInDim S16x256x1 ![0, 1] bcast_S16x256_S16x256x1_0_1 : (⟨S16x256, .f32⟩ : BufTy).Contents (Elt F) → (⟨S16x256x1, .f32⟩ : BufTy).Contents (Elt F)),
    StableHlo.unary main_v99 main_v103 (broadcastInDim S16x256x1 ![0, 1] bcast_S16x256_S16x256x1_0_1 : (⟨S16x256, .f32⟩ : BufTy).Contents (Elt F) → (⟨S16x256x1, .f32⟩ : BufTy).Contents (Elt F)),
    StableHlo.nary ![main_v100, main_v101, main_v102, main_v103] main_v104 (fun u => concatenate S16x256x4 2 [⟨S16x256x1, u 0⟩, ⟨S16x256x1, u 1⟩, ⟨S16x256x1, u 2⟩, ⟨S16x256x1, u 3⟩] concatenates_S16x256x1_S16x256x1_S16x256x1_S16x256x1_S16x256x4_d2),
    StableHlo.binary main_v63 main_v104 main_v105 (subf : (⟨S16x256x4, .f32⟩ : BufTy).Contents (Elt F) → (⟨S16x256x4, .f32⟩ : BufTy).Contents (Elt F) → (⟨S16x256x4, .f32⟩ : BufTy).Contents (Elt F)),
    StableHlo.unary main_v105 main_v106 (Host.absf : (⟨S16x256x4, .f32⟩ : BufTy).Contents (Elt F) → (⟨S16x256x4, .f32⟩ : BufTy).Contents (Elt F)),
    StableHlo.nullary main_cst_30 (constant S_ .f32 0x3F800000#32),
    StableHlo.unary main_cst_30 main_v107 (broadcastInDim S16x256x4 ![] bcast_S_S16x256x4 : (⟨S_, .f32⟩ : BufTy).Contents (Elt F) → (⟨S16x256x4, .f32⟩ : BufTy).Contents (Elt F)),
    StableHlo.binary main_v106 main_v107 main_v108 (cmpf .olt : (⟨S16x256x4, .f32⟩ : BufTy).Contents (Elt F) → (⟨S16x256x4, .f32⟩ : BufTy).Contents (Elt F) → (⟨S16x256x4, .i1⟩ : BufTy).Contents (Elt F)),
    StableHlo.nullary main_cst_31 (constant S_ .f32 0x3F000000#32),
    StableHlo.unary main_cst_31 main_v109 (broadcastInDim S16x256x4 ![] bcast_S_S16x256x4 : (⟨S_, .f32⟩ : BufTy).Contents (Elt F) → (⟨S16x256x4, .f32⟩ : BufTy).Contents (Elt F)),
    StableHlo.binary main_v109 main_v106 main_v110 (mulf : (⟨S16x256x4, .f32⟩ : BufTy).Contents (Elt F) → (⟨S16x256x4, .f32⟩ : BufTy).Contents (Elt F) → (⟨S16x256x4, .f32⟩ : BufTy).Contents (Elt F)),
    StableHlo.binary main_v110 main_v106 main_v111 (mulf : (⟨S16x256x4, .f32⟩ : BufTy).Contents (Elt F) → (⟨S16x256x4, .f32⟩ : BufTy).Contents (Elt F) → (⟨S16x256x4, .f32⟩ : BufTy).Contents (Elt F)),
    StableHlo.nullary main_cst_32 (constant S_ .f32 0x3F000000#32),
    StableHlo.unary main_cst_32 main_v112 (broadcastInDim S16x256x4 ![] bcast_S_S16x256x4 : (⟨S_, .f32⟩ : BufTy).Contents (Elt F) → (⟨S16x256x4, .f32⟩ : BufTy).Contents (Elt F)),
    StableHlo.binary main_v106 main_v112 main_v113 (subf : (⟨S16x256x4, .f32⟩ : BufTy).Contents (Elt F) → (⟨S16x256x4, .f32⟩ : BufTy).Contents (Elt F) → (⟨S16x256x4, .f32⟩ : BufTy).Contents (Elt F)),
    StableHlo.TRef.ternary (.of main_v108 : StableHlo.TRef sig ⟨S16x256x4, .i1⟩) (.of main_v111 : StableHlo.TRef sig ⟨S16x256x4, .f32⟩) (.of main_v113 : StableHlo.TRef sig ⟨S16x256x4, .f32⟩) (.of main_v114 : StableHlo.TRef sig ⟨S16x256x4, .f32⟩) select,
    StableHlo.nullary main_cst_33 (constant S_ .f32 0x00000000#32),
    StableHlo.binary main_v114 main_cst_33 main_v115 ((fun x v => Host.reduceAdd x v reducesTo_S16x256x4_S16x256_d2 h_S_) : (⟨S16x256x4, .f32⟩ : BufTy).Contents (Elt F) → (⟨S_, .f32⟩ : BufTy).Contents (Elt F) → (⟨S16x256, .f32⟩ : BufTy).Contents (Elt F)),
    StableHlo.nullary main_cst_34 (constant S_ .f32 0x40800000#32),
    StableHlo.unary main_cst_34 main_v116 (broadcastInDim S16x256 ![] bcast_S_S16x256 : (⟨S_, .f32⟩ : BufTy).Contents (Elt F) → (⟨S16x256, .f32⟩ : BufTy).Contents (Elt F)),
    StableHlo.binary main_v115 main_v116 main_v117 (Host.divf : (⟨S16x256, .f32⟩ : BufTy).Contents (Elt F) → (⟨S16x256, .f32⟩ : BufTy).Contents (Elt F) → (⟨S16x256, .f32⟩ : BufTy).Contents (Elt F)),
    StableHlo.unary main_v87 main_v118 (Host.log : (⟨S16x256, .f32⟩ : BufTy).Contents (Elt F) → (⟨S16x256, .f32⟩ : BufTy).Contents (Elt F)),
    StableHlo.nullary main_cst_35 (constant S_ .f32 0xC2C80000#32),
    StableHlo.unary main_cst_35 main_v119 (broadcastInDim S16x256 ![] bcast_S_S16x256 : (⟨S_, .f32⟩ : BufTy).Contents (Elt F) → (⟨S16x256, .f32⟩ : BufTy).Contents (Elt F)),
    StableHlo.binary main_v118 main_v119 main_v120 (maximumf : (⟨S16x256, .f32⟩ : BufTy).Contents (Elt F) → (⟨S16x256, .f32⟩ : BufTy).Contents (Elt F) → (⟨S16x256, .f32⟩ : BufTy).Contents (Elt F)),
    StableHlo.unary main_v87 main_v121 (Host.negf : (⟨S16x256, .f32⟩ : BufTy).Contents (Elt F) → (⟨S16x256, .f32⟩ : BufTy).Contents (Elt F)),
    StableHlo.unary main_v121 main_v122 (Host.log1p : (⟨S16x256, .f32⟩ : BufTy).Contents (Elt F) → (⟨S16x256, .f32⟩ : BufTy).Contents (Elt F)),
    StableHlo.nullary main_cst_36 (constant S_ .f32 0xC2C80000#32),
    StableHlo.unary main_cst_36 main_v123 (broadcastInDim S16x256 ![] bcast_S_S16x256 : (⟨S_, .f32⟩ : BufTy).Contents (Elt F) → (⟨S16x256, .f32⟩ : BufTy).Contents (Elt F)),
    StableHlo.binary main_v122 main_v123 main_v124 (maximumf : (⟨S16x256, .f32⟩ : BufTy).Contents (Elt F) → (⟨S16x256, .f32⟩ : BufTy).Contents (Elt F) → (⟨S16x256, .f32⟩ : BufTy).Contents (Elt F)),
    StableHlo.binary main_arg4 main_v120 main_v125 (mulf : (⟨S16x256, .f32⟩ : BufTy).Contents (Elt F) → (⟨S16x256, .f32⟩ : BufTy).Contents (Elt F) → (⟨S16x256, .f32⟩ : BufTy).Contents (Elt F)),
    StableHlo.nullary main_cst_37 (constant S_ .f32 0x3F800000#32),
    StableHlo.unary main_cst_37 main_v126 (broadcastInDim S16x256 ![] bcast_S_S16x256 : (⟨S_, .f32⟩ : BufTy).Contents (Elt F) → (⟨S16x256, .f32⟩ : BufTy).Contents (Elt F)),
    StableHlo.binary main_v126 main_arg4 main_v127 (subf : (⟨S16x256, .f32⟩ : BufTy).Contents (Elt F) → (⟨S16x256, .f32⟩ : BufTy).Contents (Elt F) → (⟨S16x256, .f32⟩ : BufTy).Contents (Elt F)),
    StableHlo.binary main_v127 main_v124 main_v128 (mulf : (⟨S16x256, .f32⟩ : BufTy).Contents (Elt F) → (⟨S16x256, .f32⟩ : BufTy).Contents (Elt F) → (⟨S16x256, .f32⟩ : BufTy).Contents (Elt F)),
    StableHlo.binary main_v125 main_v128 main_v129 (addf : (⟨S16x256, .f32⟩ : BufTy).Contents (Elt F) → (⟨S16x256, .f32⟩ : BufTy).Contents (Elt F) → (⟨S16x256, .f32⟩ : BufTy).Contents (Elt F)),
    StableHlo.unary main_v129 main_v130 (Host.negf : (⟨S16x256, .f32⟩ : BufTy).Contents (Elt F) → (⟨S16x256, .f32⟩ : BufTy).Contents (Elt F)),
    StableHlo.unary main_v38 main_v131 (uitofp .f32 : (⟨S16x256, .i1⟩ : BufTy).Contents (Elt F) → (⟨S16x256, .f32⟩ : BufTy).Contents (Elt F)),
    StableHlo.nullary main_cst_38 (constant S_ .f32 0x00000000#32),
    StableHlo.binary main_v131 main_cst_38 main_v132 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.nullary main_cst_39 (constant S_ .f32 0x3F800000#32),
    StableHlo.binary main_v132 main_cst_39 main_v133 (maximumf : (⟨S_, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.binary main_v132 main_cst_40 main_v134 (cmpf .ogt : (⟨S_, .f32⟩ : BufTy).Contents (Elt F) → (⟨S_, .f32⟩ : BufTy).Contents (Elt F) → (⟨S_, .i1⟩ : BufTy).Contents (Elt F)),
    StableHlo.binary main_v117 main_v131 main_v135 (mulf : (⟨S16x256, .f32⟩ : BufTy).Contents (Elt F) → (⟨S16x256, .f32⟩ : BufTy).Contents (Elt F) → (⟨S16x256, .f32⟩ : BufTy).Contents (Elt F)),
    StableHlo.nullary main_cst_41 (constant S_ .f32 0x00000000#32) ]

/-- The operations of statements window 3 of @main (25), calls unfolded. -/
abbrev win3 : List (HloOp τ sig (Elt F)) :=
  [ StableHlo.binary main_v135 main_cst_41 main_v136 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v136 main_v133 main_v137 (Host.divf : (⟨S_, .f32⟩ : BufTy).Contents (Elt F) → (⟨S_, .f32⟩ : BufTy).Contents (Elt F) → (⟨S_, .f32⟩ : BufTy).Contents (Elt F)),
    StableHlo.nullary main_cst_42 (constant S_ .f32 0x00000000#32),
    StableHlo.TRef.unary (.of main_cst_42 : StableHlo.TRef sig ⟨S_, .f32⟩) (.of main_call5_v0 : StableHlo.TRef sig ⟨S_, .f32⟩) id,
    StableHlo.TRef.ternary (.of main_v134 : StableHlo.TRef sig ⟨S_, .i1⟩) (.of main_v137 : StableHlo.TRef sig ⟨S_, .f32⟩) (.of main_call5_v0 : StableHlo.TRef sig ⟨S_, .f32⟩) (.of main_v138 : StableHlo.TRef sig ⟨S_, .f32⟩) select,
    StableHlo.binary main_v130 main_v131 main_v139 (mulf : (⟨S16x256, .f32⟩ : BufTy).Contents (Elt F) → (⟨S16x256, .f32⟩ : BufTy).Contents (Elt F) → (⟨S16x256, .f32⟩ : BufTy).Contents (Elt F)),
    StableHlo.nullary main_cst_43 (constant S_ .f32 0x00000000#32),
    StableHlo.binary main_v139 main_cst_43 main_v140 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    StableHlo.binary main_v140 main_v133 main_v141 (Host.divf : (⟨S_, .f32⟩ : BufTy).Contents (Elt F) → (⟨S_, .f32⟩ : BufTy).Contents (Elt F) → (⟨S_, .f32⟩ : BufTy).Contents (Elt F)),
    StableHlo.nullary main_cst_44 (constant S_ .f32 0x00000000#32),
    StableHlo.TRef.unary (.of main_cst_44 : StableHlo.TRef sig ⟨S_, .f32⟩) (.of main_call6_v0 : StableHlo.TRef sig ⟨S_, .f32⟩) id,
    StableHlo.TRef.ternary (.of main_v134 : StableHlo.TRef sig ⟨S_, .i1⟩) (.of main_v141 : StableHlo.TRef sig ⟨S_, .f32⟩) (.of main_call6_v0 : StableHlo.TRef sig ⟨S_, .f32⟩) (.of main_v142 : StableHlo.TRef sig ⟨S_, .f32⟩) select,
    StableHlo.nullary main_cst_45 (constant S_ .f32 0x3F800000#32),
    StableHlo.binary main_cst_45 main_v14 main_v143 (mulf : (⟨S_, .f32⟩ : BufTy).Contents (Elt F) → (⟨S_, .f32⟩ : BufTy).Contents (Elt F) → (⟨S_, .f32⟩ : BufTy).Contents (Elt F)),
    StableHlo.nullary main_cst_46 (constant S_ .f32 0x3F800000#32),
    StableHlo.binary main_cst_46 main_v138 main_v144 (mulf : (⟨S_, .f32⟩ : BufTy).Contents (Elt F) → (⟨S_, .f32⟩ : BufTy).Contents (Elt F) → (⟨S_, .f32⟩ : BufTy).Contents (Elt F)),
    StableHlo.binary main_v143 main_v144 main_v145 (addf : (⟨S_, .f32⟩ : BufTy).Contents (Elt F) → (⟨S_, .f32⟩ : BufTy).Contents (Elt F) → (⟨S_, .f32⟩ : BufTy).Contents (Elt F)),
    StableHlo.nullary main_cst_47 (constant S_ .f32 0x3F800000#32),
    StableHlo.binary main_cst_47 main_v142 main_v146 (mulf : (⟨S_, .f32⟩ : BufTy).Contents (Elt F) → (⟨S_, .f32⟩ : BufTy).Contents (Elt F) → (⟨S_, .f32⟩ : BufTy).Contents (Elt F)),
    StableHlo.binary main_v145 main_v146 main_v147 (addf : (⟨S_, .f32⟩ : BufTy).Contents (Elt F) → (⟨S_, .f32⟩ : BufTy).Contents (Elt F) → (⟨S_, .f32⟩ : BufTy).Contents (Elt F)),
    StableHlo.unary main_v147 main_v148 (broadcastInDim S1 ![] bcast_S_S1 : (⟨S_, .f32⟩ : BufTy).Contents (Elt F) → (⟨S1, .f32⟩ : BufTy).Contents (Elt F)),
    StableHlo.unary main_v14 main_v149 (broadcastInDim S1 ![] bcast_S_S1 : (⟨S_, .f32⟩ : BufTy).Contents (Elt F) → (⟨S1, .f32⟩ : BufTy).Contents (Elt F)),
    StableHlo.unary main_v138 main_v150 (broadcastInDim S1 ![] bcast_S_S1 : (⟨S_, .f32⟩ : BufTy).Contents (Elt F) → (⟨S1, .f32⟩ : BufTy).Contents (Elt F)),
    StableHlo.unary main_v142 main_v151 (broadcastInDim S1 ![] bcast_S_S1 : (⟨S_, .f32⟩ : BufTy).Contents (Elt F) → (⟨S1, .f32⟩ : BufTy).Contents (Elt F)),
    StableHlo.nary ![main_v148, main_v149, main_v150, main_v151] main_v152 (fun u => concatenate S4 0 [⟨S1, u 0⟩, ⟨S1, u 1⟩, ⟨S1, u 2⟩, ⟨S1, u 3⟩] concatenates_S1_S1_S1_S1_S4_d0) ]

/-! ## Each window is the line of its operations

A window's statements are `hlo` steps and calls; a call unfolds to its callee's `hlo` steps over the call's buffers, and
sequencing re-associates, so each side is one chain of the same steps: the equation holds by unfolding alone. -/

theorem part0_eq (c : Dev nD) : main_part0 (F := F) c = seq win0 := by chain_rfl
theorem part1_eq (c : Dev nD) : main_part1 (F := F) c = seq win1 := by chain_rfl
theorem part2_eq (c : Dev nD) : main_part2 (F := F) c = seq win2 := by chain_rfl
theorem part3_eq (c : Dev nD) : main_part3 (F := F) c = seq win3 := by chain_rfl

/-- The four windows' operations in order are `ops`: the same 247 operations, cut differently. -/
theorem wins_eq : (win0 ++ (win1 ++ (win2 ++ win3)) : List (HloOp τ sig (Elt F))) = ops := rfl

/-- @main is the straight line of its operations. -/
theorem main_eq (c : Dev nD) : main (F := F) c = seq ops := by
  show (main_part0 (F := F) c >>= fun _ => main_part1 (F := F) c >>= fun _ => main_part2 (F := F) c >>= fun _ => main_part3 (F := F) c) = _
  rw [part0_eq, part1_eq, part2_eq, part3_eq, ← seq_append, ← seq_append, ← seq_append, wins_eq]

end Cert.ReferenceIdeal.RefRun

end
-- ==== Proof.RefSub.lean ====
/- Per stretch of the reference's operations: each touches TensorCore references only, none allocates, and the
   references it writes, listed. -/
import proofs.«125002_j27127013441992_1_alg».proof.Proof.RefOps

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem opsHead_sub : (opsHead : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., binary_bufs_sub .., nullary_bufs_sub .., binary_bufs_sub ..⟩
theorem opsHead_fresh : (opsHead : List (HloOp τ sig (Elt F))).Forall fun op => op.fresh = ∅ := by
  simp only [List.Forall]; repeat' constructor
/-- The references the stretch writes. -/
abbrev opsHead_W : List (Ref sig .tc) := [main_v0, main_cst, main_v1, main_v2, main_v3, main_v4, main_cst_0, main_v5, main_v6, main_v7, main_cst_1, main_v8, main_v9, main_v10, main_v11, main_v12, main_cst_2, main_v13, main_cst_3, main_v14]
theorem opsHead_writes : (opsHead : List (HloOp τ sig (Elt F))).Forall fun op => op.writes ⊆ (opsHead_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT1_sub : (opsT1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., nullary_bufs_sub ..⟩
theorem opsT1_fresh : (opsT1 : List (HloOp τ sig (Elt F))).Forall fun op => op.fresh = ∅ := by
  simp only [List.Forall]; repeat' constructor
/-- The references the stretch writes. -/
abbrev opsT1_W : List (Ref sig .tc) := [main_v15, main_v16, main_v17, main_v18, main_v19, main_v20, main_v21, main_v22, main_v23, main_c]
theorem opsT1_writes : (opsT1 : List (HloOp τ sig (Elt F))).Forall fun op => op.writes ⊆ (opsT1_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT2_sub : (opsT2 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsT2_fresh : (opsT2 : List (HloOp τ sig (Elt F))).Forall fun op => op.fresh = ∅ := by
  simp only [List.Forall]; repeat' constructor
/-- The references the stretch writes. -/
abbrev opsT2_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24]
theorem opsT2_writes : (opsT2 : List (HloOp τ sig (Elt F))).Forall fun op => op.writes ⊆ (opsT2_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT3_sub : (opsT3 : List (HloOp τ sig (Elt F))).Forall fun op => op.bufs ⊆ tcRefs τ sig :=
  ⟨binary_bufs_sub .., nullary_bufs_sub ..⟩
theorem opsT3_fresh : (opsT3 : List (HloOp τ sig (Elt F))).Forall fun op => op.fresh = ∅ := by
  simp only [List.Forall]; repeat' constructor
/-- The references the stretch writes. -/
abbrev opsT3_W : List (Ref sig .tc) := [main_v25, main_c_4]
theorem opsT3_writes : (opsT3 : List (HloOp τ sig (Elt F))).Forall fun op => op.writes ⊆ (opsT3_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT4_sub : (opsT4 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsT4_fresh : (opsT4 : List (HloOp τ sig (Elt F))).Forall fun op => op.fresh = ∅ := by
  simp only [List.Forall]; repeat' constructor
/-- The references the stretch writes. -/
abbrev opsT4_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v26]
theorem opsT4_writes : (opsT4 : List (HloOp τ sig (Elt F))).Forall fun op => op.writes ⊆ (opsT4_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT5_sub : (opsT5 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub ..⟩
theorem opsT5_fresh : (opsT5 : List (HloOp τ sig (Elt F))).Forall fun op => op.fresh = ∅ := by
  simp only [List.Forall]; repeat' constructor
/-- The references the stretch writes. -/
abbrev opsT5_W : List (Ref sig .tc) := [main_c_5, main_v27, main_v28, main_v29, main_c_6, main_v30, main_v31, main_v32, main_c_7, main_v33, main_v34, main_v35, main_c_8, main_v36, main_v37, main_v38, main_c_9, main_c_10]
theorem opsT5_writes : (opsT5 : List (HloOp τ sig (Elt F))).Forall fun op => op.writes ⊆ (opsT5_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT6_sub : (opsT6 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsT6_fresh : (opsT6 : List (HloOp τ sig (Elt F))).Forall fun op => op.fresh = ∅ := by
  simp only [List.Forall]; repeat' constructor
/-- The references the stretch writes. -/
abbrev opsT6_W : List (Ref sig .tc) := [main_call2_v0, main_call2_v1, main_call2_v2, main_call2_v3, main_call2_v4, main_v39]
theorem opsT6_writes : (opsT6 : List (HloOp τ sig (Elt F))).Forall fun op => op.writes ⊆ (opsT6_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT7_sub : (opsT7 : List (HloOp τ sig (Elt F))).Forall fun op => op.bufs ⊆ tcRefs τ sig :=
  ⟨nullary_bufs_sub .., nullary_bufs_sub ..⟩
theorem opsT7_fresh : (opsT7 : List (HloOp τ sig (Elt F))).Forall fun op => op.fresh = ∅ := by
  simp only [List.Forall]; repeat' constructor
/-- The references the stretch writes. -/
abbrev opsT7_W : List (Ref sig .tc) := [main_c_11, main_c_12]
theorem opsT7_writes : (opsT7 : List (HloOp τ sig (Elt F))).Forall fun op => op.writes ⊆ (opsT7_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT8_sub : (opsT8 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsT8_fresh : (opsT8 : List (HloOp τ sig (Elt F))).Forall fun op => op.fresh = ∅ := by
  simp only [List.Forall]; repeat' constructor
/-- The references the stretch writes. -/
abbrev opsT8_W : List (Ref sig .tc) := [main_call3_v0, main_call3_v1, main_call3_v2, main_call3_v3, main_call3_v4, main_v40]
theorem opsT8_writes : (opsT8 : List (HloOp τ sig (Elt F))).Forall fun op => op.writes ⊆ (opsT8_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT9_sub : (opsT9 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., nary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
theorem opsT9_fresh : (opsT9 : List (HloOp τ sig (Elt F))).Forall fun op => op.fresh = ∅ := by
  simp only [List.Forall]; repeat' constructor
/-- The references the stretch writes. -/
abbrev opsT9_W : List (Ref sig .tc) := [main_v41, main_v42, main_c_13, main_v43, main_v44, main_c_14, main_v45, main_v46, main_v47, main_c_15, main_v48, main_v49, main_c_16, main_v50, main_v51, main_v52, main_c_17, main_v53, main_v54, main_c_18, main_v55, main_v56, main_v57, main_v58, main_v59, main_v60, main_v61, main_v62, main_v63, main_c_19, main_v64, main_v65, main_c_20, main_v66, main_v67, main_v68, main_c_21, main_v69, main_v70, main_c_22, main_v71, main_v72, main_v73, main_c_23, main_v74, main_v75, main_c_24, main_v76, main_v77, main_v78, main_v79, main_c_25, main_v80, main_v81, main_v82, main_v83, main_v84, main_v85, main_v86, main_v87, main_v88, main_cst_26, main_v89, main_v90, main_v91, main_cst_27, main_v92, main_v93, main_v94, main_cst_28, main_v95, main_v96, main_v97, main_cst_29, main_v98, main_v99, main_v100, main_v101, main_v102, main_v103, main_v104, main_v105, main_v106, main_cst_30, main_v107, main_v108, main_cst_31, main_v109, main_v110, main_v111, main_cst_32, main_v112, main_v113]
theorem opsT9_writes : (opsT9 : List (HloOp τ sig (Elt F))).Forall fun op => op.writes ⊆ (opsT9_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT10_sub : (opsT10 : List (HloOp τ sig (Elt F))).Forall fun op => op.bufs ⊆ tcRefs τ sig :=
  ternary_bufs_sub ..
theorem opsT10_fresh : (opsT10 : List (HloOp τ sig (Elt F))).Forall fun op => op.fresh = ∅ := by
  simp only [List.Forall]; repeat' constructor
/-- The references the stretch writes. -/
abbrev opsT10_W : List (Ref sig .tc) := [main_v114]
theorem opsT10_writes : (opsT10 : List (HloOp τ sig (Elt F))).Forall fun op => op.writes ⊆ (opsT10_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

theorem opsT11_sub : (opsT11 : List (HloOp τ sig (Elt F))).Forall fun op => op.bufs ⊆ tcRefs τ sig :=
  ⟨nullary_bufs_sub .., binary_bufs_sub .., nullary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub ..⟩
theorem opsT11_fresh : (opsT11 : List (HloOp τ sig (Elt F))).Forall fun op => op.fresh = ∅ := by
  simp only [List.Forall]; repeat' constructor
/-- The references the stretch writes. -/
abbrev opsT11_W : List (Ref sig .tc) := [main_cst_33, main_v115, main_cst_34, main_v116, main_v117, main_v118, main_cst_35, main_v119, main_v120, main_v121, main_v122, main_cst_36, main_v123, main_v124, main_v125, main_cst_37, main_v126, main_v127, main_v128, main_v129, main_v130, main_v131, main_cst_38, main_v132, main_cst_39, main_v133, main_cst_40, main_v134, main_v135, main_cst_41, main_v136, main_v137, main_cst_42]
theorem opsT11_writes : (opsT11 : List (HloOp τ sig (Elt F))).Forall fun op => op.writes ⊆ (opsT11_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT12_sub : (opsT12 : List (HloOp τ sig (Elt F))).Forall fun op => op.bufs ⊆ tcRefs τ sig :=
  ⟨unary_bufs_sub .., ternary_bufs_sub ..⟩
theorem opsT12_fresh : (opsT12 : List (HloOp τ sig (Elt F))).Forall fun op => op.fresh = ∅ := by
  simp only [List.Forall]; repeat' constructor
/-- The references the stretch writes. -/
abbrev opsT12_W : List (Ref sig .tc) := [main_call5_v0, main_v138]
theorem opsT12_writes : (opsT12 : List (HloOp τ sig (Elt F))).Forall fun op => op.writes ⊆ (opsT12_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT13_sub : (opsT13 : List (HloOp τ sig (Elt F))).Forall fun op => op.bufs ⊆ tcRefs τ sig :=
  ⟨binary_bufs_sub .., nullary_bufs_sub .., binary_bufs_sub .., binary_bufs_sub .., nullary_bufs_sub ..⟩
theorem opsT13_fresh : (opsT13 : List (HloOp τ sig (Elt F))).Forall fun op => op.fresh = ∅ := by
  simp only [List.Forall]; repeat' constructor
/-- The references the stretch writes. -/
abbrev opsT13_W : List (Ref sig .tc) := [main_v139, main_cst_43, main_v140, main_v141, main_cst_44]
theorem opsT13_writes : (opsT13 : List (HloOp τ sig (Elt F))).Forall fun op => op.writes ⊆ (opsT13_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT14_sub : (opsT14 : List (HloOp τ sig (Elt F))).Forall fun op => op.bufs ⊆ tcRefs τ sig :=
  ⟨unary_bufs_sub .., ternary_bufs_sub ..⟩
theorem opsT14_fresh : (opsT14 : List (HloOp τ sig (Elt F))).Forall fun op => op.fresh = ∅ := by
  simp only [List.Forall]; repeat' constructor
/-- The references the stretch writes. -/
abbrev opsT14_W : List (Ref sig .tc) := [main_call6_v0, main_v142]
theorem opsT14_writes : (opsT14 : List (HloOp τ sig (Elt F))).Forall fun op => op.writes ⊆ (opsT14_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsT15_sub : (opsT15 : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., nary_bufs_sub ..⟩
theorem opsT15_fresh : (opsT15 : List (HloOp τ sig (Elt F))).Forall fun op => op.fresh = ∅ := by
  simp only [List.Forall]; repeat' constructor
/-- The references the stretch writes. -/
abbrev opsT15_W : List (Ref sig .tc) := [main_cst_45, main_v143, main_cst_46, main_v144, main_v145, main_cst_47, main_v146, main_v147, main_v148, main_v149, main_v150, main_v151, main_v152]
theorem opsT15_writes : (opsT15 : List (HloOp τ sig (Elt F))).Forall fun op => op.writes ⊆ (opsT15_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.RefRun

end
-- ==== Proof.RefRun.lean ====
/- The reference program's run read back: every weakly fair execution of @main terminates with each TensorCore buffer at
   the fold of the 247 operations over its launch contents, and no operation writes an argument. -/
import proofs.«125002_j27127013441992_1_alg».proof.Proof.RefMain
import proofs.«125002_j27127013441992_1_alg».proof.Proof.RefSub

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The signature scopes no reference and no semaphore: the program has no kernel. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch. -/
theorem ops_sub : (ops : List (HloOp τ sig (Elt F))).Forall fun op => op.bufs ⊆ tcRefs τ sig :=
  forall_app opsHead_sub (forall_app opsT1_sub (forall_app opsT2_sub (forall_app opsT3_sub (forall_app opsT4_sub (forall_app opsT5_sub (forall_app opsT6_sub (forall_app opsT7_sub (forall_app opsT8_sub (forall_app opsT9_sub (forall_app opsT10_sub (forall_app opsT11_sub (forall_app opsT12_sub (forall_app opsT13_sub (forall_app opsT14_sub (forall_app opsT15_sub (trivial))))))))))))))))

/-- No operation allocates: each determines its results. -/
theorem ops_fresh : (ops : List (HloOp τ sig (Elt F))).Forall fun op => op.fresh = ∅ :=
  forall_app opsHead_fresh (forall_app opsT1_fresh (forall_app opsT2_fresh (forall_app opsT3_fresh (forall_app opsT4_fresh (forall_app opsT5_fresh (forall_app opsT6_fresh (forall_app opsT7_fresh (forall_app opsT8_fresh (forall_app opsT9_fresh (forall_app opsT10_fresh (forall_app opsT11_fresh (forall_app opsT12_fresh (forall_app opsT13_fresh (forall_app opsT14_fresh (forall_app opsT15_fresh (trivial))))))))))))))))

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-- The fold over all the operations is the stretches' folds composed, the head's first. -/
theorem after_ops (V : Valuation τ sig (Elt F)) :
    after ops V = after opsT15 (after opsT14 (after opsT13 (after opsT12 (after opsT11 (after opsT10 (after opsT9 (after opsT8 (after opsT7 (after opsT6 (after opsT5 (after opsT4 (after opsT3 (after opsT2 (after opsT1 (after opsHead (V)))))))))))))))) := by
  simp only [ops, opsTail, List.flatten_cons, List.flatten_nil, List.append_nil, after_append]

/-- A reference that no stretch writes keeps its contents through the whole line. -/
theorem keep (r : Ref sig .tc) (h0 : r ∉ opsHead_W) (h1 : r ∉ opsT1_W) (h2 : r ∉ opsT2_W) (h3 : r ∉ opsT3_W) (h4 : r ∉ opsT4_W) (h5 : r ∉ opsT5_W) (h6 : r ∉ opsT6_W) (h7 : r ∉ opsT7_W) (h8 : r ∉ opsT8_W) (h9 : r ∉ opsT9_W) (h10 : r ∉ opsT10_W) (h11 : r ∉ opsT11_W) (h12 : r ∉ opsT12_W) (h13 : r ∉ opsT13_W) (h14 : r ∉ opsT14_W) (h15 : r ∉ opsT15_W)
    (V : Valuation τ sig (Elt F)) : after ops V (Proc.devRef .tc r) = V (Proc.devRef .tc r) := by
  rw [after_ops,
    after_of_writes_sub opsT15 _ opsT15_writes h15,
    after_of_writes_sub opsT14 _ opsT14_writes h14,
    after_of_writes_sub opsT13 _ opsT13_writes h13,
    after_of_writes_sub opsT12 _ opsT12_writes h12,
    after_of_writes_sub opsT11 _ opsT11_writes h11,
    after_of_writes_sub opsT10 _ opsT10_writes h10,
    after_of_writes_sub opsT9 _ opsT9_writes h9,
    after_of_writes_sub opsT8 _ opsT8_writes h8,
    after_of_writes_sub opsT7 _ opsT7_writes h7,
    after_of_writes_sub opsT6 _ opsT6_writes h6,
    after_of_writes_sub opsT5 _ opsT5_writes h5,
    after_of_writes_sub opsT4 _ opsT4_writes h4,
    after_of_writes_sub opsT3 _ opsT3_writes h3,
    after_of_writes_sub opsT2 _ opsT2_writes h2,
    after_of_writes_sub opsT1 _ opsT1_writes h1,
    after_of_writes_sub opsHead _ opsHead_writes h0]

/-- No operation writes an argument. -/
theorem args_kept (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig) :=
  ⟨keep main_arg0 (by decide) (by decide) (by decide) (by decide) (by decide) (by decide) (by decide) (by decide) (by decide) (by decide) (by decide) (by decide) (by decide) (by decide) (by decide) (by decide) V,
    keep main_arg1 (by decide) (by decide) (by decide) (by decide) (by decide) (by decide) (by decide) (by decide) (by decide) (by decide) (by decide) (by decide) (by decide) (by decide) (by decide) (by decide) V,
    keep main_arg2 (by decide) (by decide) (by decide) (by decide) (by decide) (by decide) (by decide) (by decide) (by decide) (by decide) (by decide) (by decide) (by decide) (by decide) (by decide) (by decide) V,
    keep main_arg3 (by decide) (by decide) (by decide) (by decide) (by decide) (by decide) (by decide) (by decide) (by decide) (by decide) (by decide) (by decide) (by decide) (by decide) (by decide) (by decide) V,
    keep main_arg4 (by decide) (by decide) (by decide) (by decide) (by decide) (by decide) (by decide) (by decide) (by decide) (by decide) (by decide) (by decide) (by decide) (by decide) (by decide) (by decide) V,
    keep main_arg5 (by decide) (by decide) (by decide) (by decide) (by decide) (by decide) (by decide) (by decide) (by decide) (by decide) (by decide) (by decide) (by decide) (by decide) (by decide) (by decide) V,
    keep main_arg6 (by decide) (by decide) (by decide) (by decide) (by decide) (by decide) (by decide) (by decide) (by decide) (by decide) (by decide) (by decide) (by decide) (by decide) (by decide) (by decide) V⟩

/-- The reference's frame: every execution terminates with the seven arguments as the launch left them. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0).trans (args_kept (launchContents m c)).1,
      (h c main_arg1).trans (args_kept (launchContents m c)).2.1,
      (h c main_arg2).trans (args_kept (launchContents m c)).2.2.1,
      (h c main_arg3).trans (args_kept (launchContents m c)).2.2.2.1,
      (h c main_arg4).trans (args_kept (launchContents m c)).2.2.2.2.1,
      (h c main_arg5).trans (args_kept (launchContents m c)).2.2.2.2.2.1,
      (h c main_arg6).trans (args_kept (launchContents m c)).2.2.2.2.2.2⟩)
    (run_main m ρ)

end Cert.ReferenceIdeal.RefRun

end
-- ==== Proof.TailRComp.lean ====
/- The reference's host operations after its pixelwise loss compute the tail function of the loss and the arguments:
   the windows' stages composed, a value a window does not write passing through it unchanged. -/
import proofs.«125002_j27127013441992_1_alg».proof.Proof.TailR
import proofs.«125002_j27127013441992_1_alg».proof.Proof.TailFn
import proofs.«125002_j27127013441992_1_alg».proof.Proof.RefRun

set_option maxRecDepth 65536

noncomputable section

namespace Cert.ReferenceIdeal.Tail

open Cert.ReferenceIdeal Cert.ReferenceIdeal.RefRun Idealize.ShloMosaic Idealize.ShloMosaic.TcCoe Idealize.SL.Sem Idealize.ShloMosaic.StableHlo
open Cert.KernelIdeal.Tail (tailFn)

variable {F : FTy → Type} [FloatOps F]

/-- A reference that no stretch of window A writes keeps its contents through the window. -/
theorem keepA (r : Ref sig .tc) (h1 : r ∉ opsT1_W) (h2 : r ∉ opsT2_W) (h3 : r ∉ opsT3_W) (h4 : r ∉ opsT4_W) (h5 : r ∉ opsT5_W) (h6 : r ∉ opsT6_W) (h7 : r ∉ opsT7_W) (h8 : r ∉ opsT8_W)
    (V : Valuation τ sig (Elt F)) : after winA V (Proc.devRef .tc r) = V (Proc.devRef .tc r) := by
  simp only [winA, after_append]
  rw [after_of_writes_sub opsT8 _ opsT8_writes h8,
    after_of_writes_sub opsT7 _ opsT7_writes h7,
    after_of_writes_sub opsT6 _ opsT6_writes h6,
    after_of_writes_sub opsT5 _ opsT5_writes h5,
    after_of_writes_sub opsT4 _ opsT4_writes h4,
    after_of_writes_sub opsT3 _ opsT3_writes h3,
    after_of_writes_sub opsT2 _ opsT2_writes h2,
    after_of_writes_sub opsT1 _ opsT1_writes h1]

/-- A reference window C does not write keeps its contents through it. -/
theorem keepC (r : Ref sig .tc) (h : r ∉ opsT9_W) (V : Valuation τ sig (Elt F)) :
    after winC V (Proc.devRef .tc r) = V (Proc.devRef .tc r) :=
  after_of_writes_sub opsT9 V opsT9_writes h

/-- A reference the pixelwise loss's operations do not write keeps its contents through them. -/
theorem keepHead (r : Ref sig .tc) (h : r ∉ opsHead_W) (V : Valuation τ sig (Elt F)) :
    after opsHead V (Proc.devRef .tc r) = V (Proc.devRef .tc r) :=
  after_of_writes_sub opsHead V opsHead_writes h

set_option maxHeartbeats 4000000 in
/-- The three windows after the loss, from any contents: the result is the tail function of the loss's buffer and the
    five arguments the tail reads. Window D's stage at the contents after windows A and C; its inputs are window C's
    stages at the contents after window A, or pass through window C; theirs are window A's stages, or pass through it. -/
theorem tail_value (V : Valuation τ sig (Elt F)) :
    after (winA ++ (winC ++ winD)) V (main_v152 : DevRef τ sig)
      = tailFn (V (main_v14 : DevRef τ sig)) (V (main_arg2 : DevRef τ sig)) (V (main_arg3 : DevRef τ sig))
          (V (main_arg4 : DevRef τ sig)) (V (main_arg5 : DevRef τ sig)) (V (main_arg6 : DevRef τ sig)) := by
  rw [after_append, after_append, stD_v141_eq, stC_v97_eq, stC_v100_eq, stC_v102_eq, stC_v76_eq,
    keepC main_arg4 (by decide), keepC main_v38 (by decide), keepC main_v14 (by decide),
    stA_v29_eq, stA_v28_eq, stA_v5_eq, stA_v7_eq, stA_v9_eq, stA_v11_eq, stA_v27_eq,
    keepA main_arg2 (by decide) (by decide) (by decide) (by decide) (by decide) (by decide) (by decide) (by decide), keepA main_arg3 (by decide) (by decide) (by decide) (by decide) (by decide) (by decide) (by decide) (by decide),
    keepA main_arg4 (by decide) (by decide) (by decide) (by decide) (by decide) (by decide) (by decide) (by decide), keepA main_v14 (by decide) (by decide) (by decide) (by decide) (by decide) (by decide) (by decide) (by decide)]
  rfl

/-- The stretches after the loss, in order, are the three windows. -/
theorem tail_flatten : (opsTail : List (List (HloOp τ sig (Elt F)))).flatten = winA ++ (winC ++ winD) := by
  simp only [opsTail, winA, winC, winD, List.flatten_cons, List.flatten_nil, List.append_nil, List.append_assoc]

/-- The whole reference: its result is the tail function of the pixelwise loss (the head's operations' value at
    %14) and the arguments, which the head's operations leave as they were. -/
theorem ref_value (V : Valuation τ sig (Elt F)) :
    after ops V (main_v152 : DevRef τ sig)
      = tailFn (after opsHead V (main_v14 : DevRef τ sig)) (V (main_arg2 : DevRef τ sig)) (V (main_arg3 : DevRef τ sig))
          (V (main_arg4 : DevRef τ sig)) (V (main_arg5 : DevRef τ sig)) (V (main_arg6 : DevRef τ sig)) := by
  have h : (ops : List (HloOp τ sig (Elt F))) = opsHead ++ (winA ++ (winC ++ winD)) := congrArg (opsHead ++ ·) tail_flatten
  rw [h, after_append, tail_value, keepHead main_arg2 (by decide), keepHead main_arg3 (by decide),
    keepHead main_arg4 (by decide), keepHead main_arg5 (by decide), keepHead main_arg6 (by decide)]

end Cert.ReferenceIdeal.Tail

end
-- ==== Proof.RefLoss.lean ====
/- The reference's pixelwise loss at the ideal float values: the value of %14 after @main's first 20 operations is the
   zero word plus the total, over all pixels, of the clamped binary cross-entropy of the prediction against the target,
   divided by the value of the word 0x4A800000 (the pixel count). -/
import proofs.«125002_j27127013441992_1_alg».proof.Proof.RefOps
import proofs.«125002_j27127013441992_1_alg».proof.Proof.BceValue

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 4000000 in
/-- The fold of the 20 operations at %14 is the division of a host sum by a constant. At the ideal values the division is
    `Ideal.div` at the one index; the host sum over all four axes into rank 0 is the initial value (the zero word) plus
    the total sum (`Ideal.hostReduceAdd_total`, its side condition vacuous at rank 0); and each summand — logarithms,
    negations, the two clamps, the products, the sum, the broadcast constants read at an index — is the pixel term by
    unfolding, since each operation is its extended-real one pointwise. -/
theorem ref_loss (V : Valuation τ sig (Elt Ideal)) :
    after opsHead V (main_v14 : DevRef τ sig)
      = fun _ => Ideal.div (Ideal.ofBits .f32 0x00000000#32
          + ∑ i : S16x1x512x512.Idx, Cert.Bce.bce (V (main_arg0 : DevRef τ sig) i) (V (main_arg1 : DevRef τ sig) i))
          (Ideal.ofBits .f32 0x4A800000#32) := by
  after_results_simp
  funext j
  refine congrArg₂ Ideal.div ?_ rfl
  refine (Ideal.hostReduceAdd_total _ (fun b => b.elim0) _ _ j).trans ?_
  rfl

end Cert.ReferenceIdeal.RefRun

end
-- ==== Proof.lean ====
/-
  The certificate of the text-detection loss kernel against its jnp reference.

  The kernel program sums the pixelwise binary cross-entropy (logarithms clamped at −100) of the prediction map against
  the target map in a Pallas region: eight blocks of 1024 rows of the [8192, 512] reshapes of the two maps, each
  block's total added to a one-word scratch that the last grid point copies to the output; the host then divides by the
  pixel count and computes the box terms — centres by floor division, validity mask, clipped centres, two gathers,
  smooth-L1 and cross-entropy of the gathered values, masked means, weighted total — and stacks the four results. The
  reference takes the mean of the same pixel terms over the whole [16, 1, 512, 512] maps and applies the same host
  computation.

  At the exact instance both programs end at ONE function of the arguments: the tail function (never opened) of the
  pixelwise loss and of the five remaining arguments. The two losses agree because the eight block totals, added in
  grid order to the zero word, are the zero word plus the total over all pixels: addition on the extended reals commutes
  and associates, the blocks partition the rows, and a reshape lists the same elements — no finiteness is needed, so the
  precondition is not opened. The kernel's negations are subtractions from the zero word, which on the extended reals
  is negation. The three frames are the programs' runs with the results dropped; the ideal pass rewrote nothing.
-/
import proofs.«125002_j27127013441992_1_alg».proof.Defs
import proofs.«125002_j27127013441992_1_alg».proof.Proof.Gen.Kernel
import proofs.«125002_j27127013441992_1_alg».proof.Proof.Gen.KernelIdeal
import proofs.«125002_j27127013441992_1_alg».proof.Proof.Gen.ReferenceIdeal
import proofs.«125002_j27127013441992_1_alg».proof.Proof.Gen.Pre_finite_inputs
import proofs.«125002_j27127013441992_1_alg».proof.Proof.KFrame
import proofs.«125002_j27127013441992_1_alg».proof.Proof.KIRun
import proofs.«125002_j27127013441992_1_alg».proof.Proof.TailRComp
import proofs.«125002_j27127013441992_1_alg».proof.Proof.RefLoss
import proofs.«125002_j27127013441992_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

/-- The ideal pass rewrote no operation. -/
theorem preserves : Cert.preserves_Kernel_KernelIdeal := trivial

/-- The reference's result, from a memory that agrees with the kernel program's on the arguments, is the kernel
    program's function of the arguments. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    StableHlo.after Cert.ReferenceIdeal.RefRun.ops (StableHlo.launchContents m' c) (Cert.ReferenceIdeal.main_v152 : DevRef Cert.ReferenceIdeal.τ Cert.ReferenceIdeal.sig)
      = Cert.KernelIdeal.Val.resultOf m c := by
  rw [Cert.ReferenceIdeal.Tail.ref_value, Cert.ReferenceIdeal.RefRun.ref_loss]
  unfold Cert.KernelIdeal.Val.resultOf Cert.KernelIdeal.Val.lossOf
  have g0 : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := h0
  have g1 : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := h1
  have g2 : StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := h2
  have g3 : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := h3
  have g4 : StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := h4
  have g5 : StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := h5
  have g6 : StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := h6
  rw [g0, g1, g2, g3, g4, g5, g6]
  rfl

/-- At the exact instance the two programs, from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.resultOf m c, Cert.KernelIdeal.Val.run m ρ, ?_⟩
  refine (θ_run Cert.ReferenceIdeal.defs _ _).mono (fun _ h c => ?_) (Cert.ReferenceIdeal.RefRun.run_main (F := Ideal) m' ρ')
  have ha := Cert.ReferenceIdeal.RefRun.args_kept (F := Ideal) (StableHlo.launchContents m' c)
  obtain ⟨a0, a1, a2, a3, a4, a5, a6⟩ := ha
  obtain ⟨e0, e1, e2, e3, e4, e5, e6⟩ := hagree c
  refine ⟨(h c Cert.ReferenceIdeal.main_v152).trans (ref_result m m' c e0 e1 e2 e3 e4 e5 e6),
    (h c Cert.ReferenceIdeal.main_arg0).trans a0, (h c Cert.ReferenceIdeal.main_arg1).trans a1,
    (h c Cert.ReferenceIdeal.main_arg2).trans a2, (h c Cert.ReferenceIdeal.main_arg3).trans a3,
    (h c Cert.ReferenceIdeal.main_arg4).trans a4, (h c Cert.ReferenceIdeal.main_arg5).trans a5,
    (h c Cert.ReferenceIdeal.main_arg6).trans a6⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
